-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v172) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S_ : Shape := ⟨0, ![]⟩
abbrev S1x1600000 : Shape := ⟨2, ![1, 1600000]⟩
abbrev S1600000 : Shape := ⟨1, ![1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_
  slices_S2x1600000_S1x1600000_1_0 : S2x1600000.Slices ![1, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part3 {F : FTy → Type} [FloatOps F] (main_arg1 : IVec S2x1600000 32) (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  let main_v54 : IVec S1x1600000 32 := (extractStridedSlice S1x1600000 ![1, 0] · slices_S2x1600000_S1x1600000_1_0) main_arg1
  let main_v55 : IVec S1600000 32 := shapeCast S1600000 main_v54 shapeCasts_S1x1600000_S1600000
  let main_c_20 : IVec S_ 32 := constantI S_ 32 0#32
  let main_v56 : IVec S1600000 32 := broadcastInDim S1600000 ![] bcast_S_S1600000 main_c_20
  let main_v57 : IVec S1600000 1 := cmpi .sge main_v55 main_v56
  let main_c_21 : IVec S_ 1 := constantI S_ 1 1#1
  let main_v58 : IVec S_ 1 := (fun x v => Host.reduce IntOp.andi x v reducesTo_S1600000_S_d0 h_S_) main_v57 main_c_21
  let main_v59 : IVec S_ 1 := andi main_v53 main_v58
  main_v59

def fn_part2 {F : FTy → Type} [FloatOps F] (main_arg1 : IVec S2x1600000 32) (main_arg8 : FVec F S64x64 .f32) (main_arg9 : FVec F S64 .f32) (main_arg10 : FVec F S64x2 .f32) (main_arg11 : FVec F S2 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x2 .f32 := Host.absf main_arg10
  let main_cst_16 : FVec F S_ .f32 := constant S_ .f32 0x7F800000#32
  let main_v45 : FVec F S64x2 .f32 := broadcastInDim S64x2 ![] bcast_S_S64x2 main_cst_16
  let main_v46 : IVec S64x2 1 := cmpf .olt main_v44 main_v45
  let main_c_17 : IVec S_ 1 := constantI S_ 1 1#1
  let main_v47 : IVec S_ 1 := (fun x v => Host.reduce IntOp.andi x v reducesTo_S64x2_S_d0_1 h_S_) main_v46 main_c_17
  let main_v48 : IVec S_ 1 := andi main_v43 main_v47
  let main_v49 : FVec F S2 .f32 := Host.absf main_arg11
  let main_cst_18 : FVec F S_ .f32 := constant S_ .f32 0x7F800000#32
  let main_v50 : FVec F S2 .f32 := broadcastInDim S2 ![] bcast_S_S2 main_cst_18
  fn_part3 (F := F) main_arg1 main_v48 main_v49 main_v50

def fn_part1 {F : FTy → Type} [FloatOps F] (main_arg1 : IVec S2x1600000 32) (main_arg5 : FVec F S128 .f32) (main_arg6 : FVec F S128x64 .f32) (main_arg7 : FVec F S64 .f32) (main_arg8 : FVec F S64x64 .f32) (main_arg9 : FVec F S64 .f32) (main_arg10 : FVec F S64x2 .f32) (main_arg11 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg8 main_arg9 main_arg10 main_arg11 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x64 .f32) (main_arg7 : FVec F S64 .f32) (main_arg8 : FVec F S64x64 .f32) (main_arg9 : FVec F S64 .f32) (main_arg10 : FVec F S64x2 .f32) (main_arg11 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_arg6 main_arg7 main_arg8 main_arg9 main_arg10 main_arg11 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S4000x128 : Shape := ⟨2, ![4000, 128]⟩
abbrev S1700000x128 : Shape := ⟨2, ![1700000, 128]⟩
abbrev S1x128 : Shape := ⟨2, ![1, 128]⟩
abbrev S4000x1 : Shape := ⟨2, ![4000, 1]⟩
abbrev S100000x64 : Shape := ⟨2, ![100000, 64]⟩
abbrev S4000x64 : Shape := ⟨2, ![4000, 64]⟩
abbrev S1700000x64 : Shape := ⟨2, ![1700000, 64]⟩
abbrev S1x64 : Shape := ⟨2, ![1, 64]⟩
abbrev S1600000x1 : Shape := ⟨2, ![1600000, 1]⟩
abbrev S1600000x64 : Shape := ⟨2, ![1600000, 64]⟩
abbrev S1x2 : Shape := ⟨2, ![1, 2]⟩
abbrev S1600000x2 : Shape := ⟨2, ![1600000, 2]⟩
abbrev S8000x64 : Shape := ⟨2, ![8000, 64]⟩
abbrev S8000x2 : Shape := ⟨2, ![8000, 2]⟩

abbrev nBuf : Space → Nat
  | .hbm => 126
  | .vmem => 29
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x2, .f32⟩
  | .hbm, ⟨11, _⟩ => ⟨S2, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S100000, .i32⟩
  | .hbm, ⟨17, _⟩ => ⟨S1700000, .i32⟩
  | .hbm, ⟨18, _⟩ => ⟨S1700000, .i32⟩
  | .hbm, ⟨19, _⟩ => ⟨S_, .f32⟩
  | .hbm, ⟨20, _⟩ => ⟨S1700000, .f32⟩
  | .hbm, ⟨21, _⟩ => ⟨S_, .f32⟩
  | .hbm, ⟨22, _⟩ => ⟨S100000, .f32⟩
  | .hbm, ⟨23, _⟩ => ⟨S1700000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .i1⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x128, .bf16⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S100000x128, .bf16⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000x128, .bf16⟩
  | .hbm, ⟨50, _⟩ => ⟨S1700000x128, .f32⟩
  | .hbm, ⟨51, _⟩ => ⟨S_, .f32⟩
  | .hbm, ⟨52, _⟩ => ⟨S100000x128, .f32⟩
  | .hbm, ⟨53, _⟩ => ⟨S1700000x1, .i32⟩
  | .hbm, ⟨54, _⟩ => ⟨S100000x128, .f32⟩
  | .hbm, ⟨55, _⟩ => ⟨S1x128, .f32⟩
  | .hbm, ⟨56, _⟩ => ⟨S100000x128, .bf16⟩
  | .hbm, ⟨57, _⟩ => ⟨S100000x128, .f32⟩
  | .hbm, ⟨58, _⟩ => ⟨S100000x128, .f32⟩
  | .hbm, ⟨59, _⟩ => ⟨S100000x128, .f32⟩
  | .hbm, ⟨60, _⟩ => ⟨S100000x128, .bf16⟩
  | .hbm, ⟨61, _⟩ => ⟨S_, .i32⟩
  | .hbm, ⟨62, _⟩ => ⟨S1700000, .i32⟩
  | .hbm, ⟨63, _⟩ => ⟨S1700000, .i1⟩
  | .hbm, ⟨64, _⟩ => ⟨S_, .i32⟩
  | .hbm, ⟨65, _⟩ => ⟨S1700000, .i32⟩
  | .hbm, ⟨66, _⟩ => ⟨S1700000, .i32⟩
  | .hbm, ⟨67, _⟩ => ⟨S1700000, .i32⟩
  | .hbm, ⟨68, _⟩ => ⟨S1700000x1, .i32⟩
  | .hbm, ⟨69, _⟩ => ⟨S1700000x128, .bf16⟩
  | .hbm, ⟨70, _⟩ => ⟨S1700000x128, .f32⟩
  | .hbm, ⟨71, _⟩ => ⟨S_, .f32⟩
  | .hbm, ⟨72, _⟩ => ⟨S100000x128, .f32⟩
  | .hbm, ⟨73, _⟩ => ⟨S1700000x1, .i32⟩
  | .hbm, ⟨74, _⟩ => ⟨S100000x128, .f32⟩
  | .hbm, ⟨75, _⟩ => ⟨S1x128, .f32⟩
  | .hbm, ⟨76, _⟩ => ⟨S100000x64, .bf16⟩
  | .hbm, ⟨77, _⟩ => ⟨S100000x64, .f32⟩
  | .hbm, ⟨78, _⟩ => ⟨S100000x64, .f32⟩
  | .hbm, ⟨79, _⟩ => ⟨S100000x64, .f32⟩
  | .hbm, ⟨80, _⟩ => ⟨S100000x64, .bf16⟩
  | .hbm, ⟨81, _⟩ => ⟨S_, .i32⟩
  | .hbm, ⟨82, _⟩ => ⟨S1700000, .i32⟩
  | .hbm, ⟨83, _⟩ => ⟨S1700000, .i1⟩
  | .hbm, ⟨84, _⟩ => ⟨S_, .i32⟩
  | .hbm, ⟨85, _⟩ => ⟨S1700000, .i32⟩
  | .hbm, ⟨86, _⟩ => ⟨S1700000, .i32⟩
  | .hbm, ⟨87, _⟩ => ⟨S1700000, .i32⟩
  | .hbm, ⟨88, _⟩ => ⟨S1700000x1, .i32⟩
  | .hbm, ⟨89, _⟩ => ⟨S1700000x64, .bf16⟩
  | .hbm, ⟨90, _⟩ => ⟨S1700000x64, .f32⟩
  | .hbm, ⟨91, _⟩ => ⟨S_, .f32⟩
  | .hbm, ⟨92, _⟩ => ⟨S100000x64, .f32⟩
  | .hbm, ⟨93, _⟩ => ⟨S1700000x1, .i32⟩
  | .hbm, ⟨94, _⟩ => ⟨S100000x64, .f32⟩
  | .hbm, ⟨95, _⟩ => ⟨S100000x64, .f32⟩
  | .hbm, ⟨96, _⟩ => ⟨S100000x64, .f32⟩
  | .hbm, ⟨97, _⟩ => ⟨S1x64, .f32⟩
  | .hbm, ⟨98, _⟩ => ⟨S100000x64, .f32⟩
  | .hbm, ⟨99, _⟩ => ⟨S100000x64, .f32⟩
  | .hbm, ⟨100, _⟩ => ⟨S_, .i32⟩
  | .hbm, ⟨101, _⟩ => ⟨S1600000, .i32⟩
  | .hbm, ⟨102, _⟩ => ⟨S1600000, .i1⟩
  | .hbm, ⟨103, _⟩ => ⟨S_, .i32⟩
  | .hbm, ⟨104, _⟩ => ⟨S1600000, .i32⟩
  | .hbm, ⟨105, _⟩ => ⟨S1600000, .i32⟩
  | .hbm, ⟨106, _⟩ => ⟨S1600000, .i32⟩
  | .hbm, ⟨107, _⟩ => ⟨S1600000x1, .i32⟩
  | .hbm, ⟨108, _⟩ => ⟨S1600000x64, .f32⟩
  | .hbm, ⟨109, _⟩ => ⟨S_, .i32⟩
  | .hbm, ⟨110, _⟩ => ⟨S1600000, .i32⟩
  | .hbm, ⟨111, _⟩ => ⟨S1600000, .i1⟩
  | .hbm, ⟨112, _⟩ => ⟨S_, .i32⟩
  | .hbm, ⟨113, _⟩ => ⟨S1600000, .i32⟩
  | .hbm, ⟨114, _⟩ => ⟨S1600000, .i32⟩
  | .hbm, ⟨115, _⟩ => ⟨S1600000, .i32⟩
  | .hbm, ⟨116, _⟩ => ⟨S1600000x1, .i32⟩
  | .hbm, ⟨117, _⟩ => ⟨S1600000x64, .f32⟩
  | .hbm, ⟨118, _⟩ => ⟨S1600000x64, .f32⟩
  | .hbm, ⟨119, _⟩ => ⟨S_, .f32⟩
  | .hbm, ⟨120, _⟩ => ⟨S1600000x64, .f32⟩
  | .hbm, ⟨121, _⟩ => ⟨S1600000x64, .f32⟩
  | .hbm, ⟨122, _⟩ => ⟨S1600000x64, .bf16⟩
  | .hbm, ⟨123, _⟩ => ⟨S1x64, .f32⟩
  | .hbm, ⟨124, _⟩ => ⟨S1x2, .f32⟩
  | .hbm, ⟨125, _⟩ => ⟨S1600000x2, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S4000x128, .bf16⟩
  | .local _ .vmem, ⟨4, _⟩ => ⟨S4000x128, .bf16⟩
  | .local _ .vmem, ⟨5, _⟩ => ⟨S4000x128, .f32⟩
  | .local _ .vmem, ⟨6, _⟩ => ⟨S4000x128, .f32⟩
  | .local _ .vmem, ⟨7, _⟩ => ⟨S4000x1, .f32⟩
  | .local _ .vmem, ⟨8, _⟩ => ⟨S4000x1, .f32⟩
  | .local _ .vmem, ⟨9, _⟩ => ⟨S1x128, .f32⟩
  | .local _ .vmem, ⟨10, _⟩ => ⟨S128x128, .f32⟩
  | .local _ .vmem, ⟨11, _⟩ => ⟨S4000x128, .bf16⟩
  | .local _ .vmem, ⟨12, _⟩ => ⟨S4000x128, .bf16⟩
  | .local _ .vmem, ⟨13, _⟩ => ⟨S4000x128, .f32⟩
  | .local _ .vmem, ⟨14, _⟩ => ⟨S4000x128, .f32⟩
  | .local _ .vmem, ⟨15, _⟩ => ⟨S4000x1, .f32⟩
  | .local _ .vmem, ⟨16, _⟩ => ⟨S4000x1, .f32⟩
  | .local _ .vmem, ⟨17, _⟩ => ⟨S1x128, .f32⟩
  | .local _ .vmem, ⟨18, _⟩ => ⟨S128x64, .f32⟩
  | .local _ .vmem, ⟨19, _⟩ => ⟨S4000x64, .bf16⟩
  | .local _ .vmem, ⟨20, _⟩ => ⟨S4000x64, .bf16⟩
  | .local _ .vmem, ⟨21, _⟩ => ⟨S8000x64, .bf16⟩
  | .local _ .vmem, ⟨22, _⟩ => ⟨S8000x64, .bf16⟩
  | .local _ .vmem, ⟨23, _⟩ => ⟨S64x64, .f32⟩
  | .local _ .vmem, ⟨24, _⟩ => ⟨S1x64, .f32⟩
  | .local _ .vmem, ⟨25, _⟩ => ⟨S64x2, .f32⟩
  | .local _ .vmem, ⟨26, _⟩ => ⟨S1x2, .f32⟩
  | .local _ .vmem, ⟨27, _⟩ => ⟨S8000x2, .f32⟩
  | .local _ .vmem, ⟨28, _⟩ => ⟨S8000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c : Ref sig .tc := ⟨.hbm, 41, rfl⟩
abbrev main_v22 : Ref sig .tc := ⟨.hbm, 42, rfl⟩
abbrev main_v23 : Ref sig .tc := ⟨.hbm, 43, rfl⟩
abbrev main_c_4 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_5 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_c_6 : Ref sig .tc := ⟨.hbm, 61, rfl⟩
abbrev main_v39 : Ref sig .tc := ⟨.hbm, 62, rfl⟩
abbrev main_v40 : Ref sig .tc := ⟨.hbm, 63, rfl⟩
abbrev main_c_7 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_8 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_c_9 : Ref sig .tc := ⟨.hbm, 81, rfl⟩
abbrev main_v56 : Ref sig .tc := ⟨.hbm, 82, rfl⟩
abbrev main_v57 : Ref sig .tc := ⟨.hbm, 83, rfl⟩
abbrev main_c_10 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_11 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_c_12 : Ref sig .tc := ⟨.hbm, 100, rfl⟩
abbrev main_v72 : Ref sig .tc := ⟨.hbm, 101, rfl⟩
abbrev main_v73 : Ref sig .tc := ⟨.hbm, 102, rfl⟩
abbrev main_c_13 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_c_14 : Ref sig .tc := ⟨.hbm, 109, rfl⟩
abbrev main_v79 : Ref sig .tc := ⟨.hbm, 110, rfl⟩
abbrev main_v80 : Ref sig .tc := ⟨.hbm, 111, rfl⟩
abbrev main_c_15 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_16 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg5_0 : Ref sig .tc := ⟨.vmem, 27, rfl⟩
abbrev cc3_stg5_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem4_0 : DmaSem sig := 19
abbrev cc2_sem4_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem3_0 : DmaSem sig := 25
abbrev cc3_sem4_0 : DmaSem sig := 26
abbrev cc3_sem5_0 : DmaSem sig := 27
abbrev cc3_sem5_1 : DmaSem sig := 28

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S4000x64 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![200], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x2 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x2 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S8000x2 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S4000x128_S4000x128_0_0 : (Rect.unit (s := S4000x128) ![0, 0] S4000x128.size inb_S4000x128_S4000x128_0_0).PackedRows (EltTy.packing .bf16)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  shapeCasts_S128_S1x128 : S128.ShapeCasts S1x128
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S4000x1_S4000x128 : S4000x1.Broadcasts S4000x128
  broadcasts_S1x128_S4000x128 : S1x128.Broadcasts S4000x128
  inb_S128x64_S128x64_0_0 : ∀ a, (![0, 0] : Fin 2 → Nat) a + S128x64.size a ≤ S128x64.size a
  h_S128x64 : 0 < S128x64.numel
  inb_S4000x64_S4000x64_0_0 : ∀ a, (![0, 0] : Fin 2 → Nat) a + S4000x64.size a ≤ S4000x64.size a
  h_S4000x64 : 0 < S4000x64.numel
  packedbf16_S4000x64_S4000x64_0_0 : (Rect.unit (s := S4000x64) ![0, 0] S4000x64.size inb_S4000x64_S4000x64_0_0).PackedRows (EltTy.packing .bf16)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x64 : S_.BroadcastsInDim S1600000x64 (![] : Fin 0 → Fin S1600000x64.rank)
  shapeCasts_S64_S1x64 : S64.ShapeCasts S1x64
  shapeCasts_S2_S1x2 : S2.ShapeCasts S1x2
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S8000x2 : S1x2.Broadcasts S8000x2
  inb_S8000x2_S8000x2_0_0 : ∀ a, (![0, 0] : Fin 2 → Nat) a + S8000x2.size a ≤ S8000x2.size a
  h_S8000x2 : 0 < S8000x2.numel
  scatter_S100000_S1700000x1_S1700000_n_0_0_1_wf : ScatterDims.WF S100000 S1700000x1 S1700000 [] [0] [0] 1
  dot_S4000x128_S128x128_S4000x128_1_0_0_1_n_n_wf : DotDims.WF S4000x128 S128x128 S4000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S4000x128_S128x64_S4000x64_1_0_0_1_n_n_wf : DotDims.WF S4000x128 S128x64 S4000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  gather_S100000x64_S1600000x1_S1600000x64_1_0_n_n_0_1_164_wf : GatherDims.WF S100000x64 S1600000x1 S1600000x64 [1] [0] [] [0] [] 1 ![1, 64]
  dot_S8000x64_S64x64_S8000x64_1_0_0_1_n_n_wf : DotDims.WF S8000x64 S64x64 S8000x64 [1] [0] [0] [1] [] []
  dot_S8000x64_S64x2_S8000x2_1_0_0_1_n_n_wf : DotDims.WF S8000x64 S64x2 S8000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .bf16 = 32 ∨ (Rect.block (s := S100000x128) S4000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x128.size a ≤ S100000x128.size a
  hwx1_4 : ∀ i : grid1.Coords, EltTy.bits .bf16 = 32 ∨ (Rect.block (s := S100000x128) S4000x128.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S100000x1.size a
  hwx2_1 : ∀ i : grid2.Coords, EltTy.bits .f32 = 32 ∨ (Rect.block (s := S100000x1) S4000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x64.size a ≤ S100000x64.size a
  hwx2_4 : ∀ i : grid2.Coords, EltTy.bits .bf16 = 32 ∨ (Rect.block (s := S100000x64) S4000x64.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x64.size a ≤ S1600000x64.size a
  hwx3_0 : ∀ i : grid3.Coords, EltTy.bits .bf16 = 32 ∨ (Rect.block (s := S1600000x64) S8000x64.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x2.size a ≤ S64x2.size a
  hwx3_3 : ∀ i : grid3.Coords, EltTy.bits .f32 = 32 ∨ (Rect.block (s := S64x2) S64x2.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x2.size a ≤ S1x2.size a
  hwx3_4 : ∀ i : grid3.Coords, EltTy.bits .f32 = 32 ∨ (Rect.block (s := S1x2) S1x2.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S8000x2.size a ≤ S1600000x2.size a
  hwx3_5 : ∀ i : grid3.Coords, EltTy.bits .f32 = 32 ∨ (Rect.block (s := S1600000x2) S8000x2.size (cc3_transform_5 i) (hinb3_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def dot_S8000x64_S64x2_S8000x2_1_0_0_1_n_n : DotDims S8000x64 S64x2 S8000x2 where
  lhsContracting := [1]
  rhsContracting := [0]
  lhsNonContracting := [0]
  rhsNonContracting := [1]
  lhsBatch := []
  rhsBatch := []
  wf := dot_S8000x64_S64x2_S8000x2_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v32) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S4000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v49) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v50) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v51) S4000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v89) S8000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v90) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg10) S64x2.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v91) S1x2.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v92) S8000x2.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩
abbrev S1600000x1 : Shape := ⟨2, ![1600000, 1]⟩
abbrev S1600000x64 : Shape := ⟨2, ![1600000, 64]⟩
abbrev S1600000x2 : Shape := ⟨2, ![1600000, 2]⟩
abbrev S1x2 : Shape := ⟨2, ![1, 2]⟩

abbrev nBuf : Space → Nat
  | .hbm => 244
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128x64, .f32⟩
  | 7 => ⟨S64, .f32⟩
  | 8 => ⟨S64x64, .f32⟩
  | 9 => ⟨S64, .f32⟩
  | 10 => ⟨S64x2, .f32⟩
  | 11 => ⟨S2, .f32⟩
  | 12 => ⟨S1x1600000, .i32⟩
  | 13 => ⟨S1600000, .i32⟩
  | 14 => ⟨S1x1600000, .i32⟩
  | 15 => ⟨S1600000, .i32⟩
  | 16 => ⟨S100000, .i32⟩
  | 17 => ⟨S1700000, .i32⟩
  | 18 => ⟨S1700000, .i32⟩
  | 19 => ⟨S100000x128, .f32⟩
  | 20 => ⟨S_, .f32⟩
  | 21 => ⟨S100000, .f32⟩
  | 22 => ⟨S_, .i32⟩
  | 23 => ⟨S1700000, .i32⟩
  | 24 => ⟨S1700000, .i1⟩
  | 25 => ⟨S_, .i32⟩
  | 26 => ⟨S1700000, .i32⟩
  | 27 => ⟨S1700000, .i32⟩
  | 28 => ⟨S1700000, .i32⟩
  | 29 => ⟨S1700000x1, .i32⟩
  | 30 => ⟨S_, .f32⟩
  | 31 => ⟨S1700000, .f32⟩
  | 32 => ⟨S100000, .f32⟩
  | 33 => ⟨S_, .f32⟩
  | 34 => ⟨S100000, .f32⟩
  | 35 => ⟨S100000, .i1⟩
  | 36 => ⟨S_, .f32⟩
  | 37 => ⟨S100000, .f32⟩
  | 38 => ⟨S100000, .f32⟩
  | 39 => ⟨S_, .f32⟩
  | 40 => ⟨S_, .f32⟩
  | 41 => ⟨S100000, .f32⟩
  | 42 => ⟨S100000, .f32⟩
  | 43 => ⟨S_, .i32⟩
  | 44 => ⟨S1700000, .i32⟩
  | 45 => ⟨S1700000, .i1⟩
  | 46 => ⟨S_, .i32⟩
  | 47 => ⟨S1700000, .i32⟩
  | 48 => ⟨S1700000, .i32⟩
  | 49 => ⟨S1700000, .i32⟩
  | 50 => ⟨S1700000x1, .i32⟩
  | 51 => ⟨S1700000, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000, .f32⟩
  | 61 => ⟨S1700000, .f32⟩
  | 62 => ⟨S_, .i32⟩
  | 63 => ⟨S1700000, .i32⟩
  | 64 => ⟨S1700000, .i1⟩
  | 65 => ⟨S_, .i32⟩
  | 66 => ⟨S1700000, .i32⟩
  | 67 => ⟨S1700000, .i32⟩
  | 68 => ⟨S1700000, .i32⟩
  | 69 => ⟨S1700000x1, .i32⟩
  | 70 => ⟨S1700000x128, .f32⟩
  | 71 => ⟨S1700000x1, .f32⟩
  | 72 => ⟨S1700000x128, .f32⟩
  | 73 => ⟨S1700000x128, .f32⟩
  | 74 => ⟨S_, .f32⟩
  | 75 => ⟨S100000x128, .f32⟩
  | 76 => ⟨S1700000x1, .i32⟩
  | 77 => ⟨S100000x128, .f32⟩
  | 78 => ⟨S1x128, .f32⟩
  | 79 => ⟨S100000x128, .f32⟩
  | 80 => ⟨S100000x128, .f32⟩
  | 81 => ⟨S_, .f32⟩
  | 82 => ⟨S100000x128, .f32⟩
  | 83 => ⟨S100000x128, .f32⟩
  | 84 => ⟨S100000x128, .f32⟩
  | 85 => ⟨S_, .f32⟩
  | 86 => ⟨S100000, .f32⟩
  | 87 => ⟨S_, .i32⟩
  | 88 => ⟨S1700000, .i32⟩
  | 89 => ⟨S1700000, .i1⟩
  | 90 => ⟨S_, .i32⟩
  | 91 => ⟨S1700000, .i32⟩
  | 92 => ⟨S1700000, .i32⟩
  | 93 => ⟨S1700000, .i32⟩
  | 94 => ⟨S1700000x1, .i32⟩
  | 95 => ⟨S_, .f32⟩
  | 96 => ⟨S1700000, .f32⟩
  | 97 => ⟨S100000, .f32⟩
  | 98 => ⟨S_, .f32⟩
  | 99 => ⟨S100000, .f32⟩
  | 100 => ⟨S100000, .i1⟩
  | 101 => ⟨S_, .f32⟩
  | 102 => ⟨S100000, .f32⟩
  | 103 => ⟨S100000, .f32⟩
  | 104 => ⟨S_, .f32⟩
  | 105 => ⟨S_, .f32⟩
  | 106 => ⟨S100000, .f32⟩
  | 107 => ⟨S100000, .f32⟩
  | 108 => ⟨S_, .i32⟩
  | 109 => ⟨S1700000, .i32⟩
  | 110 => ⟨S1700000, .i1⟩
  | 111 => ⟨S_, .i32⟩
  | 112 => ⟨S1700000, .i32⟩
  | 113 => ⟨S1700000, .i32⟩
  | 114 => ⟨S1700000, .i32⟩
  | 115 => ⟨S1700000x1, .i32⟩
  | 116 => ⟨S1700000, .f32⟩
  | 117 => ⟨S_, .i32⟩
  | 118 => ⟨S1700000, .i32⟩
  | 119 => ⟨S1700000, .i1⟩
  | 120 => ⟨S_, .i32⟩
  | 121 => ⟨S1700000, .i32⟩
  | 122 => ⟨S1700000, .i32⟩
  | 123 => ⟨S1700000, .i32⟩
  | 124 => ⟨S1700000x1, .i32⟩
  | 125 => ⟨S1700000, .f32⟩
  | 126 => ⟨S1700000, .f32⟩
  | 127 => ⟨S_, .i32⟩
  | _ => ⟨S100000x128, .f32⟩

abbrev hbmTy0_1 (i : Nat) : BufTy := match i % 128 with
  | 0 => ⟨S1700000, .i32⟩
  | 1 => ⟨S1700000, .i1⟩
  | 2 => ⟨S_, .i32⟩
  | 3 => ⟨S1700000, .i32⟩
  | 4 => ⟨S1700000, .i32⟩
  | 5 => ⟨S1700000, .i32⟩
  | 6 => ⟨S1700000x1, .i32⟩
  | 7 => ⟨S1700000x128, .f32⟩
  | 8 => ⟨S1700000x1, .f32⟩
  | 9 => ⟨S1700000x128, .f32⟩
  | 10 => ⟨S1700000x128, .f32⟩
  | 11 => ⟨S_, .f32⟩
  | 12 => ⟨S100000x128, .f32⟩
  | 13 => ⟨S1700000x1, .i32⟩
  | 14 => ⟨S100000x128, .f32⟩
  | 15 => ⟨S1x128, .f32⟩
  | 16 => ⟨S100000x128, .f32⟩
  | 17 => ⟨S100000x128, .f32⟩
  | 18 => ⟨S_, .f32⟩
  | 19 => ⟨S100000x128, .f32⟩
  | 20 => ⟨S100000x128, .f32⟩
  | 21 => ⟨S100000x64, .f32⟩
  | 22 => ⟨S_, .f32⟩
  | 23 => ⟨S100000, .f32⟩
  | 24 => ⟨S_, .i32⟩
  | 25 => ⟨S1700000, .i32⟩
  | 26 => ⟨S1700000, .i1⟩
  | 27 => ⟨S_, .i32⟩
  | 28 => ⟨S1700000, .i32⟩
  | 29 => ⟨S1700000, .i32⟩
  | 30 => ⟨S1700000, .i32⟩
  | 31 => ⟨S1700000x1, .i32⟩
  | 32 => ⟨S_, .f32⟩
  | 33 => ⟨S1700000, .f32⟩
  | 34 => ⟨S100000, .f32⟩
  | 35 => ⟨S_, .f32⟩
  | 36 => ⟨S100000, .f32⟩
  | 37 => ⟨S100000, .i1⟩
  | 38 => ⟨S_, .f32⟩
  | 39 => ⟨S100000, .f32⟩
  | 40 => ⟨S100000, .f32⟩
  | 41 => ⟨S_, .f32⟩
  | 42 => ⟨S_, .f32⟩
  | 43 => ⟨S100000, .f32⟩
  | 44 => ⟨S100000, .f32⟩
  | 45 => ⟨S_, .i32⟩
  | 46 => ⟨S1700000, .i32⟩
  | 47 => ⟨S1700000, .i1⟩
  | 48 => ⟨S_, .i32⟩
  | 49 => ⟨S1700000, .i32⟩
  | 50 => ⟨S1700000, .i32⟩
  | 51 => ⟨S1700000, .i32⟩
  | 52 => ⟨S1700000x1, .i32⟩
  | 53 => ⟨S1700000, .f32⟩
  | 54 => ⟨S_, .i32⟩
  | 55 => ⟨S1700000, .i32⟩
  | 56 => ⟨S1700000, .i1⟩
  | 57 => ⟨S_, .i32⟩
  | 58 => ⟨S1700000, .i32⟩
  | 59 => ⟨S1700000, .i32⟩
  | 60 => ⟨S1700000, .i32⟩
  | 61 => ⟨S1700000x1, .i32⟩
  | 62 => ⟨S1700000, .f32⟩
  | 63 => ⟨S1700000, .f32⟩
  | 64 => ⟨S_, .i32⟩
  | 65 => ⟨S1700000, .i32⟩
  | 66 => ⟨S1700000, .i1⟩
  | 67 => ⟨S_, .i32⟩
  | 68 => ⟨S1700000, .i32⟩
  | 69 => ⟨S1700000, .i32⟩
  | 70 => ⟨S1700000, .i32⟩
  | 71 => ⟨S1700000x1, .i32⟩
  | 72 => ⟨S1700000x64, .f32⟩
  | 73 => ⟨S1700000x1, .f32⟩
  | 74 => ⟨S1700000x64, .f32⟩
  | 75 => ⟨S1700000x64, .f32⟩
  | 76 => ⟨S_, .f32⟩
  | 77 => ⟨S100000x64, .f32⟩
  | 78 => ⟨S1700000x1, .i32⟩
  | 79 => ⟨S100000x64, .f32⟩
  | 80 => ⟨S1x64, .f32⟩
  | 81 => ⟨S100000x64, .f32⟩
  | 82 => ⟨S100000x64, .f32⟩
  | 83 => ⟨S_, .i32⟩
  | 84 => ⟨S1600000, .i32⟩
  | 85 => ⟨S1600000, .i1⟩
  | 86 => ⟨S_, .i32⟩
  | 87 => ⟨S1600000, .i32⟩
  | 88 => ⟨S1600000, .i32⟩
  | 89 => ⟨S1600000, .i32⟩
  | 90 => ⟨S1600000x1, .i32⟩
  | 91 => ⟨S1600000x64, .f32⟩
  | 92 => ⟨S_, .i32⟩
  | 93 => ⟨S1600000, .i32⟩
  | 94 => ⟨S1600000, .i1⟩
  | 95 => ⟨S_, .i32⟩
  | 96 => ⟨S1600000, .i32⟩
  | 97 => ⟨S1600000, .i32⟩
  | 98 => ⟨S1600000, .i32⟩
  | 99 => ⟨S1600000x1, .i32⟩
  | 100 => ⟨S1600000x64, .f32⟩
  | 101 => ⟨S1600000x64, .f32⟩
  | 102 => ⟨S_, .f32⟩
  | 103 => ⟨S1600000x64, .f32⟩
  | 104 => ⟨S1600000x64, .f32⟩
  | 105 => ⟨S1600000x64, .f32⟩
  | 106 => ⟨S1x64, .f32⟩
  | 107 => ⟨S1600000x64, .f32⟩
  | 108 => ⟨S1600000x64, .f32⟩
  | 109 => ⟨S_, .f32⟩
  | 110 => ⟨S1600000x64, .f32⟩
  | 111 => ⟨S1600000x64, .f32⟩
  | 112 => ⟨S1600000x2, .f32⟩
  | 113 => ⟨S1x2, .f32⟩
  | 114 => ⟨S1600000x2, .f32⟩
  | 115 => ⟨S1600000x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_c : Ref sig .tc := ⟨.hbm, 22, rfl⟩
abbrev main_v9 : Ref sig .tc := ⟨.hbm, 23, rfl⟩
abbrev main_v10 : Ref sig .tc := ⟨.hbm, 24, rfl⟩
abbrev main_c_0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_cst_3 : Ref sig .tc := ⟨.hbm, 36, rfl⟩
abbrev main_v19 : Ref sig .tc := ⟨.hbm, 37, rfl⟩
abbrev main_v20 : Ref sig .tc := ⟨.hbm, 38, rfl⟩
abbrev main_cst_4 : Ref sig .tc := ⟨.hbm, 39, rfl⟩
abbrev main_call0_v0 : Ref sig .tc := ⟨.hbm, 40, rfl⟩
abbrev main_call0_v1 : Ref sig .tc := ⟨.hbm, 41, rfl⟩
abbrev main_v21 : Ref sig .tc := ⟨.hbm, 42, rfl⟩
abbrev main_c_5 : Ref sig .tc := ⟨.hbm, 43, rfl⟩
abbrev main_v22 : Ref sig .tc := ⟨.hbm, 44, rfl⟩
abbrev main_v23 : Ref sig .tc := ⟨.hbm, 45, rfl⟩
abbrev main_c_6 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_c_7 : Ref sig .tc := ⟨.hbm, 52, rfl⟩
abbrev main_v29 : Ref sig .tc := ⟨.hbm, 53, rfl⟩
abbrev main_v30 : Ref sig .tc := ⟨.hbm, 54, rfl⟩
abbrev main_c_8 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_c_9 : Ref sig .tc := ⟨.hbm, 62, rfl⟩
abbrev main_v37 : Ref sig .tc := ⟨.hbm, 63, rfl⟩
abbrev main_v38 : Ref sig .tc := ⟨.hbm, 64, rfl⟩
abbrev main_c_10 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_11 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_call1_cst : Ref sig .tc := ⟨.hbm, 81, rfl⟩
abbrev main_call1_v0 : Ref sig .tc := ⟨.hbm, 82, rfl⟩
abbrev main_v53 : Ref sig .tc := ⟨.hbm, 83, rfl⟩
abbrev main_v54 : Ref sig .tc := ⟨.hbm, 84, rfl⟩
abbrev main_cst_12 : Ref sig .tc := ⟨.hbm, 85, rfl⟩
abbrev main_v55 : Ref sig .tc := ⟨.hbm, 86, rfl⟩
abbrev main_c_13 : Ref sig .tc := ⟨.hbm, 87, rfl⟩
abbrev main_v56 : Ref sig .tc := ⟨.hbm, 88, rfl⟩
abbrev main_v57 : Ref sig .tc := ⟨.hbm, 89, rfl⟩
abbrev main_c_14 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_15 : Ref sig .tc := ⟨.hbm, 95, rfl⟩
abbrev main_v62 : Ref sig .tc := ⟨.hbm, 96, rfl⟩
abbrev main_v63 : Ref sig .tc := ⟨.hbm, 97, rfl⟩
abbrev main_cst_16 : Ref sig .tc := ⟨.hbm, 98, rfl⟩
abbrev main_v64 : Ref sig .tc := ⟨.hbm, 99, rfl⟩
abbrev main_v65 : Ref sig .tc := ⟨.hbm, 100, rfl⟩
abbrev main_cst_17 : Ref sig .tc := ⟨.hbm, 101, rfl⟩
abbrev main_v66 : Ref sig .tc := ⟨.hbm, 102, rfl⟩
abbrev main_v67 : Ref sig .tc := ⟨.hbm, 103, rfl⟩
abbrev main_cst_18 : Ref sig .tc := ⟨.hbm, 104, rfl⟩
abbrev main_call2_v0 : Ref sig .tc := ⟨.hbm, 105, rfl⟩
abbrev main_call2_v1 : Ref sig .tc := ⟨.hbm, 106, rfl⟩
abbrev main_v68 : Ref sig .tc := ⟨.hbm, 107, rfl⟩
abbrev main_c_19 : Ref sig .tc := ⟨.hbm, 108, rfl⟩
abbrev main_v69 : Ref sig .tc := ⟨.hbm, 109, rfl⟩
abbrev main_v70 : Ref sig .tc := ⟨.hbm, 110, rfl⟩
abbrev main_c_20 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_c_21 : Ref sig .tc := ⟨.hbm, 117, rfl⟩
abbrev main_v76 : Ref sig .tc := ⟨.hbm, 118, rfl⟩
abbrev main_v77 : Ref sig .tc := ⟨.hbm, 119, rfl⟩
abbrev main_c_22 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_c_23 : Ref sig .tc := ⟨.hbm, 127, rfl⟩
abbrev main_v84 : Ref sig .tc := ⟨.hbm, 128, rfl⟩
abbrev main_v85 : Ref sig .tc := ⟨.hbm, 129, rfl⟩
abbrev main_c_24 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_cst_25 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_call3_cst : Ref sig .tc := ⟨.hbm, 146, rfl⟩
abbrev main_call3_v0 : Ref sig .tc := ⟨.hbm, 147, rfl⟩
abbrev main_v100 : Ref sig .tc := ⟨.hbm, 148, rfl⟩
abbrev main_v101 : Ref sig .tc := ⟨.hbm, 149, rfl⟩
abbrev main_cst_26 : Ref sig .tc := ⟨.hbm, 150, rfl⟩
abbrev main_v102 : Ref sig .tc := ⟨.hbm, 151, rfl⟩
abbrev main_c_27 : Ref sig .tc := ⟨.hbm, 152, rfl⟩
abbrev main_v103 : Ref sig .tc := ⟨.hbm, 153, rfl⟩
abbrev main_v104 : Ref sig .tc := ⟨.hbm, 154, rfl⟩
abbrev main_c_28 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_cst_29 : Ref sig .tc := ⟨.hbm, 160, rfl⟩
abbrev main_v109 : Ref sig .tc := ⟨.hbm, 161, rfl⟩
abbrev main_v110 : Ref sig .tc := ⟨.hbm, 162, rfl⟩
abbrev main_cst_30 : Ref sig .tc := ⟨.hbm, 163, rfl⟩
abbrev main_v111 : Ref sig .tc := ⟨.hbm, 164, rfl⟩
abbrev main_v112 : Ref sig .tc := ⟨.hbm, 165, rfl⟩
abbrev main_cst_31 : Ref sig .tc := ⟨.hbm, 166, rfl⟩
abbrev main_v113 : Ref sig .tc := ⟨.hbm, 167, rfl⟩
abbrev main_v114 : Ref sig .tc := ⟨.hbm, 168, rfl⟩
abbrev main_cst_32 : Ref sig .tc := ⟨.hbm, 169, rfl⟩
abbrev main_call4_v0 : Ref sig .tc := ⟨.hbm, 170, rfl⟩
abbrev main_call4_v1 : Ref sig .tc := ⟨.hbm, 171, rfl⟩
abbrev main_v115 : Ref sig .tc := ⟨.hbm, 172, rfl⟩
abbrev main_c_33 : Ref sig .tc := ⟨.hbm, 173, rfl⟩
abbrev main_v116 : Ref sig .tc := ⟨.hbm, 174, rfl⟩
abbrev main_v117 : Ref sig .tc := ⟨.hbm, 175, rfl⟩
abbrev main_c_34 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_c_35 : Ref sig .tc := ⟨.hbm, 182, rfl⟩
abbrev main_v123 : Ref sig .tc := ⟨.hbm, 183, rfl⟩
abbrev main_v124 : Ref sig .tc := ⟨.hbm, 184, rfl⟩
abbrev main_c_36 : Ref sig .tc := ⟨.hbm, 185, rfl⟩
abbrev main_v125 : Ref sig .tc := ⟨.hbm, 186, rfl⟩
abbrev main_v126 : Ref sig .tc := ⟨.hbm, 187, rfl⟩
abbrev main_v127 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_c_37 : Ref sig .tc := ⟨.hbm, 192, rfl⟩
abbrev main_v131 : Ref sig .tc := ⟨.hbm, 193, rfl⟩
abbrev main_v132 : Ref sig .tc := ⟨.hbm, 194, rfl⟩
abbrev main_c_38 : Ref sig .tc := ⟨.hbm, 195, rfl⟩
abbrev main_v133 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩
abbrev main_cst_39 : Ref sig .tc := ⟨.hbm, 204, rfl⟩
abbrev main_v141 : Ref sig .tc := ⟨.hbm, 205, rfl⟩
abbrev main_v142 : Ref sig .tc := ⟨.hbm, 206, rfl⟩
abbrev main_v143 : Ref sig .tc := ⟨.hbm, 207, rfl⟩
abbrev main_v144 : Ref sig .tc := ⟨.hbm, 208, rfl⟩
abbrev main_v145 : Ref sig .tc := ⟨.hbm, 209, rfl⟩
abbrev main_v146 : Ref sig .tc := ⟨.hbm, 210, rfl⟩
abbrev main_c_40 : Ref sig .tc := ⟨.hbm, 211, rfl⟩
abbrev main_v147 : Ref sig .tc := ⟨.hbm, 212, rfl⟩
abbrev main_v148 : Ref sig .tc := ⟨.hbm, 213, rfl⟩
abbrev main_c_41 : Ref sig .tc := ⟨.hbm, 214, rfl⟩
abbrev main_v149 : Ref sig .tc := ⟨.hbm, 215, rfl⟩
abbrev main_v150 : Ref sig .tc := ⟨.hbm, 216, rfl⟩
abbrev main_v151 : Ref sig .tc := ⟨.hbm, 217, rfl⟩
abbrev main_v152 : Ref sig .tc := ⟨.hbm, 218, rfl⟩
abbrev main_v153 : Ref sig .tc := ⟨.hbm, 219, rfl⟩
abbrev main_c_42 : Ref sig .tc := ⟨.hbm, 220, rfl⟩
abbrev main_v154 : Ref sig .tc := ⟨.hbm, 221, rfl⟩
abbrev main_v155 : Ref sig .tc := ⟨.hbm, 222, rfl⟩
abbrev main_c_43 : Ref sig .tc := ⟨.hbm, 223, rfl⟩
abbrev main_v156 : Ref sig .tc := ⟨.hbm, 224, rfl⟩
abbrev main_v157 : Ref sig .tc := ⟨.hbm, 225, rfl⟩
abbrev main_v158 : Ref sig .tc := ⟨.hbm, 226, rfl⟩
abbrev main_v159 : Ref sig .tc := ⟨.hbm, 227, rfl⟩
abbrev main_v160 : Ref sig .tc := ⟨.hbm, 228, rfl⟩
abbrev main_v161 : Ref sig .tc := ⟨.hbm, 229, rfl⟩
abbrev main_cst_44 : Ref sig .tc := ⟨.hbm, 230, rfl⟩
abbrev main_v162 : Ref sig .tc := ⟨.hbm, 231, rfl⟩
abbrev main_v163 : Ref sig .tc := ⟨.hbm, 232, rfl⟩
abbrev main_v164 : Ref sig .tc := ⟨.hbm, 233, rfl⟩
abbrev main_v165 : Ref sig .tc := ⟨.hbm, 234, rfl⟩
abbrev main_v166 : Ref sig .tc := ⟨.hbm, 235, rfl⟩
abbrev main_v167 : Ref sig .tc := ⟨.hbm, 236, rfl⟩
abbrev main_call5_cst : Ref sig .tc := ⟨.hbm, 237, rfl⟩
abbrev main_call5_v0 : Ref sig .tc := ⟨.hbm, 238, rfl⟩
abbrev main_v168 : Ref sig .tc := ⟨.hbm, 239, rfl⟩
abbrev main_v169 : Ref sig .tc := ⟨.hbm, 240, rfl⟩
abbrev main_v170 : Ref sig .tc := ⟨.hbm, 241, rfl⟩
abbrev main_v171 : Ref sig .tc := ⟨.hbm, 242, rfl⟩
abbrev main_v172 : Ref sig .tc := ⟨.hbm, 243, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x64 : S_.BroadcastsInDim S1600000x64 (![] : Fin 0 → Fin S1600000x64.rank)
  bcast_S1x64_S1600000x64_0_1 : S1x64.BroadcastsInDim S1600000x64 (![0, 1] : Fin 2 → Fin S1600000x64.rank)
  bcast_S2_S1x2_1 : S2.BroadcastsInDim S1x2 (![1] : Fin 1 → Fin S1x2.rank)
  bcast_S1x2_S1600000x2_0_1 : S1x2.BroadcastsInDim S1600000x2 (![0, 1] : Fin 2 → Fin S1600000x2.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  gather_S100000x64_S1600000x1_S1600000x64_1_0_n_n_0_1_164_wf : GatherDims.WF S100000x64 S1600000x1 S1600000x64 [1] [0] [] [0] [] 1 ![1, 64]
  dot_S1600000x64_S64x64_S1600000x64_1_0_0_1_n_n_wf : DotDims.WF S1600000x64 S64x64 S1600000x64 [1] [0] [0] [1] [] []
  dot_S1600000x64_S64x2_S1600000x2_1_0_0_1_n_n_wf : DotDims.WF S1600000x64 S64x2 S1600000x2 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def dot_S1600000x64_S64x2_S1600000x2_1_0_0_1_n_n : DotDims S1600000x64 S64x2 S1600000x2 where
  lhsContracting := [1]
  rhsContracting := [0]
  lhsNonContracting := [0]
  rhsNonContracting := [1]
  lhsBatch := []
  rhsBatch := []
  wf := dot_S1600000x64_S64x2_S1600000x2_1_0_0_1_n_n_wf

class Facts : Prop extends Facts₀ where

variable [Facts]
-- ==== Proof.KernelRunNamed.lean ====
import proofs.«167228_j83399674954443_2_alg».proof.Proof.Gen.KernelIdeal.Frame

/-! # The kernel program's run, with its result named

Every weakly fair execution of the kernel program terminates without a fault, leaves the twelve argument arrays as
launched, and leaves in the result array what the last dense stage's write-backs put there: the contents of the
boundary after the fourth region, `W10`, at the result's buffer. This is the frame's own argument with one more
buffer read off the last thread state. -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, the result array named: it ends at the contents of the last boundary at the result's buffer. -/
theorem run_named : θ_run defs (onTc (τ := τ) (main (F := F))) ⟨m, fun _ => 0, ρ⟩ (fun r => ∀ c : Dev nD,
      r.2.mem ((c.tc : Thread nD τ).loc main_v92) = W10 m ρ c (Proc.devRef .tc main_v92)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v92 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c)⟩)

end Cert.KernelIdeal.Gen

end
-- ==== Proof.Closed.lean ====
import Idealize.ShloMosaic.PureOps.Ideal
import Idealize.ShloMosaic.Lib.ValueIdx

/-! # The dense stages of the network as whole-array functions

Over the extended reals a matrix product is, entry by entry, the sum over the shared axis of the products of the
entries. The three node-feature stages and the edge stage of the network are matrix products of this kind applied to
rows that are first scaled, shifted and clipped below at zero. Each is stated here as ONE function of whole arrays,
entry by entry, over literal extents. -/

noncomputable section

open scoped BigOperators

namespace Cert.Closed

open Idealize.ShloMosaic Idealize.ShloMosaic.ValueIdx

/-- The row coordinate of an index into a two-axis array. -/
abbrev row {A B : Nat} (i : (⟨2, ![A, B]⟩ : Shape).Idx) : Fin A := ⟨(i 0).val, idx2_lt0 i⟩
/-- The column coordinate of an index into a two-axis array. -/
abbrev col {A B : Nat} (i : (⟨2, ![A, B]⟩ : Shape).Idx) : Fin B := ⟨(i 1).val, idx2_lt1 i⟩

/-- The matrix product `x · w`: entry `(r, c)` is the sum over `k` of `x (r, k) · w (k, c)`. -/
def mm {A K B : Nat} (x : (⟨2, ![A, K]⟩ : Shape).Idx → EReal) (w : (⟨2, ![K, B]⟩ : Shape).Idx → EReal) :
    (⟨2, ![A, B]⟩ : Shape).Idx → EReal :=
  fun i => ∑ k : Fin K, x (ix2 (row i) k) * w (ix2 k (col i))

/-- A row-scaled, shifted array clipped below at zero: entry `(r, k)` is `max (a (r, k) · d (r, 0) + b (0, k)) 0`,
    with `d` one scale per row (a column) and `b` one shift per column (a row). -/
def act {A K : Nat} (a : (⟨2, ![A, K]⟩ : Shape).Idx → EReal) (d : (⟨2, ![A, 1]⟩ : Shape).Idx → EReal)
    (b : (⟨2, ![1, K]⟩ : Shape).Idx → EReal) : (⟨2, ![A, K]⟩ : Shape).Idx → EReal :=
  fun i => max (a i * d (ix2 (row i) 0) + b (ix2 0 (col i))) 0

/-- The fused node stage: the product of the clipped array `act a d b` with the weights `w`. -/
def mmf {A K B : Nat} (a : (⟨2, ![A, K]⟩ : Shape).Idx → EReal) (d : (⟨2, ![A, 1]⟩ : Shape).Idx → EReal)
    (b : (⟨2, ![1, K]⟩ : Shape).Idx → EReal) (w : (⟨2, ![K, B]⟩ : Shape).Idx → EReal) :
    (⟨2, ![A, B]⟩ : Shape).Idx → EReal :=
  mm (act a d b) w

/-- The hidden layer of the edge stage: `max (x · w₁ + b₁) 0`, the shift `b₁` one per column. -/
def hidden {A K H : Nat} (x : (⟨2, ![A, K]⟩ : Shape).Idx → EReal) (w1 : (⟨2, ![K, H]⟩ : Shape).Idx → EReal)
    (b1 : (⟨2, ![1, H]⟩ : Shape).Idx → EReal) : (⟨2, ![A, H]⟩ : Shape).Idx → EReal :=
  fun p => max (mm x w1 p + b1 (ix2 0 (col p))) 0

/-- The edge stage: `max (x · w₁ + b₁) 0 · w₂ + b₂`. -/
def mlp {A K H B : Nat} (x : (⟨2, ![A, K]⟩ : Shape).Idx → EReal) (w1 : (⟨2, ![K, H]⟩ : Shape).Idx → EReal)
    (b1 : (⟨2, ![1, H]⟩ : Shape).Idx → EReal) (w2 : (⟨2, ![H, B]⟩ : Shape).Idx → EReal)
    (b2 : (⟨2, ![1, B]⟩ : Shape).Idx → EReal) : (⟨2, ![A, B]⟩ : Shape).Idx → EReal :=
  fun i => mm (hidden x w1 b1) w2 i + b2 (ix2 0 (col i))

end Cert.Closed

end
-- ==== Proof.Stages.lean ====
import proofs.«167228_j83399674954443_2_alg».proof.Proof.Gen.KernelIdeal
import proofs.«167228_j83399674954443_2_alg».proof.Proof.Closed

/-! # The idealized kernel program, stage by stage

The program's host operations between its four dense stages, each written once as a function of what it reads, at
the exact instance (floats are extended reals; a change of float format is the identity). An edge list `[2, E]`
of 32-bit words gives the source and destination words of the `E` edges; `N` self-loops are appended to both. The
in-degree of a node is a scatter-add of ones at the destination words; the node scale is its power `-1/2` where it
is positive and zero elsewhere. A layer scales the node features by the node scale, gathers the scaled rows at the
sources (a negative word wrapped by `N` first, then clamped into range by the gather), and scatter-adds them at the
destinations (a word outside `[0, N)` is dropped). The last layer's sum is scaled and shifted, and an edge's feature
is the half-sum of its two end nodes' rows. -/

noncomputable section

namespace Cert.KernelIdeal.Stage

open Cert.KernelIdeal Cert.KernelIdeal.Facts₀ Cert.KernelIdeal.Facts Idealize.ShloMosaic

/-- Row `r` of the edge list as a flat vector of `E` words. -/
def edgeRow0 (ei : IVec S2x1600000 32) : IVec S1600000 32 :=
  shapeCast S1600000 (extractStridedSlice S1x1600000 ![0, 0] ei slices_S2x1600000_S1x1600000_0_0) shapeCasts_S1x1600000_S1600000
def edgeRow1 (ei : IVec S2x1600000 32) : IVec S1600000 32 :=
  shapeCast S1600000 (extractStridedSlice S1x1600000 ![1, 0] ei slices_S2x1600000_S1x1600000_1_0) shapeCasts_S1x1600000_S1600000

/-- `E` edge words followed by the `N` self-loop words `0, 1, …, N-1`. -/
def withLoops (v : IVec S1600000 32) : IVec S1700000 32 :=
  concatenate S1700000 0 [⟨S1600000, v⟩, ⟨S100000, iotaInDim S100000 32 0⟩] concatenates_S1600000_S100000_S1700000_d0

/-- A negative word wrapped by `N`; any other word kept. -/
def wrapL (v : IVec S1700000 32) : IVec S1700000 32 :=
  select (cmpi .slt v (broadcastInDim S1700000 ![] bcast_S_S1700000 (constantI S_ 32 0#32)))
    (addi v (broadcastInDim S1700000 ![] bcast_S_S1700000 (constantI S_ 32 100000#32))) v
def wrapE (v : IVec S1600000 32) : IVec S1600000 32 :=
  select (cmpi .slt v (broadcastInDim S1600000 ![] bcast_S_S1600000 (constantI S_ 32 0#32)))
    (addi v (broadcastInDim S1600000 ![] bcast_S_S1600000 (constantI S_ 32 100000#32))) v

/-- A vector of words as a one-column index array. -/
def colL (v : IVec S1700000 32) : IVec S1700000x1 32 := broadcastInDim S1700000x1 ![0] bcast_S1700000_S1700000x1_0 v
def colE (v : IVec S1600000 32) : IVec S1600000x1 32 := broadcastInDim S1600000x1 ![0] bcast_S1600000_S1600000x1_0 v

/-- The in-degree: ones scatter-added at the destination words into zeros. -/
def degree (d : IVec S1700000 32) : FVec Ideal S100000 .f32 :=
  Host.scatterAdd scatter_S100000_S1700000x1_S1700000_n_0_0_1
    (broadcastInDim S100000 ![] bcast_S_S100000 (constant S_ .f32 0x00000000#32)) (colL d)
    (broadcastInDim S1700000 ![] bcast_S_S1700000 (constant S_ .f32 0x3F800000#32))

/-- The node scale: the degree to the power `-1/2` where the degree is positive, zero elsewhere. -/
def scaleOf (g : FVec Ideal S100000 .f32) : FVec Ideal S100000 .f32 :=
  select (cmpf .ogt g (broadcastInDim S100000 ![] bcast_S_S100000 (constant S_ .f32 0x00000000#32)))
    (Host.powf g (broadcastInDim S100000 ![] bcast_S_S100000 (constant S_ .f32 0xBF000000#32)))
    (broadcastInDim S100000 ![] bcast_S_S100000 (id (constant S_ .f32 0x00000000#32)))

/-- The node scale as a one-column array. -/
def scaleCol (g : FVec Ideal S100000 .f32) : FVec Ideal S100000x1 .f32 :=
  shapeCast S100000x1 (scaleOf g) shapeCasts_S100000_S100000x1

/-- One layer's aggregate over 128 features: rows scaled by the node scale, gathered at the wrapped sources,
    scatter-added at the destinations. -/
def agg128 (h : FVec Ideal S100000x128 .bf16) (dc : FVec Ideal S100000x1 .f32) (s d : IVec S1700000 32) :
    FVec Ideal S100000x128 .f32 :=
  Host.scatterAdd scatter_S100000x128_S1700000x1_S1700000x128_1_0_0_1
    (broadcastInDim S100000x128 ![] bcast_S_S100000x128 (constant S_ .f32 0x00000000#32)) (colL d)
    (extf .f32 (Host.gather gather_S100000x128_S1700000x1_S1700000x128_1_0_n_n_0_1_1128
      (truncf .bf16 (mulf (extf .f32 h bitsLt_bf16_f32) (broadcastInDim S100000x128 ![0, 1] bcast_S100000x1_S100000x128_0_1 dc)) bitsLt_bf16_f32)
      (colL (wrapL s))) bitsLt_bf16_f32)

/-- The same over 64 features. -/
def agg64 (h : FVec Ideal S100000x64 .bf16) (dc : FVec Ideal S100000x1 .f32) (s d : IVec S1700000 32) :
    FVec Ideal S100000x64 .f32 :=
  Host.scatterAdd scatter_S100000x64_S1700000x1_S1700000x64_1_0_0_1
    (broadcastInDim S100000x64 ![] bcast_S_S100000x64 (constant S_ .f32 0x00000000#32)) (colL d)
    (extf .f32 (Host.gather gather_S100000x64_S1700000x1_S1700000x64_1_0_n_n_0_1_164
      (truncf .bf16 (mulf (extf .f32 h bitsLt_bf16_f32) (broadcastInDim S100000x64 ![0, 1] bcast_S100000x1_S100000x64_0_1 dc)) bitsLt_bf16_f32)
      (colL (wrapL s))) bitsLt_bf16_f32)

/-- The last layer's node features: the aggregate scaled by the node scale, plus the bias row. -/
def nodeOut (a : FVec Ideal S100000x64 .f32) (dc : FVec Ideal S100000x1 .f32) (b : FVec Ideal S64 .f32) :
    FVec Ideal S100000x64 .f32 :=
  addf (mulf (broadcastInDim S100000x64 ![0, 1] bcast_S100000x1_S100000x64_0_1 dc) a)
    (broadcastInDim S100000x64 ![0, 1] bcast_S1x64_S100000x64_0_1 (broadcastInDim S1x64 ![1] bcast_S64_S1x64_1 b))

/-- An edge's feature: half the sum of its two end nodes' rows, the end words wrapped first. -/
def edgeFeat (hf : FVec Ideal S100000x64 .f32) (s0 d0 : IVec S1600000 32) : FVec Ideal S1600000x64 .bf16 :=
  truncf .bf16 (mulf (addf
      (Host.gather gather_S100000x64_S1600000x1_S1600000x64_1_0_n_n_0_1_164 hf (colE (wrapE s0)))
      (Host.gather gather_S100000x64_S1600000x1_S1600000x64_1_0_n_n_0_1_164 hf (colE (wrapE d0))))
    (broadcastInDim S1600000x64 ![] bcast_S_S1600000x64 (constant S_ .f32 0x3F000000#32))) bitsLt_bf16_f32

/-- A bias vector as a one-row array. -/
def row128 (b : FVec Ideal S128 .f32) : FVec Ideal S1x128 .f32 := shapeCast S1x128 b shapeCasts_S128_S1x128
def row64 (b : FVec Ideal S64 .f32) : FVec Ideal S1x64 .f32 := shapeCast S1x64 b shapeCasts_S64_S1x64
def row2 (b : FVec Ideal S2 .f32) : FVec Ideal S1x2 .f32 := shapeCast S1x2 b shapeCasts_S2_S1x2

/-- THE KERNEL PROGRAM'S RESULT as one function of its twelve argument arrays: three layers (dense product, scale,
    gather, scatter-add; the second and third dense products take the previous aggregate scaled, shifted and clipped
    below at zero), the last layer's node features, the edge features, and the two-layer edge stage. -/
def result (x : FVec Ideal S100000x128 .f32) (ei : IVec S2x1600000 32) (w0 : FVec Ideal S128x128 .f32)
    (b0 : FVec Ideal S128 .f32) (w1 : FVec Ideal S128x128 .f32) (b1 : FVec Ideal S128 .f32)
    (w2 : FVec Ideal S128x64 .f32) (b2 : FVec Ideal S64 .f32) (m1 : FVec Ideal S64x64 .f32) (c1 : FVec Ideal S64 .f32)
    (m2 : FVec Ideal S64x2 .f32) (c2 : FVec Ideal S2 .f32) : FVec Ideal S1600000x2 .f32 :=
  let s := withLoops (edgeRow0 ei)
  let d := withLoops (edgeRow1 ei)
  let dc := scaleCol (degree d)
  let h0 : FVec Ideal S100000x128 .bf16 := Cert.Closed.mm x w0
  let a0 := agg128 h0 dc s d
  let h1 : FVec Ideal S100000x128 .bf16 := Cert.Closed.mmf a0 dc (row128 b0) w1
  let a1 := agg128 h1 dc s d
  let h2 : FVec Ideal S100000x64 .bf16 := Cert.Closed.mmf a1 dc (row128 b1) w2
  let a2 := agg64 h2 dc s d
  let hf := nodeOut a2 dc b2
  let ef := edgeFeat hf (edgeRow0 ei) (edgeRow1 ei)
  Cert.Closed.mlp ef m1 (row64 c1) m2 (row2 c2)

end Cert.KernelIdeal.Stage

end
-- ==== Proof.KernelStretches.lean ====
import proofs.«167228_j83399674954443_2_alg».proof.Proof.Gen.KernelIdeal.Launch
import proofs.«167228_j83399674954443_2_alg».proof.Proof.Stages
import Idealize.ShloMosaic.Lib.StableHlo.Run

/-! # The kernel program's host stretches, read at the buffers the later stages use

Between two dense stages the program runs a stretch of host operations. From ANY contents `V` of the buffers at the
stretch's entry, each buffer a later stage reads holds, after the stretch, the stage function of Stages.lean applied
to the entry contents of the buffers it depends on; a buffer the stretch does not write keeps its contents. -/

set_option maxRecDepth 16384

noncomputable section

namespace Cert.KernelIdeal.Stretch

open Cert.KernelIdeal Cert.KernelIdeal.Gen Cert.KernelIdeal.Stage Idealize.ShloMosaic Idealize.ShloMosaic.StableHlo

/-- The three stretches before the first dense stage, in order. -/
abbrev entry (V : Valuation τ sig (Elt Ideal)) : Valuation τ sig (Elt Ideal) :=
  StableHlo.after (hostOps0_2 (F := Ideal)) (StableHlo.after (hostOps0_1 (F := Ideal)) (StableHlo.after (hostOps0 (F := Ideal)) V))

/-! ## Before the first dense stage: the edge words, the self-loops, the node scale -/

theorem entry_v1 (V : Valuation τ sig (Elt Ideal)) :
    entry V (Proc.devRef .tc main_v1) = edgeRow0 (V (Proc.devRef .tc main_arg1)) := by
  simp only [entry, hostOps0, hostOps0_1, hostOps0_2]; after_results_simp; rfl
theorem entry_v3 (V : Valuation τ sig (Elt Ideal)) :
    entry V (Proc.devRef .tc main_v3) = edgeRow1 (V (Proc.devRef .tc main_arg1)) := by
  simp only [entry, hostOps0, hostOps0_1, hostOps0_2]; after_results_simp; rfl
theorem entry_v5 (V : Valuation τ sig (Elt Ideal)) :
    entry V (Proc.devRef .tc main_v5) = withLoops (edgeRow0 (V (Proc.devRef .tc main_arg1))) := by
  simp only [entry, hostOps0, hostOps0_1, hostOps0_2]; after_results_simp; rfl
theorem entry_v6 (V : Valuation τ sig (Elt Ideal)) :
    entry V (Proc.devRef .tc main_v6) = withLoops (edgeRow1 (V (Proc.devRef .tc main_arg1))) := by
  simp only [entry, hostOps0, hostOps0_1, hostOps0_2]; after_results_simp; rfl
/-- The node scale through the three stretches: the comparison and the power after the first, the choice between
    the power and zero after the second, the reshape to a column after the third. -/
theorem ops0_v12 (V : Valuation τ sig (Elt Ideal)) :
    StableHlo.after (hostOps0 (F := Ideal)) V (Proc.devRef .tc main_v12)
      = cmpf .ogt (degree (withLoops (edgeRow1 (V (Proc.devRef .tc main_arg1)))))
          (broadcastInDim S100000 ![] bcast_S_S100000 (constant S_ .f32 0x00000000#32)) := by
  simp only [hostOps0]; after_results_simp; rfl
theorem ops0_v14 (V : Valuation τ sig (Elt Ideal)) :
    StableHlo.after (hostOps0 (F := Ideal)) V (Proc.devRef .tc main_v14)
      = Host.powf (degree (withLoops (edgeRow1 (V (Proc.devRef .tc main_arg1)))))
          (broadcastInDim S100000 ![] bcast_S_S100000 (constant S_ .f32 0xBF000000#32)) := by
  simp only [hostOps0]; after_results_simp; rfl
theorem ops0_cst3 (V : Valuation τ sig (Elt Ideal)) :
    StableHlo.after (hostOps0 (F := Ideal)) V (Proc.devRef .tc main_cst_3) = constant (F := Ideal) S_ .f32 0x00000000#32 := by
  simp only [hostOps0]; after_results_simp
theorem ops01_v15 (V : Valuation τ sig (Elt Ideal)) :
    StableHlo.after (hostOps0_1 (F := Ideal)) V (Proc.devRef .tc main_v15)
      = select (V (Proc.devRef .tc main_v12)) (V (Proc.devRef .tc main_v14))
          (broadcastInDim S100000 ![] bcast_S_S100000 (id (V (Proc.devRef .tc main_cst_3)))) := by
  simp only [hostOps0_1]; after_results_simp; rfl
theorem ops02_v16 (V : Valuation τ sig (Elt Ideal)) :
    StableHlo.after (hostOps0_2 (F := Ideal)) V (Proc.devRef .tc main_v16)
      = shapeCast S100000x1 (V (Proc.devRef .tc main_v15)) shapeCasts_S100000_S100000x1 := by
  simp only [hostOps0_2]; after_results_simp; rfl
theorem entry_v16 (V : Valuation τ sig (Elt Ideal)) :
    entry V (Proc.devRef .tc main_v16) = scaleCol (degree (withLoops (edgeRow1 (V (Proc.devRef .tc main_arg1))))) := by
  show StableHlo.after (hostOps0_2 (F := Ideal)) (StableHlo.after (hostOps0_1 (F := Ideal)) (StableHlo.after (hostOps0 (F := Ideal)) V)) (Proc.devRef .tc main_v16) = _
  rw [ops02_v16, ops01_v15, ops0_v12, ops0_v14, ops0_cst3]
  rfl

theorem entry_arg0 (V : Valuation τ sig (Elt Ideal)) :
    entry V (Proc.devRef .tc main_arg0) = V (Proc.devRef .tc main_arg0) := by
  simp only [entry, hostOps0, hostOps0_1, hostOps0_2]; after_results_simp
theorem entry_arg2 (V : Valuation τ sig (Elt Ideal)) :
    entry V (Proc.devRef .tc main_arg2) = V (Proc.devRef .tc main_arg2) := by
  simp only [entry, hostOps0, hostOps0_1, hostOps0_2]; after_results_simp
theorem entry_arg3 (V : Valuation τ sig (Elt Ideal)) :
    entry V (Proc.devRef .tc main_arg3) = V (Proc.devRef .tc main_arg3) := by
  simp only [entry, hostOps0, hostOps0_1, hostOps0_2]; after_results_simp
theorem entry_arg4 (V : Valuation τ sig (Elt Ideal)) :
    entry V (Proc.devRef .tc main_arg4) = V (Proc.devRef .tc main_arg4) := by
  simp only [entry, hostOps0, hostOps0_1, hostOps0_2]; after_results_simp
theorem entry_arg5 (V : Valuation τ sig (Elt Ideal)) :
    entry V (Proc.devRef .tc main_arg5) = V (Proc.devRef .tc main_arg5) := by
  simp only [entry, hostOps0, hostOps0_1, hostOps0_2]; after_results_simp
theorem entry_arg6 (V : Valuation τ sig (Elt Ideal)) :
    entry V (Proc.devRef .tc main_arg6) = V (Proc.devRef .tc main_arg6) := by
  simp only [entry, hostOps0, hostOps0_1, hostOps0_2]; after_results_simp
theorem entry_arg7 (V : Valuation τ sig (Elt Ideal)) :
    entry V (Proc.devRef .tc main_arg7) = V (Proc.devRef .tc main_arg7) := by
  simp only [entry, hostOps0, hostOps0_1, hostOps0_2]; after_results_simp
theorem entry_arg8 (V : Valuation τ sig (Elt Ideal)) :
    entry V (Proc.devRef .tc main_arg8) = V (Proc.devRef .tc main_arg8) := by
  simp only [entry, hostOps0, hostOps0_1, hostOps0_2]; after_results_simp
theorem entry_arg9 (V : Valuation τ sig (Elt Ideal)) :
    entry V (Proc.devRef .tc main_arg9) = V (Proc.devRef .tc main_arg9) := by
  simp only [entry, hostOps0, hostOps0_1, hostOps0_2]; after_results_simp
theorem entry_arg10 (V : Valuation τ sig (Elt Ideal)) :
    entry V (Proc.devRef .tc main_arg10) = V (Proc.devRef .tc main_arg10) := by
  simp only [entry, hostOps0, hostOps0_1, hostOps0_2]; after_results_simp
theorem entry_arg11 (V : Valuation τ sig (Elt Ideal)) :
    entry V (Proc.devRef .tc main_arg11) = V (Proc.devRef .tc main_arg11) := by
  simp only [entry, hostOps0, hostOps0_1, hostOps0_2]; after_results_simp

/-! ## Between the first and the second dense stage -/

theorem ops1_v32 (V : Valuation τ sig (Elt Ideal)) :
    StableHlo.after (hostOps1 (F := Ideal)) V (Proc.devRef .tc main_v32)
      = agg128 (V (Proc.devRef .tc main_v17)) (V (Proc.devRef .tc main_v16)) (V (Proc.devRef .tc main_v5)) (V (Proc.devRef .tc main_v6)) := by
  simp only [hostOps1]; after_results_simp; rfl
theorem ops1_v33 (V : Valuation τ sig (Elt Ideal)) :
    StableHlo.after (hostOps1 (F := Ideal)) V (Proc.devRef .tc main_v33) = row128 (V (Proc.devRef .tc main_arg3)) := by
  simp only [hostOps1]; after_results_simp; rfl
theorem ops1_v16 (V : Valuation τ sig (Elt Ideal)) :
    StableHlo.after (hostOps1 (F := Ideal)) V (Proc.devRef .tc main_v16) = V (Proc.devRef .tc main_v16) := by
  simp only [hostOps1]; after_results_simp
theorem ops1_v5 (V : Valuation τ sig (Elt Ideal)) :
    StableHlo.after (hostOps1 (F := Ideal)) V (Proc.devRef .tc main_v5) = V (Proc.devRef .tc main_v5) := by
  simp only [hostOps1]; after_results_simp
theorem ops1_v6 (V : Valuation τ sig (Elt Ideal)) :
    StableHlo.after (hostOps1 (F := Ideal)) V (Proc.devRef .tc main_v6) = V (Proc.devRef .tc main_v6) := by
  simp only [hostOps1]; after_results_simp
theorem ops1_v1 (V : Valuation τ sig (Elt Ideal)) :
    StableHlo.after (hostOps1 (F := Ideal)) V (Proc.devRef .tc main_v1) = V (Proc.devRef .tc main_v1) := by
  simp only [hostOps1]; after_results_simp
theorem ops1_v3 (V : Valuation τ sig (Elt Ideal)) :
    StableHlo.after (hostOps1 (F := Ideal)) V (Proc.devRef .tc main_v3) = V (Proc.devRef .tc main_v3) := by
  simp only [hostOps1]; after_results_simp
theorem ops1_arg4 (V : Valuation τ sig (Elt Ideal)) :
    StableHlo.after (hostOps1 (F := Ideal)) V (Proc.devRef .tc main_arg4) = V (Proc.devRef .tc main_arg4) := by
  simp only [hostOps1]; after_results_simp
theorem ops1_arg5 (V : Valuation τ sig (Elt Ideal)) :
    StableHlo.after (hostOps1 (F := Ideal)) V (Proc.devRef .tc main_arg5) = V (Proc.devRef .tc main_arg5) := by
  simp only [hostOps1]; after_results_simp
theorem ops1_arg6 (V : Valuation τ sig (Elt Ideal)) :
    StableHlo.after (hostOps1 (F := Ideal)) V (Proc.devRef .tc main_arg6) = V (Proc.devRef .tc main_arg6) := by
  simp only [hostOps1]; after_results_simp
theorem ops1_arg7 (V : Valuation τ sig (Elt Ideal)) :
    StableHlo.after (hostOps1 (F := Ideal)) V (Proc.devRef .tc main_arg7) = V (Proc.devRef .tc main_arg7) := by
  simp only [hostOps1]; after_results_simp
theorem ops1_arg8 (V : Valuation τ sig (Elt Ideal)) :
    StableHlo.after (hostOps1 (F := Ideal)) V (Proc.devRef .tc main_arg8) = V (Proc.devRef .tc main_arg8) := by
  simp only [hostOps1]; after_results_simp
theorem ops1_arg9 (V : Valuation τ sig (Elt Ideal)) :
    StableHlo.after (hostOps1 (F := Ideal)) V (Proc.devRef .tc main_arg9) = V (Proc.devRef .tc main_arg9) := by
  simp only [hostOps1]; after_results_simp
theorem ops1_arg10 (V : Valuation τ sig (Elt Ideal)) :
    StableHlo.after (hostOps1 (F := Ideal)) V (Proc.devRef .tc main_arg10) = V (Proc.devRef .tc main_arg10) := by
  simp only [hostOps1]; after_results_simp
theorem ops1_arg11 (V : Valuation τ sig (Elt Ideal)) :
    StableHlo.after (hostOps1 (F := Ideal)) V (Proc.devRef .tc main_arg11) = V (Proc.devRef .tc main_arg11) := by
  simp only [hostOps1]; after_results_simp

/-! ## Between the second and the third dense stage -/

theorem ops2_v49 (V : Valuation τ sig (Elt Ideal)) :
    StableHlo.after (hostOps2 (F := Ideal)) V (Proc.devRef .tc main_v49)
      = agg128 (V (Proc.devRef .tc main_v34)) (V (Proc.devRef .tc main_v16)) (V (Proc.devRef .tc main_v5)) (V (Proc.devRef .tc main_v6)) := by
  simp only [hostOps2]; after_results_simp; rfl
theorem ops2_v50 (V : Valuation τ sig (Elt Ideal)) :
    StableHlo.after (hostOps2 (F := Ideal)) V (Proc.devRef .tc main_v50) = row128 (V (Proc.devRef .tc main_arg5)) := by
  simp only [hostOps2]; after_results_simp; rfl
theorem ops2_v16 (V : Valuation τ sig (Elt Ideal)) :
    StableHlo.after (hostOps2 (F := Ideal)) V (Proc.devRef .tc main_v16) = V (Proc.devRef .tc main_v16) := by
  simp only [hostOps2]; after_results_simp
theorem ops2_v5 (V : Valuation τ sig (Elt Ideal)) :
    StableHlo.after (hostOps2 (F := Ideal)) V (Proc.devRef .tc main_v5) = V (Proc.devRef .tc main_v5) := by
  simp only [hostOps2]; after_results_simp
theorem ops2_v6 (V : Valuation τ sig (Elt Ideal)) :
    StableHlo.after (hostOps2 (F := Ideal)) V (Proc.devRef .tc main_v6) = V (Proc.devRef .tc main_v6) := by
  simp only [hostOps2]; after_results_simp
theorem ops2_v1 (V : Valuation τ sig (Elt Ideal)) :
    StableHlo.after (hostOps2 (F := Ideal)) V (Proc.devRef .tc main_v1) = V (Proc.devRef .tc main_v1) := by
  simp only [hostOps2]; after_results_simp
theorem ops2_v3 (V : Valuation τ sig (Elt Ideal)) :
    StableHlo.after (hostOps2 (F := Ideal)) V (Proc.devRef .tc main_v3) = V (Proc.devRef .tc main_v3) := by
  simp only [hostOps2]; after_results_simp
theorem ops2_arg6 (V : Valuation τ sig (Elt Ideal)) :
    StableHlo.after (hostOps2 (F := Ideal)) V (Proc.devRef .tc main_arg6) = V (Proc.devRef .tc main_arg6) := by
  simp only [hostOps2]; after_results_simp
theorem ops2_arg7 (V : Valuation τ sig (Elt Ideal)) :
    StableHlo.after (hostOps2 (F := Ideal)) V (Proc.devRef .tc main_arg7) = V (Proc.devRef .tc main_arg7) := by
  simp only [hostOps2]; after_results_simp
theorem ops2_arg8 (V : Valuation τ sig (Elt Ideal)) :
    StableHlo.after (hostOps2 (F := Ideal)) V (Proc.devRef .tc main_arg8) = V (Proc.devRef .tc main_arg8) := by
  simp only [hostOps2]; after_results_simp
theorem ops2_arg9 (V : Valuation τ sig (Elt Ideal)) :
    StableHlo.after (hostOps2 (F := Ideal)) V (Proc.devRef .tc main_arg9) = V (Proc.devRef .tc main_arg9) := by
  simp only [hostOps2]; after_results_simp
theorem ops2_arg10 (V : Valuation τ sig (Elt Ideal)) :
    StableHlo.after (hostOps2 (F := Ideal)) V (Proc.devRef .tc main_arg10) = V (Proc.devRef .tc main_arg10) := by
  simp only [hostOps2]; after_results_simp
theorem ops2_arg11 (V : Valuation τ sig (Elt Ideal)) :
    StableHlo.after (hostOps2 (F := Ideal)) V (Proc.devRef .tc main_arg11) = V (Proc.devRef .tc main_arg11) := by
  simp only [hostOps2]; after_results_simp

/-! ## Between the third dense stage and the edge stage -/

theorem ops3_v89 (V : Valuation τ sig (Elt Ideal)) :
    StableHlo.after (hostOps3 (F := Ideal)) V (Proc.devRef .tc main_v89)
      = edgeFeat (nodeOut (agg64 (V (Proc.devRef .tc main_v51)) (V (Proc.devRef .tc main_v16)) (V (Proc.devRef .tc main_v5)) (V (Proc.devRef .tc main_v6)))
          (V (Proc.devRef .tc main_v16)) (V (Proc.devRef .tc main_arg7))) (V (Proc.devRef .tc main_v1)) (V (Proc.devRef .tc main_v3)) := by
  simp only [hostOps3]; after_results_simp; rfl
theorem ops3_v90 (V : Valuation τ sig (Elt Ideal)) :
    StableHlo.after (hostOps3 (F := Ideal)) V (Proc.devRef .tc main_v90) = row64 (V (Proc.devRef .tc main_arg9)) := by
  simp only [hostOps3]; after_results_simp; rfl
theorem ops3_v91 (V : Valuation τ sig (Elt Ideal)) :
    StableHlo.after (hostOps3 (F := Ideal)) V (Proc.devRef .tc main_v91) = row2 (V (Proc.devRef .tc main_arg11)) := by
  simp only [hostOps3]; after_results_simp; rfl
theorem ops3_arg8 (V : Valuation τ sig (Elt Ideal)) :
    StableHlo.after (hostOps3 (F := Ideal)) V (Proc.devRef .tc main_arg8) = V (Proc.devRef .tc main_arg8) := by
  simp only [hostOps3]; after_results_simp
theorem ops3_arg10 (V : Valuation τ sig (Elt Ideal)) :
    StableHlo.after (hostOps3 (F := Ideal)) V (Proc.devRef .tc main_arg10) = V (Proc.devRef .tc main_arg10) := by
  simp only [hostOps3]; after_results_simp

end Cert.KernelIdeal.Stretch

end
-- ==== Proof.KernelWalk.lean ====
import proofs.«167228_j83399674954443_2_alg».proof.Proof.KernelRunNamed
import proofs.«167228_j83399674954443_2_alg».proof.Proof.KernelStretches

/-! # What the kernel program's buffers hold at each boundary, as functions of the arguments

The program alternates host stretches and dense stages. Walking from the launch to the return, each buffer a later
stage still reads is named at each boundary as a stage function of the twelve argument arrays: a host stretch by its
stretch lemma, a dense stage's output array by the stage's closed form (taken here as hypotheses `hf0 … hf3`), an
array a dense stage only reads and a buffer it does not touch by the region's frame. The last line is the result. -/

set_option maxRecDepth 16384

noncomputable section

namespace Cert.KernelIdeal.Walk

open Cert.KernelIdeal Cert.KernelIdeal.Gen Cert.KernelIdeal.Stage Idealize.ShloMosaic Idealize.ShloMosaic.TcCoe Idealize.SL.Sem

variable (m : (ℓ : Loc nD τ sig) → Buf (Elt Ideal) ℓ) (ρ : Dev nD → PrngReg) (c : Dev nD)

/-! ## At the first dense stage's entry -/

theorem b3_v1 : W3 (F := Ideal) m ρ c (Proc.devRef .tc main_v1) = (edgeRow0 (m ((c : Thread nD τ).loc main_arg1))) := Stretch.entry_v1 (W0 m ρ c)
theorem b3_v3 : W3 (F := Ideal) m ρ c (Proc.devRef .tc main_v3) = (edgeRow1 (m ((c : Thread nD τ).loc main_arg1))) := Stretch.entry_v3 (W0 m ρ c)
theorem b3_v5 : W3 (F := Ideal) m ρ c (Proc.devRef .tc main_v5) = (withLoops (edgeRow0 (m ((c : Thread nD τ).loc main_arg1)))) := Stretch.entry_v5 (W0 m ρ c)
theorem b3_v6 : W3 (F := Ideal) m ρ c (Proc.devRef .tc main_v6) = (withLoops (edgeRow1 (m ((c : Thread nD τ).loc main_arg1)))) := Stretch.entry_v6 (W0 m ρ c)
theorem b3_v16 : W3 (F := Ideal) m ρ c (Proc.devRef .tc main_v16) = (scaleCol (degree (withLoops (edgeRow1 (m ((c : Thread nD τ).loc main_arg1)))))) := Stretch.entry_v16 (W0 m ρ c)
theorem b3_arg0 : W3 (F := Ideal) m ρ c (Proc.devRef .tc main_arg0) = (m ((c : Thread nD τ).loc main_arg0)) := Stretch.entry_arg0 (W0 m ρ c)
theorem b3_arg2 : W3 (F := Ideal) m ρ c (Proc.devRef .tc main_arg2) = (m ((c : Thread nD τ).loc main_arg2)) := Stretch.entry_arg2 (W0 m ρ c)
theorem b3_arg3 : W3 (F := Ideal) m ρ c (Proc.devRef .tc main_arg3) = (m ((c : Thread nD τ).loc main_arg3)) := Stretch.entry_arg3 (W0 m ρ c)
theorem b3_arg4 : W3 (F := Ideal) m ρ c (Proc.devRef .tc main_arg4) = (m ((c : Thread nD τ).loc main_arg4)) := Stretch.entry_arg4 (W0 m ρ c)
theorem b3_arg5 : W3 (F := Ideal) m ρ c (Proc.devRef .tc main_arg5) = (m ((c : Thread nD τ).loc main_arg5)) := Stretch.entry_arg5 (W0 m ρ c)
theorem b3_arg6 : W3 (F := Ideal) m ρ c (Proc.devRef .tc main_arg6) = (m ((c : Thread nD τ).loc main_arg6)) := Stretch.entry_arg6 (W0 m ρ c)
theorem b3_arg7 : W3 (F := Ideal) m ρ c (Proc.devRef .tc main_arg7) = (m ((c : Thread nD τ).loc main_arg7)) := Stretch.entry_arg7 (W0 m ρ c)
theorem b3_arg8 : W3 (F := Ideal) m ρ c (Proc.devRef .tc main_arg8) = (m ((c : Thread nD τ).loc main_arg8)) := Stretch.entry_arg8 (W0 m ρ c)
theorem b3_arg9 : W3 (F := Ideal) m ρ c (Proc.devRef .tc main_arg9) = (m ((c : Thread nD τ).loc main_arg9)) := Stretch.entry_arg9 (W0 m ρ c)
theorem b3_arg10 : W3 (F := Ideal) m ρ c (Proc.devRef .tc main_arg10) = (m ((c : Thread nD τ).loc main_arg10)) := Stretch.entry_arg10 (W0 m ρ c)
theorem b3_arg11 : W3 (F := Ideal) m ρ c (Proc.devRef .tc main_arg11) = (m ((c : Thread nD τ).loc main_arg11)) := Stretch.entry_arg11 (W0 m ρ c)

/-! ## After the first dense stage -/

theorem b4_v17 (hf0 : ∀ (V : (c : Dev nD) → (b : Ref sig .tc) → Buf (Elt Ideal) ((c : Thread nD τ).loc b)) (c : Dev nD), (dat0 (F := Ideal) V c).arrAt 2 cfg0.N = Cert.Closed.mm (A := 100000) (K := 128) (B := 128) (V c (Pipeline.arrRef spec0 0)) (V c (Pipeline.arrRef spec0 1))) : W4 (F := Ideal) m ρ c (Proc.devRef .tc main_v17) = (Cert.Closed.mm (A := 100000) (K := 128) (B := 128) (m ((c : Thread nD τ).loc main_arg0)) (m ((c : Thread nD τ).loc main_arg2))) := by
  refine (W4_arr m ρ c 2).trans ((hf0 (V3 m ρ) c).trans ?_)
  show Cert.Closed.mm (A := 100000) (K := 128) (B := 128) (W3 (F := Ideal) m ρ c (Proc.devRef .tc main_arg0)) (W3 (F := Ideal) m ρ c (Proc.devRef .tc main_arg2)) = _
  rw [b3_arg0, b3_arg2]
theorem b4_v1 : W4 (F := Ideal) m ρ c (Proc.devRef .tc main_v1) = (edgeRow0 (m ((c : Thread nD τ).loc main_arg1))) := (W4_of_ne m ρ c main_v1 (by decide)).trans (b3_v1 m ρ c)
theorem b4_v3 : W4 (F := Ideal) m ρ c (Proc.devRef .tc main_v3) = (edgeRow1 (m ((c : Thread nD τ).loc main_arg1))) := (W4_of_ne m ρ c main_v3 (by decide)).trans (b3_v3 m ρ c)
theorem b4_v5 : W4 (F := Ideal) m ρ c (Proc.devRef .tc main_v5) = (withLoops (edgeRow0 (m ((c : Thread nD τ).loc main_arg1)))) := (W4_of_ne m ρ c main_v5 (by decide)).trans (b3_v5 m ρ c)
theorem b4_v6 : W4 (F := Ideal) m ρ c (Proc.devRef .tc main_v6) = (withLoops (edgeRow1 (m ((c : Thread nD τ).loc main_arg1)))) := (W4_of_ne m ρ c main_v6 (by decide)).trans (b3_v6 m ρ c)
theorem b4_v16 : W4 (F := Ideal) m ρ c (Proc.devRef .tc main_v16) = (scaleCol (degree (withLoops (edgeRow1 (m ((c : Thread nD τ).loc main_arg1)))))) := (W4_of_ne m ρ c main_v16 (by decide)).trans (b3_v16 m ρ c)
theorem b4_arg3 : W4 (F := Ideal) m ρ c (Proc.devRef .tc main_arg3) = (m ((c : Thread nD τ).loc main_arg3)) := (W4_of_ne m ρ c main_arg3 (by decide)).trans (b3_arg3 m ρ c)
theorem b4_arg4 : W4 (F := Ideal) m ρ c (Proc.devRef .tc main_arg4) = (m ((c : Thread nD τ).loc main_arg4)) := (W4_of_ne m ρ c main_arg4 (by decide)).trans (b3_arg4 m ρ c)
theorem b4_arg5 : W4 (F := Ideal) m ρ c (Proc.devRef .tc main_arg5) = (m ((c : Thread nD τ).loc main_arg5)) := (W4_of_ne m ρ c main_arg5 (by decide)).trans (b3_arg5 m ρ c)
theorem b4_arg6 : W4 (F := Ideal) m ρ c (Proc.devRef .tc main_arg6) = (m ((c : Thread nD τ).loc main_arg6)) := (W4_of_ne m ρ c main_arg6 (by decide)).trans (b3_arg6 m ρ c)
theorem b4_arg7 : W4 (F := Ideal) m ρ c (Proc.devRef .tc main_arg7) = (m ((c : Thread nD τ).loc main_arg7)) := (W4_of_ne m ρ c main_arg7 (by decide)).trans (b3_arg7 m ρ c)
theorem b4_arg8 : W4 (F := Ideal) m ρ c (Proc.devRef .tc main_arg8) = (m ((c : Thread nD τ).loc main_arg8)) := (W4_of_ne m ρ c main_arg8 (by decide)).trans (b3_arg8 m ρ c)
theorem b4_arg9 : W4 (F := Ideal) m ρ c (Proc.devRef .tc main_arg9) = (m ((c : Thread nD τ).loc main_arg9)) := (W4_of_ne m ρ c main_arg9 (by decide)).trans (b3_arg9 m ρ c)
theorem b4_arg10 : W4 (F := Ideal) m ρ c (Proc.devRef .tc main_arg10) = (m ((c : Thread nD τ).loc main_arg10)) := (W4_of_ne m ρ c main_arg10 (by decide)).trans (b3_arg10 m ρ c)
theorem b4_arg11 : W4 (F := Ideal) m ρ c (Proc.devRef .tc main_arg11) = (m ((c : Thread nD τ).loc main_arg11)) := (W4_of_ne m ρ c main_arg11 (by decide)).trans (b3_arg11 m ρ c)

/-! ## At the second dense stage's entry -/

theorem b5_v32 (hf0 : ∀ (V : (c : Dev nD) → (b : Ref sig .tc) → Buf (Elt Ideal) ((c : Thread nD τ).loc b)) (c : Dev nD), (dat0 (F := Ideal) V c).arrAt 2 cfg0.N = Cert.Closed.mm (A := 100000) (K := 128) (B := 128) (V c (Pipeline.arrRef spec0 0)) (V c (Pipeline.arrRef spec0 1))) : W5 (F := Ideal) m ρ c (Proc.devRef .tc main_v32) = (agg128 (Cert.Closed.mm (A := 100000) (K := 128) (B := 128) (m ((c : Thread nD τ).loc main_arg0)) (m ((c : Thread nD τ).loc main_arg2))) (scaleCol (degree (withLoops (edgeRow1 (m ((c : Thread nD τ).loc main_arg1)))))) (withLoops (edgeRow0 (m ((c : Thread nD τ).loc main_arg1)))) (withLoops (edgeRow1 (m ((c : Thread nD τ).loc main_arg1))))) := by
  refine (Stretch.ops1_v32 (W4 m ρ c)).trans ?_
  rw [b4_v17 m ρ c hf0, b4_v16, b4_v5, b4_v6]
theorem b5_v33 : W5 (F := Ideal) m ρ c (Proc.devRef .tc main_v33) = (row128 (m ((c : Thread nD τ).loc main_arg3))) := by
  refine (Stretch.ops1_v33 (W4 m ρ c)).trans ?_
  rw [b4_arg3]
theorem b5_v1 : W5 (F := Ideal) m ρ c (Proc.devRef .tc main_v1) = (edgeRow0 (m ((c : Thread nD τ).loc main_arg1))) := (Stretch.ops1_v1 (W4 m ρ c)).trans (b4_v1 m ρ c)
theorem b5_v3 : W5 (F := Ideal) m ρ c (Proc.devRef .tc main_v3) = (edgeRow1 (m ((c : Thread nD τ).loc main_arg1))) := (Stretch.ops1_v3 (W4 m ρ c)).trans (b4_v3 m ρ c)
theorem b5_v5 : W5 (F := Ideal) m ρ c (Proc.devRef .tc main_v5) = (withLoops (edgeRow0 (m ((c : Thread nD τ).loc main_arg1)))) := (Stretch.ops1_v5 (W4 m ρ c)).trans (b4_v5 m ρ c)
theorem b5_v6 : W5 (F := Ideal) m ρ c (Proc.devRef .tc main_v6) = (withLoops (edgeRow1 (m ((c : Thread nD τ).loc main_arg1)))) := (Stretch.ops1_v6 (W4 m ρ c)).trans (b4_v6 m ρ c)
theorem b5_v16 : W5 (F := Ideal) m ρ c (Proc.devRef .tc main_v16) = (scaleCol (degree (withLoops (edgeRow1 (m ((c : Thread nD τ).loc main_arg1)))))) := (Stretch.ops1_v16 (W4 m ρ c)).trans (b4_v16 m ρ c)
theorem b5_arg4 : W5 (F := Ideal) m ρ c (Proc.devRef .tc main_arg4) = (m ((c : Thread nD τ).loc main_arg4)) := (Stretch.ops1_arg4 (W4 m ρ c)).trans (b4_arg4 m ρ c)
theorem b5_arg5 : W5 (F := Ideal) m ρ c (Proc.devRef .tc main_arg5) = (m ((c : Thread nD τ).loc main_arg5)) := (Stretch.ops1_arg5 (W4 m ρ c)).trans (b4_arg5 m ρ c)
theorem b5_arg6 : W5 (F := Ideal) m ρ c (Proc.devRef .tc main_arg6) = (m ((c : Thread nD τ).loc main_arg6)) := (Stretch.ops1_arg6 (W4 m ρ c)).trans (b4_arg6 m ρ c)
theorem b5_arg7 : W5 (F := Ideal) m ρ c (Proc.devRef .tc main_arg7) = (m ((c : Thread nD τ).loc main_arg7)) := (Stretch.ops1_arg7 (W4 m ρ c)).trans (b4_arg7 m ρ c)
theorem b5_arg8 : W5 (F := Ideal) m ρ c (Proc.devRef .tc main_arg8) = (m ((c : Thread nD τ).loc main_arg8)) := (Stretch.ops1_arg8 (W4 m ρ c)).trans (b4_arg8 m ρ c)
theorem b5_arg9 : W5 (F := Ideal) m ρ c (Proc.devRef .tc main_arg9) = (m ((c : Thread nD τ).loc main_arg9)) := (Stretch.ops1_arg9 (W4 m ρ c)).trans (b4_arg9 m ρ c)
theorem b5_arg10 : W5 (F := Ideal) m ρ c (Proc.devRef .tc main_arg10) = (m ((c : Thread nD τ).loc main_arg10)) := (Stretch.ops1_arg10 (W4 m ρ c)).trans (b4_arg10 m ρ c)
theorem b5_arg11 : W5 (F := Ideal) m ρ c (Proc.devRef .tc main_arg11) = (m ((c : Thread nD τ).loc main_arg11)) := (Stretch.ops1_arg11 (W4 m ρ c)).trans (b4_arg11 m ρ c)

/-! ## After the second dense stage -/

theorem b6_v34 (hf0 : ∀ (V : (c : Dev nD) → (b : Ref sig .tc) → Buf (Elt Ideal) ((c : Thread nD τ).loc b)) (c : Dev nD), (dat0 (F := Ideal) V c).arrAt 2 cfg0.N = Cert.Closed.mm (A := 100000) (K := 128) (B := 128) (V c (Pipeline.arrRef spec0 0)) (V c (Pipeline.arrRef spec0 1))) (hf1 : ∀ (V : (c : Dev nD) → (b : Ref sig .tc) → Buf (Elt Ideal) ((c : Thread nD τ).loc b)) (c : Dev nD), (dat1 (F := Ideal) V c).arrAt 4 cfg1.N = Cert.Closed.mmf (A := 100000) (K := 128) (B := 128) (V c (Pipeline.arrRef spec1 0)) (V c (Pipeline.arrRef spec1 1)) (V c (Pipeline.arrRef spec1 2)) (V c (Pipeline.arrRef spec1 3))) : W6 (F := Ideal) m ρ c (Proc.devRef .tc main_v34) = (Cert.Closed.mmf (A := 100000) (K := 128) (B := 128) (agg128 (Cert.Closed.mm (A := 100000) (K := 128) (B := 128) (m ((c : Thread nD τ).loc main_arg0)) (m ((c : Thread nD τ).loc main_arg2))) (scaleCol (degree (withLoops (edgeRow1 (m ((c : Thread nD τ).loc main_arg1)))))) (withLoops (edgeRow0 (m ((c : Thread nD τ).loc main_arg1)))) (withLoops (edgeRow1 (m ((c : Thread nD τ).loc main_arg1))))) (scaleCol (degree (withLoops (edgeRow1 (m ((c : Thread nD τ).loc main_arg1)))))) (row128 (m ((c : Thread nD τ).loc main_arg3))) (m ((c : Thread nD τ).loc main_arg4))) := by
  refine (W6_arr m ρ c 4).trans ((hf1 (V5 m ρ) c).trans ?_)
  show Cert.Closed.mmf (A := 100000) (K := 128) (B := 128) (W5 (F := Ideal) m ρ c (Proc.devRef .tc main_v32)) (W5 (F := Ideal) m ρ c (Proc.devRef .tc main_v16)) (W5 (F := Ideal) m ρ c (Proc.devRef .tc main_v33)) (W5 (F := Ideal) m ρ c (Proc.devRef .tc main_arg4)) = _
  rw [b5_v32 m ρ c hf0, b5_v16, b5_v33, b5_arg4]
theorem b6_v16 : W6 (F := Ideal) m ρ c (Proc.devRef .tc main_v16) = (scaleCol (degree (withLoops (edgeRow1 (m ((c : Thread nD τ).loc main_arg1)))))) :=
  (W6_arr m ρ c 1).trans (((dat1 (V5 m ρ) c).arrAt_in 1 rfl _).trans ((A_eq1 (V5 m ρ) c 1).trans (b5_v16 m ρ c)))
theorem b6_v1 : W6 (F := Ideal) m ρ c (Proc.devRef .tc main_v1) = (edgeRow0 (m ((c : Thread nD τ).loc main_arg1))) := (W6_of_ne m ρ c main_v1 (by decide)).trans (b5_v1 m ρ c)
theorem b6_v3 : W6 (F := Ideal) m ρ c (Proc.devRef .tc main_v3) = (edgeRow1 (m ((c : Thread nD τ).loc main_arg1))) := (W6_of_ne m ρ c main_v3 (by decide)).trans (b5_v3 m ρ c)
theorem b6_v5 : W6 (F := Ideal) m ρ c (Proc.devRef .tc main_v5) = (withLoops (edgeRow0 (m ((c : Thread nD τ).loc main_arg1)))) := (W6_of_ne m ρ c main_v5 (by decide)).trans (b5_v5 m ρ c)
theorem b6_v6 : W6 (F := Ideal) m ρ c (Proc.devRef .tc main_v6) = (withLoops (edgeRow1 (m ((c : Thread nD τ).loc main_arg1)))) := (W6_of_ne m ρ c main_v6 (by decide)).trans (b5_v6 m ρ c)
theorem b6_arg5 : W6 (F := Ideal) m ρ c (Proc.devRef .tc main_arg5) = (m ((c : Thread nD τ).loc main_arg5)) := (W6_of_ne m ρ c main_arg5 (by decide)).trans (b5_arg5 m ρ c)
theorem b6_arg6 : W6 (F := Ideal) m ρ c (Proc.devRef .tc main_arg6) = (m ((c : Thread nD τ).loc main_arg6)) := (W6_of_ne m ρ c main_arg6 (by decide)).trans (b5_arg6 m ρ c)
theorem b6_arg7 : W6 (F := Ideal) m ρ c (Proc.devRef .tc main_arg7) = (m ((c : Thread nD τ).loc main_arg7)) := (W6_of_ne m ρ c main_arg7 (by decide)).trans (b5_arg7 m ρ c)
theorem b6_arg8 : W6 (F := Ideal) m ρ c (Proc.devRef .tc main_arg8) = (m ((c : Thread nD τ).loc main_arg8)) := (W6_of_ne m ρ c main_arg8 (by decide)).trans (b5_arg8 m ρ c)
theorem b6_arg9 : W6 (F := Ideal) m ρ c (Proc.devRef .tc main_arg9) = (m ((c : Thread nD τ).loc main_arg9)) := (W6_of_ne m ρ c main_arg9 (by decide)).trans (b5_arg9 m ρ c)
theorem b6_arg10 : W6 (F := Ideal) m ρ c (Proc.devRef .tc main_arg10) = (m ((c : Thread nD τ).loc main_arg10)) := (W6_of_ne m ρ c main_arg10 (by decide)).trans (b5_arg10 m ρ c)
theorem b6_arg11 : W6 (F := Ideal) m ρ c (Proc.devRef .tc main_arg11) = (m ((c : Thread nD τ).loc main_arg11)) := (W6_of_ne m ρ c main_arg11 (by decide)).trans (b5_arg11 m ρ c)

/-! ## At the third dense stage's entry -/

theorem b7_v49 (hf0 : ∀ (V : (c : Dev nD) → (b : Ref sig .tc) → Buf (Elt Ideal) ((c : Thread nD τ).loc b)) (c : Dev nD), (dat0 (F := Ideal) V c).arrAt 2 cfg0.N = Cert.Closed.mm (A := 100000) (K := 128) (B := 128) (V c (Pipeline.arrRef spec0 0)) (V c (Pipeline.arrRef spec0 1))) (hf1 : ∀ (V : (c : Dev nD) → (b : Ref sig .tc) → Buf (Elt Ideal) ((c : Thread nD τ).loc b)) (c : Dev nD), (dat1 (F := Ideal) V c).arrAt 4 cfg1.N = Cert.Closed.mmf (A := 100000) (K := 128) (B := 128) (V c (Pipeline.arrRef spec1 0)) (V c (Pipeline.arrRef spec1 1)) (V c (Pipeline.arrRef spec1 2)) (V c (Pipeline.arrRef spec1 3))) : W7 (F := Ideal) m ρ c (Proc.devRef .tc main_v49) = (agg128 (Cert.Closed.mmf (A := 100000) (K := 128) (B := 128) (agg128 (Cert.Closed.mm (A := 100000) (K := 128) (B := 128) (m ((c : Thread nD τ).loc main_arg0)) (m ((c : Thread nD τ).loc main_arg2))) (scaleCol (degree (withLoops (edgeRow1 (m ((c : Thread nD τ).loc main_arg1)))))) (withLoops (edgeRow0 (m ((c : Thread nD τ).loc main_arg1)))) (withLoops (edgeRow1 (m ((c : Thread nD τ).loc main_arg1))))) (scaleCol (degree (withLoops (edgeRow1 (m ((c : Thread nD τ).loc main_arg1)))))) (row128 (m ((c : Thread nD τ).loc main_arg3))) (m ((c : Thread nD τ).loc main_arg4))) (scaleCol (degree (withLoops (edgeRow1 (m ((c : Thread nD τ).loc main_arg1)))))) (withLoops (edgeRow0 (m ((c : Thread nD τ).loc main_arg1)))) (withLoops (edgeRow1 (m ((c : Thread nD τ).loc main_arg1))))) := by
  refine (Stretch.ops2_v49 (W6 m ρ c)).trans ?_
  rw [b6_v34 m ρ c hf0 hf1, b6_v16, b6_v5, b6_v6]
theorem b7_v50 : W7 (F := Ideal) m ρ c (Proc.devRef .tc main_v50) = (row128 (m ((c : Thread nD τ).loc main_arg5))) := by
  refine (Stretch.ops2_v50 (W6 m ρ c)).trans ?_
  rw [b6_arg5]
theorem b7_v1 : W7 (F := Ideal) m ρ c (Proc.devRef .tc main_v1) = (edgeRow0 (m ((c : Thread nD τ).loc main_arg1))) := (Stretch.ops2_v1 (W6 m ρ c)).trans (b6_v1 m ρ c)
theorem b7_v3 : W7 (F := Ideal) m ρ c (Proc.devRef .tc main_v3) = (edgeRow1 (m ((c : Thread nD τ).loc main_arg1))) := (Stretch.ops2_v3 (W6 m ρ c)).trans (b6_v3 m ρ c)
theorem b7_v5 : W7 (F := Ideal) m ρ c (Proc.devRef .tc main_v5) = (withLoops (edgeRow0 (m ((c : Thread nD τ).loc main_arg1)))) := (Stretch.ops2_v5 (W6 m ρ c)).trans (b6_v5 m ρ c)
theorem b7_v6 : W7 (F := Ideal) m ρ c (Proc.devRef .tc main_v6) = (withLoops (edgeRow1 (m ((c : Thread nD τ).loc main_arg1)))) := (Stretch.ops2_v6 (W6 m ρ c)).trans (b6_v6 m ρ c)
theorem b7_v16 : W7 (F := Ideal) m ρ c (Proc.devRef .tc main_v16) = (scaleCol (degree (withLoops (edgeRow1 (m ((c : Thread nD τ).loc main_arg1)))))) := (Stretch.ops2_v16 (W6 m ρ c)).trans (b6_v16 m ρ c)
theorem b7_arg6 : W7 (F := Ideal) m ρ c (Proc.devRef .tc main_arg6) = (m ((c : Thread nD τ).loc main_arg6)) := (Stretch.ops2_arg6 (W6 m ρ c)).trans (b6_arg6 m ρ c)
theorem b7_arg7 : W7 (F := Ideal) m ρ c (Proc.devRef .tc main_arg7) = (m ((c : Thread nD τ).loc main_arg7)) := (Stretch.ops2_arg7 (W6 m ρ c)).trans (b6_arg7 m ρ c)
theorem b7_arg8 : W7 (F := Ideal) m ρ c (Proc.devRef .tc main_arg8) = (m ((c : Thread nD τ).loc main_arg8)) := (Stretch.ops2_arg8 (W6 m ρ c)).trans (b6_arg8 m ρ c)
theorem b7_arg9 : W7 (F := Ideal) m ρ c (Proc.devRef .tc main_arg9) = (m ((c : Thread nD τ).loc main_arg9)) := (Stretch.ops2_arg9 (W6 m ρ c)).trans (b6_arg9 m ρ c)
theorem b7_arg10 : W7 (F := Ideal) m ρ c (Proc.devRef .tc main_arg10) = (m ((c : Thread nD τ).loc main_arg10)) := (Stretch.ops2_arg10 (W6 m ρ c)).trans (b6_arg10 m ρ c)
theorem b7_arg11 : W7 (F := Ideal) m ρ c (Proc.devRef .tc main_arg11) = (m ((c : Thread nD τ).loc main_arg11)) := (Stretch.ops2_arg11 (W6 m ρ c)).trans (b6_arg11 m ρ c)

/-! ## After the third dense stage -/

theorem b8_v51 (hf0 : ∀ (V : (c : Dev nD) → (b : Ref sig .tc) → Buf (Elt Ideal) ((c : Thread nD τ).loc b)) (c : Dev nD), (dat0 (F := Ideal) V c).arrAt 2 cfg0.N = Cert.Closed.mm (A := 100000) (K := 128) (B := 128) (V c (Pipeline.arrRef spec0 0)) (V c (Pipeline.arrRef spec0 1))) (hf1 : ∀ (V : (c : Dev nD) → (b : Ref sig .tc) → Buf (Elt Ideal) ((c : Thread nD τ).loc b)) (c : Dev nD), (dat1 (F := Ideal) V c).arrAt 4 cfg1.N = Cert.Closed.mmf (A := 100000) (K := 128) (B := 128) (V c (Pipeline.arrRef spec1 0)) (V c (Pipeline.arrRef spec1 1)) (V c (Pipeline.arrRef spec1 2)) (V c (Pipeline.arrRef spec1 3))) (hf2 : ∀ (V : (c : Dev nD) → (b : Ref sig .tc) → Buf (Elt Ideal) ((c : Thread nD τ).loc b)) (c : Dev nD), (dat2 (F := Ideal) V c).arrAt 4 cfg2.N = Cert.Closed.mmf (A := 100000) (K := 128) (B := 64) (V c (Pipeline.arrRef spec2 0)) (V c (Pipeline.arrRef spec2 1)) (V c (Pipeline.arrRef spec2 2)) (V c (Pipeline.arrRef spec2 3))) : W8 (F := Ideal) m ρ c (Proc.devRef .tc main_v51) = (Cert.Closed.mmf (A := 100000) (K := 128) (B := 64) (agg128 (Cert.Closed.mmf (A := 100000) (K := 128) (B := 128) (agg128 (Cert.Closed.mm (A := 100000) (K := 128) (B := 128) (m ((c : Thread nD τ).loc main_arg0)) (m ((c : Thread nD τ).loc main_arg2))) (scaleCol (degree (withLoops (edgeRow1 (m ((c : Thread nD τ).loc main_arg1)))))) (withLoops (edgeRow0 (m ((c : Thread nD τ).loc main_arg1)))) (withLoops (edgeRow1 (m ((c : Thread nD τ).loc main_arg1))))) (scaleCol (degree (withLoops (edgeRow1 (m ((c : Thread nD τ).loc main_arg1)))))) (row128 (m ((c : Thread nD τ).loc main_arg3))) (m ((c : Thread nD τ).loc main_arg4))) (scaleCol (degree (withLoops (edgeRow1 (m ((c : Thread nD τ).loc main_arg1)))))) (withLoops (edgeRow0 (m ((c : Thread nD τ).loc main_arg1)))) (withLoops (edgeRow1 (m ((c : Thread nD τ).loc main_arg1))))) (scaleCol (degree (withLoops (edgeRow1 (m ((c : Thread nD τ).loc main_arg1)))))) (row128 (m ((c : Thread nD τ).loc main_arg5))) (m ((c : Thread nD τ).loc main_arg6))) := by
  refine (W8_arr m ρ c 4).trans ((hf2 (V7 m ρ) c).trans ?_)
  show Cert.Closed.mmf (A := 100000) (K := 128) (B := 64) (W7 (F := Ideal) m ρ c (Proc.devRef .tc main_v49)) (W7 (F := Ideal) m ρ c (Proc.devRef .tc main_v16)) (W7 (F := Ideal) m ρ c (Proc.devRef .tc main_v50)) (W7 (F := Ideal) m ρ c (Proc.devRef .tc main_arg6)) = _
  rw [b7_v49 m ρ c hf0 hf1, b7_v16, b7_v50, b7_arg6]
theorem b8_v16 : W8 (F := Ideal) m ρ c (Proc.devRef .tc main_v16) = (scaleCol (degree (withLoops (edgeRow1 (m ((c : Thread nD τ).loc main_arg1)))))) :=
  (W8_arr m ρ c 1).trans (((dat2 (V7 m ρ) c).arrAt_in 1 rfl _).trans ((A_eq2 (V7 m ρ) c 1).trans (b7_v16 m ρ c)))
theorem b8_v1 : W8 (F := Ideal) m ρ c (Proc.devRef .tc main_v1) = (edgeRow0 (m ((c : Thread nD τ).loc main_arg1))) := (W8_of_ne m ρ c main_v1 (by decide)).trans (b7_v1 m ρ c)
theorem b8_v3 : W8 (F := Ideal) m ρ c (Proc.devRef .tc main_v3) = (edgeRow1 (m ((c : Thread nD τ).loc main_arg1))) := (W8_of_ne m ρ c main_v3 (by decide)).trans (b7_v3 m ρ c)
theorem b8_v5 : W8 (F := Ideal) m ρ c (Proc.devRef .tc main_v5) = (withLoops (edgeRow0 (m ((c : Thread nD τ).loc main_arg1)))) := (W8_of_ne m ρ c main_v5 (by decide)).trans (b7_v5 m ρ c)
theorem b8_v6 : W8 (F := Ideal) m ρ c (Proc.devRef .tc main_v6) = (withLoops (edgeRow1 (m ((c : Thread nD τ).loc main_arg1)))) := (W8_of_ne m ρ c main_v6 (by decide)).trans (b7_v6 m ρ c)
theorem b8_arg7 : W8 (F := Ideal) m ρ c (Proc.devRef .tc main_arg7) = (m ((c : Thread nD τ).loc main_arg7)) := (W8_of_ne m ρ c main_arg7 (by decide)).trans (b7_arg7 m ρ c)
theorem b8_arg8 : W8 (F := Ideal) m ρ c (Proc.devRef .tc main_arg8) = (m ((c : Thread nD τ).loc main_arg8)) := (W8_of_ne m ρ c main_arg8 (by decide)).trans (b7_arg8 m ρ c)
theorem b8_arg9 : W8 (F := Ideal) m ρ c (Proc.devRef .tc main_arg9) = (m ((c : Thread nD τ).loc main_arg9)) := (W8_of_ne m ρ c main_arg9 (by decide)).trans (b7_arg9 m ρ c)
theorem b8_arg10 : W8 (F := Ideal) m ρ c (Proc.devRef .tc main_arg10) = (m ((c : Thread nD τ).loc main_arg10)) := (W8_of_ne m ρ c main_arg10 (by decide)).trans (b7_arg10 m ρ c)
theorem b8_arg11 : W8 (F := Ideal) m ρ c (Proc.devRef .tc main_arg11) = (m ((c : Thread nD τ).loc main_arg11)) := (W8_of_ne m ρ c main_arg11 (by decide)).trans (b7_arg11 m ρ c)

/-! ## At the edge stage's entry -/

theorem b9_v89 (hf0 : ∀ (V : (c : Dev nD) → (b : Ref sig .tc) → Buf (Elt Ideal) ((c : Thread nD τ).loc b)) (c : Dev nD), (dat0 (F := Ideal) V c).arrAt 2 cfg0.N = Cert.Closed.mm (A := 100000) (K := 128) (B := 128) (V c (Pipeline.arrRef spec0 0)) (V c (Pipeline.arrRef spec0 1))) (hf1 : ∀ (V : (c : Dev nD) → (b : Ref sig .tc) → Buf (Elt Ideal) ((c : Thread nD τ).loc b)) (c : Dev nD), (dat1 (F := Ideal) V c).arrAt 4 cfg1.N = Cert.Closed.mmf (A := 100000) (K := 128) (B := 128) (V c (Pipeline.arrRef spec1 0)) (V c (Pipeline.arrRef spec1 1)) (V c (Pipeline.arrRef spec1 2)) (V c (Pipeline.arrRef spec1 3))) (hf2 : ∀ (V : (c : Dev nD) → (b : Ref sig .tc) → Buf (Elt Ideal) ((c : Thread nD τ).loc b)) (c : Dev nD), (dat2 (F := Ideal) V c).arrAt 4 cfg2.N = Cert.Closed.mmf (A := 100000) (K := 128) (B := 64) (V c (Pipeline.arrRef spec2 0)) (V c (Pipeline.arrRef spec2 1)) (V c (Pipeline.arrRef spec2 2)) (V c (Pipeline.arrRef spec2 3))) : W9 (F := Ideal) m ρ c (Proc.devRef .tc main_v89) = (edgeFeat (nodeOut (agg64 (Cert.Closed.mmf (A := 100000) (K := 128) (B := 64) (agg128 (Cert.Closed.mmf (A := 100000) (K := 128) (B := 128) (agg128 (Cert.Closed.mm (A := 100000) (K := 128) (B := 128) (m ((c : Thread nD τ).loc main_arg0)) (m ((c : Thread nD τ).loc main_arg2))) (scaleCol (degree (withLoops (edgeRow1 (m ((c : Thread nD τ).loc main_arg1)))))) (withLoops (edgeRow0 (m ((c : Thread nD τ).loc main_arg1)))) (withLoops (edgeRow1 (m ((c : Thread nD τ).loc main_arg1))))) (scaleCol (degree (withLoops (edgeRow1 (m ((c : Thread nD τ).loc main_arg1)))))) (row128 (m ((c : Thread nD τ).loc main_arg3))) (m ((c : Thread nD τ).loc main_arg4))) (scaleCol (degree (withLoops (edgeRow1 (m ((c : Thread nD τ).loc main_arg1)))))) (withLoops (edgeRow0 (m ((c : Thread nD τ).loc main_arg1)))) (withLoops (edgeRow1 (m ((c : Thread nD τ).loc main_arg1))))) (scaleCol (degree (withLoops (edgeRow1 (m ((c : Thread nD τ).loc main_arg1)))))) (row128 (m ((c : Thread nD τ).loc main_arg5))) (m ((c : Thread nD τ).loc main_arg6))) (scaleCol (degree (withLoops (edgeRow1 (m ((c : Thread nD τ).loc main_arg1)))))) (withLoops (edgeRow0 (m ((c : Thread nD τ).loc main_arg1)))) (withLoops (edgeRow1 (m ((c : Thread nD τ).loc main_arg1))))) (scaleCol (degree (withLoops (edgeRow1 (m ((c : Thread nD τ).loc main_arg1)))))) (m ((c : Thread nD τ).loc main_arg7))) (edgeRow0 (m ((c : Thread nD τ).loc main_arg1))) (edgeRow1 (m ((c : Thread nD τ).loc main_arg1)))) := by
  refine (Stretch.ops3_v89 (W8 m ρ c)).trans ?_
  rw [b8_v51 m ρ c hf0 hf1 hf2, b8_v16, b8_v5, b8_v6, b8_arg7, b8_v1, b8_v3]
theorem b9_v90 : W9 (F := Ideal) m ρ c (Proc.devRef .tc main_v90) = (row64 (m ((c : Thread nD τ).loc main_arg9))) := by
  refine (Stretch.ops3_v90 (W8 m ρ c)).trans ?_
  rw [b8_arg9]
theorem b9_v91 : W9 (F := Ideal) m ρ c (Proc.devRef .tc main_v91) = (row2 (m ((c : Thread nD τ).loc main_arg11))) := by
  refine (Stretch.ops3_v91 (W8 m ρ c)).trans ?_
  rw [b8_arg11]
theorem b9_arg8 : W9 (F := Ideal) m ρ c (Proc.devRef .tc main_arg8) = (m ((c : Thread nD τ).loc main_arg8)) := (Stretch.ops3_arg8 (W8 m ρ c)).trans (b8_arg8 m ρ c)
theorem b9_arg10 : W9 (F := Ideal) m ρ c (Proc.devRef .tc main_arg10) = (m ((c : Thread nD τ).loc main_arg10)) := (Stretch.ops3_arg10 (W8 m ρ c)).trans (b8_arg10 m ρ c)

/-! ## The result -/

/-- The result array after the run is the kernel program's stage function of the twelve argument arrays. -/
theorem b10_v92 (hf0 : ∀ (V : (c : Dev nD) → (b : Ref sig .tc) → Buf (Elt Ideal) ((c : Thread nD τ).loc b)) (c : Dev nD), (dat0 (F := Ideal) V c).arrAt 2 cfg0.N = Cert.Closed.mm (A := 100000) (K := 128) (B := 128) (V c (Pipeline.arrRef spec0 0)) (V c (Pipeline.arrRef spec0 1))) (hf1 : ∀ (V : (c : Dev nD) → (b : Ref sig .tc) → Buf (Elt Ideal) ((c : Thread nD τ).loc b)) (c : Dev nD), (dat1 (F := Ideal) V c).arrAt 4 cfg1.N = Cert.Closed.mmf (A := 100000) (K := 128) (B := 128) (V c (Pipeline.arrRef spec1 0)) (V c (Pipeline.arrRef spec1 1)) (V c (Pipeline.arrRef spec1 2)) (V c (Pipeline.arrRef spec1 3))) (hf2 : ∀ (V : (c : Dev nD) → (b : Ref sig .tc) → Buf (Elt Ideal) ((c : Thread nD τ).loc b)) (c : Dev nD), (dat2 (F := Ideal) V c).arrAt 4 cfg2.N = Cert.Closed.mmf (A := 100000) (K := 128) (B := 64) (V c (Pipeline.arrRef spec2 0)) (V c (Pipeline.arrRef spec2 1)) (V c (Pipeline.arrRef spec2 2)) (V c (Pipeline.arrRef spec2 3))) (hf3 : ∀ (V : (c : Dev nD) → (b : Ref sig .tc) → Buf (Elt Ideal) ((c : Thread nD τ).loc b)) (c : Dev nD), (dat3 (F := Ideal) V c).arrAt 5 cfg3.N = Cert.Closed.mlp (A := 1600000) (K := 64) (H := 64) (B := 2) (V c (Pipeline.arrRef spec3 0)) (V c (Pipeline.arrRef spec3 1)) (V c (Pipeline.arrRef spec3 2)) (V c (Pipeline.arrRef spec3 3)) (V c (Pipeline.arrRef spec3 4))) : W10 (F := Ideal) m ρ c (Proc.devRef .tc main_v92) = (Cert.Closed.mlp (A := 1600000) (K := 64) (H := 64) (B := 2) (edgeFeat (nodeOut (agg64 (Cert.Closed.mmf (A := 100000) (K := 128) (B := 64) (agg128 (Cert.Closed.mmf (A := 100000) (K := 128) (B := 128) (agg128 (Cert.Closed.mm (A := 100000) (K := 128) (B := 128) (m ((c : Thread nD τ).loc main_arg0)) (m ((c : Thread nD τ).loc main_arg2))) (scaleCol (degree (withLoops (edgeRow1 (m ((c : Thread nD τ).loc main_arg1)))))) (withLoops (edgeRow0 (m ((c : Thread nD τ).loc main_arg1)))) (withLoops (edgeRow1 (m ((c : Thread nD τ).loc main_arg1))))) (scaleCol (degree (withLoops (edgeRow1 (m ((c : Thread nD τ).loc main_arg1)))))) (row128 (m ((c : Thread nD τ).loc main_arg3))) (m ((c : Thread nD τ).loc main_arg4))) (scaleCol (degree (withLoops (edgeRow1 (m ((c : Thread nD τ).loc main_arg1)))))) (withLoops (edgeRow0 (m ((c : Thread nD τ).loc main_arg1)))) (withLoops (edgeRow1 (m ((c : Thread nD τ).loc main_arg1))))) (scaleCol (degree (withLoops (edgeRow1 (m ((c : Thread nD τ).loc main_arg1)))))) (row128 (m ((c : Thread nD τ).loc main_arg5))) (m ((c : Thread nD τ).loc main_arg6))) (scaleCol (degree (withLoops (edgeRow1 (m ((c : Thread nD τ).loc main_arg1)))))) (withLoops (edgeRow0 (m ((c : Thread nD τ).loc main_arg1)))) (withLoops (edgeRow1 (m ((c : Thread nD τ).loc main_arg1))))) (scaleCol (degree (withLoops (edgeRow1 (m ((c : Thread nD τ).loc main_arg1)))))) (m ((c : Thread nD τ).loc main_arg7))) (edgeRow0 (m ((c : Thread nD τ).loc main_arg1))) (edgeRow1 (m ((c : Thread nD τ).loc main_arg1)))) (m ((c : Thread nD τ).loc main_arg8)) (row64 (m ((c : Thread nD τ).loc main_arg9))) (m ((c : Thread nD τ).loc main_arg10)) (row2 (m ((c : Thread nD τ).loc main_arg11)))) := by
  refine (W10_arr m ρ c 5).trans ((hf3 (V9 m ρ) c).trans ?_)
  show Cert.Closed.mlp (A := 1600000) (K := 64) (H := 64) (B := 2) (W9 (F := Ideal) m ρ c (Proc.devRef .tc main_v89)) (W9 (F := Ideal) m ρ c (Proc.devRef .tc main_arg8)) (W9 (F := Ideal) m ρ c (Proc.devRef .tc main_v90)) (W9 (F := Ideal) m ρ c (Proc.devRef .tc main_arg10)) (W9 (F := Ideal) m ρ c (Proc.devRef .tc main_v91)) = _
  rw [b9_v89 m ρ c hf0 hf1 hf2, b9_arg8, b9_v90, b9_arg10, b9_v91]

end Cert.KernelIdeal.Walk

end
-- ==== Proof.Region0.lean ====
import proofs.«167228_j83399674954443_2_alg».proof.Proof.Gen.KernelIdeal.Frame
import proofs.«167228_j83399674954443_2_alg».proof.Proof.Closed
import Idealize.ShloMosaic.Lib.ValueLayout
import Idealize.ShloMosaic.Lib.Pipeline.Value
import Idealize.ShloMosaic.Lib.ValueIdx
import Idealize.ShloMosaic.PureOps.Ideal.Laws

/-! # The first node stage: what the first region leaves in its output array

The region walks a grid of 25 points over an array `x` of 100000 rows and 128 columns. Point `t` sees rows
`4000 t … 4000 t + 3999` of `x` and the whole 128 × 128 weight matrix `w`; it writes rows `4000 t … 4000 t + 3999`
of the 100000 × 128 result. Over the extended reals the value it writes at row `r`, column `c` is the matrix
product's entry

  `∑ k, x (r, k) · w (k, c)`,

which depends on row `r` of `x` only. The 25 row blocks are disjoint and fill the result, so after the region the
result array is the product `x · w` at every index: `Cert.Closed.mm`. -/

noncomputable section

open scoped BigOperators

namespace Cert.KernelIdeal.RegionValue

open Cert.KernelIdeal Cert.KernelIdeal.Gen Idealize.ShloMosaic Idealize.ShloMosaic.ValueIdx
open Idealize.ShloMosaic.TcCoe
open Idealize.ShloMosaic.Pipeline (Dat)

namespace Node0

/-- The product of a 4000 × 128 block with a 128 × 128 matrix, contracting the block's columns with the matrix's rows. -/
local notation "D0" => dot_S4000x128_S128x128_S4000x128_1_0_0_1_n_n

/-! ## The matrix product at an entry

Into a zero accumulator the product's entry `(p, q)` is the sum over the shared axis `k` of `a (p, k) · b (k, q)`: the
left operand is read at the entry's row and `k`, the right operand at `k` and the entry's column. -/

/-- The left operand's row coordinate is the entry's row. -/
theorem d_lhs0 (i : S4000x128.Idx) (g : (D0).contr.Idx) : ((D0).lhsIdx i g 0).val = (i 0).val := by
  unfold DotDims.lhsIdx
  rw [dif_neg (show ¬(0 : Fin S4000x128.rank) ∈ (D0).lhsBatch by decide), dif_pos (show (0 : Fin S4000x128.rank) ∈ (D0).lhsNonContracting by decide)]
  rfl
/-- The right operand's column coordinate is the entry's column. -/
theorem d_rhs1 (i : S4000x128.Idx) (g : (D0).contr.Idx) : ((D0).rhsIdx i g 1).val = (i 1).val := by
  unfold DotDims.rhsIdx
  rw [dif_neg (show ¬(1 : Fin S128x128.rank) ∈ (D0).rhsBatch by decide), dif_pos (show (1 : Fin S128x128.rank) ∈ (D0).rhsNonContracting by decide)]
  rfl

/-- Entry `(p, q)` of the product is `∑ k, a (p, k) · b (k, q)`. -/
theorem mm_apply (a : FVec Ideal S4000x128 .bf16) (b : FVec Ideal S128x128 .bf16) (p : Fin 4000) (q : Fin 128) :
    matmul D0 none a b (constant (F := Ideal) S4000x128 .f32 0x00000000#32) (ix2 p q)
      = ∑ k : Fin 128, a (ix2 p k) * b (ix2 k q) := by
  simp only [matmul]
  rw [Ideal.matmul_constant_zero_apply, ← Equiv.sum_comp (contrEquiv1 D0 128 rfl rfl).symm]
  refine Finset.sum_congr rfl fun k _ => ?_
  have hk := contrEquiv1_symm_val D0 128 rfl rfl k
  have el : (D0).lhsIdx (ix2 p q) ((contrEquiv1 D0 128 rfl rfl).symm k) = ix2 p k := funext fun a => Fin.ext (by
    match a with
    | ⟨0, _⟩ => exact d_lhs0 _ _
    | ⟨1, _⟩ => exact ((D0).lhsIdx_val_of_single rfl _ _).trans hk)
  have er : (D0).rhsIdx (ix2 p q) ((contrEquiv1 D0 128 rfl rfl).symm k) = ix2 k q := funext fun a => Fin.ext (by
    match a with
    | ⟨0, _⟩ => exact ((D0).rhsIdx_val_of_single rfl _ _).trans hk
    | ⟨1, _⟩ => exact d_rhs1 _ _)
  rw [el, er]

/-! ## The body's value at an entry of its block -/

/-- On a 4000 × 128 block `x0` and the weights `x1`, the value stored at row `p`, column `q` is
    `∑ k, x0 (p, k) · x1 (k, q)`: the changes of float format before and after the product are the identity on the
    extended reals. -/
theorem pay_apply (x0 : Vec Ideal S4000x128 .f32) (x1 : Vec Ideal S128x128 .f32) (p : Fin 4000) (q : Fin 128) :
    k0_pay1 (F := Ideal) x0 x1 (ix2 p q) = ∑ k : Fin 128, x0 (ix2 p k) * x1 (ix2 k q) := by
  unfold k0_pay1
  refine (truncf_apply (ψ := .bf16) _ bitsLt_bf16_f32 (ix2 p q)).trans ?_
  exact mm_apply _ _ p q

/-- When the block `x0` is rows `4000 s …` of an array `a` and the other operand is the whole weight matrix, the
    value the body stores at the block's entry `j` is the product `a · w` at the array index `i` whose row is `4000 s`
    plus `j`'s row and whose column is `j`'s: the entry depends on row `i 0` of `a` alone. -/
theorem pay_eq_mm (a : S100000x128.Idx → EReal) (w : S128x128.Idx → EReal)
    (x0 : Vec Ideal S4000x128 .f32) (x1 : Vec Ideal S128x128 .f32) (s : Nat)
    (h0 : ∀ (y : S4000x128.Idx) (i : S100000x128.Idx), (i 0).val = s * 4000 + (y 0).val → (i 1).val = (y 1).val → x0 y = a i)
    (h1 : x1 = w)
    (j : S4000x128.Idx) (i : S100000x128.Idx) (hi0 : (i 0).val = s * 4000 + (j 0).val) (hi1 : (i 1).val = (j 1).val) :
    k0_pay1 (F := Ideal) x0 x1 j = Cert.Closed.mm a w i := by
  subst h1
  obtain ⟨p, q, rfl⟩ : ∃ (p : Fin 4000) (q : Fin 128), j = ix2 p q := ⟨j 0, j 1, eq_ix2 j⟩
  obtain rfl : q = Cert.Closed.col i := Fin.ext hi1.symm
  have hr : ∀ l : Fin 128, x0 (ix2 p l) = a (ix2 (Cert.Closed.row i) l) := fun l => h0 _ _ hi0 rfl
  rw [pay_apply]
  exact Finset.sum_congr rfl fun l _ => congrArg₂ (· * ·) (hr l) rfl

/-! ## The blocks the 25 points see -/

variable (V : (c : Dev nD) → (b : Ref sig .tc) → Buf (Elt Ideal) ((c : Thread nD τ).loc b))

theorem hz : (![0, 0] : Fin 2 → Nat) = fun _ => 0 := funext fun a => by fin_cases a <;> rfl

/-- The block indices at point `t`: the row array and the result are at block row `t`, block column 0; the weight
    matrix is at block (0, 0), being one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry `y` of the row block at point `t` is the array's entry at row `4000 t + y 0`, column `y 1`. -/
theorem blk0_apply (c : Dev nD) (t : Fin cfg0.N) (y : S4000x128.Idx) (i : S100000x128.Idx)
    (h0 : (i 0).val = t.val * 4000 + (y 0).val) (h1 : (i 1).val = (y 1).val) :
    (iblk0 V c 0 t : Vec Ideal S4000x128 .f32) y = (V c (Pipeline.arrRef spec0 0) : S100000x128.Idx → EReal) i := by
  obtain ⟨e00, e01, -⟩ := idx_facts t
  show V c (Pipeline.arrRef spec0 0) (((cfg0.win 0).blk t).view.emb y) = _
  refine congrArg (V c (Pipeline.arrRef spec0 0)) (funext fun a => Fin.ext ?_)
  match a with
  | ⟨0, _⟩ => show win0_0.index t (0 : Fin 2) * 4000 + 1 * (y 0).val = (i 0).val; omega
  | ⟨1, _⟩ => show win0_0.index t (1 : Fin 2) * 128 + 1 * (y 1).val = (i 1).val; omega

/-- At every point the weight matrix's block is the whole 128 × 128 matrix. -/
theorem blk1_eq (c : Dev nD) (t : Fin cfg0.N) :
    (iblk0 V c 1 t : Vec Ideal S128x128 .f32) = (V c (Pipeline.arrRef spec0 1) : S128x128.Idx → EReal) := by
  obtain ⟨-, -, e10, e11, -⟩ := idx_facts t
  funext y
  show V c (Pipeline.arrRef spec0 1) (((cfg0.win 1).blk t).view.emb y) = _
  refine congrArg (V c (Pipeline.arrRef spec0 1)) (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

/-! ## From the row blocks to the array -/

/-- The product of the two arrays the region finds. -/
abbrev G (c : Dev nD) : S100000x128.Idx → EReal :=
  Cert.Closed.mm (A := 100000) (K := 128) (B := 128) (V c (Pipeline.arrRef spec0 0)) (V c (Pipeline.arrRef spec0 1))

/-- What point `t` writes back is rows `4000 t … 4000 t + 3999` of `G`: the body's one store fills its block with the
    value at an entry above, the row block is rows `4000 t …` of the row array, and the output block sits at the same
    rows of the result. -/
theorem flushed_eq (c : Dev nD) (t : Fin cfg0.N) :
    (dat0 (F := Ideal) V c).flushed 2 t = ((cfg0.win 2).blk t).view.read (Elt Ideal) (G V c) := by
  show (cfg0.win 2).cut (grid0.coords t) ((dat0 V c).after 2 t) = _
  rw [after0_2]
  unfold out0_2
  rw [View.canon_unit_zero hz]
  simp only [View.ld_unit_zero (S := S4000x128) hz, View.ld_unit_zero (S := S128x128) hz]
  obtain ⟨-, -, -, -, e20, e21⟩ := idx_facts t
  funext j
  show k0_pay1 (F := Ideal) (iblk0 V c 0 t) (iblk0 V c 1 t) j = G V c (((cfg0.win 2).blk t).view.emb j)
  refine pay_eq_mm (V c (Pipeline.arrRef spec0 0)) (V c (Pipeline.arrRef spec0 1))
    (iblk0 V c 0 t) (iblk0 V c 1 t) t.val
    (fun y i h0 h1 => blk0_apply V c t y i h0 h1) (blk1_eq V c t)
    j (((cfg0.win 2).blk t).view.emb j) ?_ ?_
  · show win0_2.index t (0 : Fin 2) * 4000 + 1 * (j 0).val = t.val * 4000 + (j 0).val; omega
  · show win0_2.index t (1 : Fin 2) * 128 + 1 * (j 1).val = (j 1).val; omega

/-- An index of the result is in point `t`'s block iff each coordinate is in the block's range on its axis. -/
theorem mem_blk (t : Fin cfg0.N) (i : S100000x128.Idx) :
    i ∈ ((cfg0.win 2).blk t).view.set ↔ ∀ a : Fin 2, win0_2.index t a * S4000x128.size a ≤ (i a).val ∧ (i a).val < win0_2.index t a * S4000x128.size a + S4000x128.size a := by
  show i ∈ ((View.whole main_v17).slice (win0_2.rect t)).set ↔ _
  rw [View.set_slice_whole, Rect.mem_set_unit]
  exact Iff.rfl

/-- Every index of the result is in the block of the point `r / 4000`, `r` its row; every point writes its block back. -/
theorem cover (i : S100000x128.Idx) :
    ∃ t : Fin cfg0.N, (cfg0.win 2).flush t = true ∧ i ∈ ((cfg0.win 2).blk t).view.set := by
  have hi0 : (i 0).val < 100000 := idx2_lt0 i
  have hi1 : (i 1).val < 128 := idx2_lt1 i
  have hN : cfg0.N = 25 := N_0
  have ht : (i 0).val / 4000 < cfg0.N := by rw [hN]; omega
  obtain ⟨-, -, -, -, e20, e21⟩ := idx_facts ⟨(i 0).val / 4000, ht⟩
  refine ⟨⟨(i 0).val / 4000, ht⟩, flush0_2 _, ?_⟩
  rw [mem_blk]
  intro a
  match a with
  | ⟨0, _⟩ =>
    show win0_2.index ⟨(i 0).val / 4000, ht⟩ (0 : Fin 2) * 4000 ≤ (i 0).val ∧ (i 0).val < win0_2.index ⟨(i 0).val / 4000, ht⟩ (0 : Fin 2) * 4000 + 4000
    rw [e20]; show (i 0).val / 4000 * 4000 ≤ (i 0).val ∧ (i 0).val < (i 0).val / 4000 * 4000 + 4000; omega
  | ⟨1, _⟩ =>
    show win0_2.index ⟨(i 0).val / 4000, ht⟩ (1 : Fin 2) * 128 ≤ (i 1).val ∧ (i 1).val < win0_2.index ⟨(i 0).val / 4000, ht⟩ (1 : Fin 2) * 128 + 128
    rw [e21]; omega

end Node0

/-- After the region the result array holds, at every index, the matrix product `x · w` of the two arrays the region
    finds: the 25 row blocks written back fill the array and each is the matching rows of that product. -/
theorem final0 (V : (c : Dev nD) → (b : Ref sig .tc) → Buf (Elt Ideal) ((c : Thread nD τ).loc b)) (c : Dev nD) :
    (dat0 (F := Ideal) V c).arrAt 2 cfg0.N
      = Cert.Closed.mm (A := 100000) (K := 128) (B := 128) (V c (Pipeline.arrRef spec0 0)) (V c (Pipeline.arrRef spec0 1)) :=
  (dat0 (F := Ideal) V c).arrAt_eq_of_cover 2 (Node0.G V c) (fun t _ => Node0.flushed_eq V c t) Node0.cover

end Cert.KernelIdeal.RegionValue

end
-- ==== Proof.Region1n.lean ====
import proofs.«167228_j83399674954443_2_alg».proof.Proof.Gen.KernelIdeal.Frame
import proofs.«167228_j83399674954443_2_alg».proof.Proof.Closed
import Idealize.ShloMosaic.Lib.ValueLayout
import Idealize.ShloMosaic.Lib.Pipeline.Value
import Idealize.ShloMosaic.Lib.ValueIdx
import Idealize.ShloMosaic.PureOps.Ideal.Laws

/-! # The second node stage: what the second region leaves in its output array

The region walks a grid of 25 points over an array `a` of 100000 rows and 128 columns and a column `d` of 100000
scales, one per row. Point `t` sees rows `4000 t … 4000 t + 3999` of `a` and of `d`, the whole shift row `b` (1 × 128)
and the whole weight matrix `w` (128 × 128); it writes rows `4000 t … 4000 t + 3999` of the 100000 × 128 result. Over the
extended reals the value it writes at row `r`, column `c` is

  `∑ k, max (a (r, k) · d (r, 0) + b (0, k)) 0 · w (k, c)`,

which depends on row `r` of `a` and of `d` only. The 25 row blocks are disjoint and fill the result, so after the
region the result array is this function of the four arrays at every index: `Cert.Closed.mmf`. -/

noncomputable section

open scoped BigOperators

namespace Cert.KernelIdeal.RegionValue

open Cert.KernelIdeal Cert.KernelIdeal.Gen Idealize.ShloMosaic Idealize.ShloMosaic.ValueIdx
open Idealize.ShloMosaic.TcCoe
open Idealize.ShloMosaic.Pipeline (Dat)

namespace Node1

/-- The product of a 4000 × 128 block with a 128 × 128 matrix, contracting the block's columns with the matrix's rows. -/
local notation "D" => dot_S4000x128_S128x128_S4000x128_1_0_0_1_n_n

/-! ## The matrix product at an entry

Into a zero accumulator the product's entry `(p, q)` is the sum over the shared axis `k` of `a (p, k) · b (k, q)`: the
left operand is read at the entry's row and `k`, the right operand at `k` and the entry's column. -/

/-- The left operand's row coordinate is the entry's row. -/
theorem d_lhs0 (i : S4000x128.Idx) (g : (D).contr.Idx) : ((D).lhsIdx i g 0).val = (i 0).val := by
  unfold DotDims.lhsIdx
  rw [dif_neg (show ¬(0 : Fin S4000x128.rank) ∈ (D).lhsBatch by decide), dif_pos (show (0 : Fin S4000x128.rank) ∈ (D).lhsNonContracting by decide)]
  rfl
/-- The right operand's column coordinate is the entry's column. -/
theorem d_rhs1 (i : S4000x128.Idx) (g : (D).contr.Idx) : ((D).rhsIdx i g 1).val = (i 1).val := by
  unfold DotDims.rhsIdx
  rw [dif_neg (show ¬(1 : Fin S128x128.rank) ∈ (D).rhsBatch by decide), dif_pos (show (1 : Fin S128x128.rank) ∈ (D).rhsNonContracting by decide)]
  rfl

/-- Entry `(p, q)` of the product is `∑ k, a (p, k) · b (k, q)`. -/
theorem mm_apply (a : FVec Ideal S4000x128 .bf16) (b : FVec Ideal S128x128 .bf16) (p : Fin 4000) (q : Fin 128) :
    matmul D none a b (constant (F := Ideal) S4000x128 .f32 0x00000000#32) (ix2 p q)
      = ∑ k : Fin 128, a (ix2 p k) * b (ix2 k q) := by
  simp only [matmul]
  rw [Ideal.matmul_constant_zero_apply, ← Equiv.sum_comp (contrEquiv1 D 128 rfl rfl).symm]
  refine Finset.sum_congr rfl fun k _ => ?_
  have hk := contrEquiv1_symm_val D 128 rfl rfl k
  have el : (D).lhsIdx (ix2 p q) ((contrEquiv1 D 128 rfl rfl).symm k) = ix2 p k := funext fun a => Fin.ext (by
    match a with
    | ⟨0, _⟩ => exact d_lhs0 _ _
    | ⟨1, _⟩ => exact ((D).lhsIdx_val_of_single rfl _ _).trans hk)
  have er : (D).rhsIdx (ix2 p q) ((contrEquiv1 D 128 rfl rfl).symm k) = ix2 k q := funext fun a => Fin.ext (by
    match a with
    | ⟨0, _⟩ => exact ((D).rhsIdx_val_of_single rfl _ _).trans hk
    | ⟨1, _⟩ => exact d_rhs1 _ _)
  rw [el, er]

/-! ## The body's value at an entry of its block -/

/-- On a 4000 × 128 block `x0`, its 4000 × 1 column of scales `x1`, the shift row `x2` and the weights `x3`, the value
    stored at row `p`, column `q` is `∑ k, max (x0 (p, k) · x1 (p, 0) + x2 (0, k)) 0 · x3 (k, q)`: the scale column is read
    at the entry's row and its one column, the shift row at its one row and the summed column, the changes of float
    format are the identity on the extended reals, and the clipping constant is 0. -/
theorem pay_apply (x0 : Vec Ideal S4000x128 .f32) (x1 : Vec Ideal S4000x1 .f32) (x2 : Vec Ideal S1x128 .f32)
    (x3 : Vec Ideal S128x128 .f32) (p : Fin 4000) (q : Fin 128) :
    k1_pay1 (F := Ideal) x0 x1 x2 x3 (ix2 p q)
      = ∑ k : Fin 128, max (x0 (ix2 p k) * x1 (ix2 p 0) + x2 (ix2 0 k)) 0 * x3 (ix2 k q) := by
  unfold k1_pay1
  simp only [shapeCast_self]
  refine (truncf_apply (ψ := .bf16) _ bitsLt_bf16_f32 (ix2 p q)).trans ?_
  refine (mm_apply _ _ p q).trans (Finset.sum_congr rfl fun k _ => congrArg₂ (· * ·) ?_ rfl)
  refine (truncf_apply (ψ := .bf16) _ bitsLt_bf16_f32 (ix2 p k)).trans ((maximumf_apply _ _ _).trans (congrArg₂ max ?_ ?_))
  · refine (addf_apply _ _ _).trans (congrArg₂ (· + ·) ?_ ?_)
    · refine (mulf_apply _ _ _).trans (congrArg₂ (· * ·) rfl ?_)
      exact broadcastTo_apply _ _ _ _ (fun a => by match a with | ⟨0, _⟩ => rfl | ⟨1, _⟩ => rfl)
    · exact broadcastTo_apply _ _ _ _ (fun a => by match a with | ⟨0, _⟩ => rfl | ⟨1, _⟩ => rfl)
  · exact Ideal.ofBits_zero_f32

/-- When the blocks `x0`, `x1` are rows `4000 s …` of an array `a` and of the scale column `d`, and the other two
    operands are the whole shift row and weight matrix, the value the body stores at the block's entry `j` is the fused
    stage of the four arrays at the array index `i` whose row is `4000 s` plus `j`'s row and whose column is `j`'s: the
    entry depends on row `i 0` of `a` and of `d` alone. -/
theorem pay_eq_mmf (a : S100000x128.Idx → EReal) (d : S100000x1.Idx → EReal) (b : S1x128.Idx → EReal)
    (w : S128x128.Idx → EReal)
    (x0 : Vec Ideal S4000x128 .f32) (x1 : Vec Ideal S4000x1 .f32) (x2 : Vec Ideal S1x128 .f32)
    (x3 : Vec Ideal S128x128 .f32) (s : Nat)
    (h0 : ∀ (y : S4000x128.Idx) (i : S100000x128.Idx), (i 0).val = s * 4000 + (y 0).val → (i 1).val = (y 1).val → x0 y = a i)
    (h1 : ∀ (y : S4000x1.Idx) (i : S100000x1.Idx), (i 0).val = s * 4000 + (y 0).val → (i 1).val = (y 1).val → x1 y = d i)
    (h2 : x2 = b) (h3 : x3 = w)
    (j : S4000x128.Idx) (i : S100000x128.Idx) (hi0 : (i 0).val = s * 4000 + (j 0).val) (hi1 : (i 1).val = (j 1).val) :
    k1_pay1 (F := Ideal) x0 x1 x2 x3 j = Cert.Closed.mmf a d b w i := by
  subst h2 h3
  obtain ⟨p, q, rfl⟩ : ∃ (p : Fin 4000) (q : Fin 128), j = ix2 p q := ⟨j 0, j 1, eq_ix2 j⟩
  obtain rfl : q = Cert.Closed.col i := Fin.ext hi1.symm
  have hr0 : ∀ l : Fin 128, x0 (ix2 p l) = a (ix2 (Cert.Closed.row i) l) := fun l => h0 _ _ hi0 rfl
  have hr1 : x1 (ix2 p 0) = d (ix2 (Cert.Closed.row i) 0) := h1 _ _ hi0 rfl
  rw [pay_apply]
  exact Finset.sum_congr rfl fun k _ => congrArg₂ (· * ·) (congrArg₂ max
    (congrArg₂ (· + ·) (congrArg₂ (· * ·) (hr0 k) hr1) rfl) rfl) rfl

/-! ## The blocks the 25 points see -/

variable (V : (c : Dev nD) → (b : Ref sig .tc) → Buf (Elt Ideal) ((c : Thread nD τ).loc b))

theorem hz : (![0, 0] : Fin 2 → Nat) = fun _ => 0 := funext fun a => by fin_cases a <;> rfl

/-- The block indices at point `t`: the row array, the scale column and the result are at block row `t`, block
    column 0; the shift row and the weight matrix are at block (0, 0), each being one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Entry `y` of the row block at point `t` is the array's entry at row `4000 t + y 0`, column `y 1`. -/
theorem blk0_apply (c : Dev nD) (t : Fin cfg1.N) (y : S4000x128.Idx) (i : S100000x128.Idx)
    (h0 : (i 0).val = t.val * 4000 + (y 0).val) (h1 : (i 1).val = (y 1).val) :
    (iblk1 V c 0 t : Vec Ideal S4000x128 .f32) y = (V c (Pipeline.arrRef spec1 0) : S100000x128.Idx → EReal) i := by
  obtain ⟨e00, e01, -⟩ := idx_facts t
  show V c (Pipeline.arrRef spec1 0) (((cfg1.win 0).blk t).view.emb y) = _
  refine congrArg (V c (Pipeline.arrRef spec1 0)) (funext fun a => Fin.ext ?_)
  match a with
  | ⟨0, _⟩ => show win1_0.index t (0 : Fin 2) * 4000 + 1 * (y 0).val = (i 0).val; omega
  | ⟨1, _⟩ => show win1_0.index t (1 : Fin 2) * 128 + 1 * (y 1).val = (i 1).val; omega

/-- Entry `y` of the scale block at point `t` is the scale column's entry at row `4000 t + y 0`, column `y 1`. -/
theorem blk1_apply (c : Dev nD) (t : Fin cfg1.N) (y : S4000x1.Idx) (i : S100000x1.Idx)
    (h0 : (i 0).val = t.val * 4000 + (y 0).val) (h1 : (i 1).val = (y 1).val) :
    (iblk1 V c 1 t : Vec Ideal S4000x1 .f32) y = (V c (Pipeline.arrRef spec1 1) : S100000x1.Idx → EReal) i := by
  obtain ⟨-, -, e10, e11, -⟩ := idx_facts t
  show V c (Pipeline.arrRef spec1 1) (((cfg1.win 1).blk t).view.emb y) = _
  refine congrArg (V c (Pipeline.arrRef spec1 1)) (funext fun a => Fin.ext ?_)
  match a with
  | ⟨0, _⟩ => show win1_1.index t (0 : Fin 2) * 4000 + 1 * (y 0).val = (i 0).val; omega
  | ⟨1, _⟩ => show win1_1.index t (1 : Fin 2) * 1 + 1 * (y 1).val = (i 1).val; omega

/-- At every point the shift row's block is the whole 1 × 128 row. -/
theorem blk2_eq (c : Dev nD) (t : Fin cfg1.N) :
    (iblk1 V c 2 t : Vec Ideal S1x128 .f32) = (V c (Pipeline.arrRef spec1 2) : S1x128.Idx → EReal) := by
  obtain ⟨-, -, -, -, e20, e21, -⟩ := idx_facts t
  funext y
  show V c (Pipeline.arrRef spec1 2) (((cfg1.win 2).blk t).view.emb y) = _
  refine congrArg (V c (Pipeline.arrRef spec1 2)) (funext fun a => Fin.ext ?_)
  match a with
  | ⟨0, _⟩ => show win1_2.index t (0 : Fin 2) * 1 + 1 * (y 0).val = (y 0).val; omega
  | ⟨1, _⟩ => show win1_2.index t (1 : Fin 2) * 128 + 1 * (y 1).val = (y 1).val; omega

/-- At every point the weight matrix's block is the whole 128 × 128 matrix. -/
theorem blk3_eq (c : Dev nD) (t : Fin cfg1.N) :
    (iblk1 V c 3 t : Vec Ideal S128x128 .f32) = (V c (Pipeline.arrRef spec1 3) : S128x128.Idx → EReal) := by
  obtain ⟨-, -, -, -, -, -, e30, e31, -⟩ := idx_facts t
  funext y
  show V c (Pipeline.arrRef spec1 3) (((cfg1.win 3).blk t).view.emb y) = _
  refine congrArg (V c (Pipeline.arrRef spec1 3)) (funext fun a => Fin.ext ?_)
  match a with
  | ⟨0, _⟩ => show win1_3.index t (0 : Fin 2) * 128 + 1 * (y 0).val = (y 0).val; omega
  | ⟨1, _⟩ => show win1_3.index t (1 : Fin 2) * 128 + 1 * (y 1).val = (y 1).val; omega

/-! ## From the row blocks to the array -/

/-- The fused stage of the four arrays the region finds. -/
abbrev G (c : Dev nD) : S100000x128.Idx → EReal :=
  Cert.Closed.mmf (A := 100000) (K := 128) (B := 128)
    (V c (Pipeline.arrRef spec1 0)) (V c (Pipeline.arrRef spec1 1)) (V c (Pipeline.arrRef spec1 2))
    (V c (Pipeline.arrRef spec1 3))

/-- What point `t` writes back is rows `4000 t … 4000 t + 3999` of `G`: the body's one store fills its block with the
    value at an entry above, the two row blocks are rows `4000 t …` of their arrays, and the output block sits at the
    same rows of the result. -/
theorem flushed_eq (c : Dev nD) (t : Fin cfg1.N) :
    (dat1 (F := Ideal) V c).flushed 4 t = ((cfg1.win 4).blk t).view.read (Elt Ideal) (G V c) := by
  show (cfg1.win 4).cut (grid1.coords t) ((dat1 V c).after 4 t) = _
  rw [after1_4]
  unfold out1_4
  rw [View.canon_unit_zero hz]
  simp only [View.ld_unit_zero (S := S4000x128) hz, View.ld_unit_zero (S := S4000x1) hz, View.ld_unit_zero (S := S1x128) hz,
    View.ld_unit_zero (S := S128x128) hz]
  obtain ⟨-, -, -, -, -, -, -, -, e40, e41⟩ := idx_facts t
  funext j
  show k1_pay1 (F := Ideal) (iblk1 V c 0 t) (iblk1 V c 1 t) (iblk1 V c 2 t) (iblk1 V c 3 t) j
    = G V c (((cfg1.win 4).blk t).view.emb j)
  refine pay_eq_mmf (V c (Pipeline.arrRef spec1 0)) (V c (Pipeline.arrRef spec1 1)) (V c (Pipeline.arrRef spec1 2))
    (V c (Pipeline.arrRef spec1 3))
    (iblk1 V c 0 t) (iblk1 V c 1 t) (iblk1 V c 2 t) (iblk1 V c 3 t) t.val
    (fun y i h0 h1 => blk0_apply V c t y i h0 h1) (fun y i h0 h1 => blk1_apply V c t y i h0 h1)
    (blk2_eq V c t) (blk3_eq V c t)
    j (((cfg1.win 4).blk t).view.emb j) ?_ ?_
  · show win1_4.index t (0 : Fin 2) * 4000 + 1 * (j 0).val = t.val * 4000 + (j 0).val; omega
  · show win1_4.index t (1 : Fin 2) * 128 + 1 * (j 1).val = (j 1).val; omega

/-- An index of the result is in point `t`'s block iff each coordinate is in the block's range on its axis. -/
theorem mem_blk (t : Fin cfg1.N) (i : S100000x128.Idx) :
    i ∈ ((cfg1.win 4).blk t).view.set ↔ ∀ a : Fin 2, win1_4.index t a * S4000x128.size a ≤ (i a).val ∧ (i a).val < win1_4.index t a * S4000x128.size a + S4000x128.size a := by
  show i ∈ ((View.whole main_v34).slice (win1_4.rect t)).set ↔ _
  rw [View.set_slice_whole, Rect.mem_set_unit]
  exact Iff.rfl

/-- Every index of the result is in the block of the point `r / 4000`, `r` its row; every point writes its block back. -/
theorem cover (i : S100000x128.Idx) :
    ∃ t : Fin cfg1.N, (cfg1.win 4).flush t = true ∧ i ∈ ((cfg1.win 4).blk t).view.set := by
  have hi0 : (i 0).val < 100000 := idx2_lt0 i
  have hi1 : (i 1).val < 128 := idx2_lt1 i
  have hN : cfg1.N = 25 := N_1
  have ht : (i 0).val / 4000 < cfg1.N := by rw [hN]; omega
  obtain ⟨-, -, -, -, -, -, -, -, e40, e41⟩ := idx_facts ⟨(i 0).val / 4000, ht⟩
  refine ⟨⟨(i 0).val / 4000, ht⟩, flush1_4 _, ?_⟩
  rw [mem_blk]
  intro a
  match a with
  | ⟨0, _⟩ =>
    show win1_4.index ⟨(i 0).val / 4000, ht⟩ (0 : Fin 2) * 4000 ≤ (i 0).val ∧ (i 0).val < win1_4.index ⟨(i 0).val / 4000, ht⟩ (0 : Fin 2) * 4000 + 4000
    rw [e40]; show (i 0).val / 4000 * 4000 ≤ (i 0).val ∧ (i 0).val < (i 0).val / 4000 * 4000 + 4000; omega
  | ⟨1, _⟩ =>
    show win1_4.index ⟨(i 0).val / 4000, ht⟩ (1 : Fin 2) * 128 ≤ (i 1).val ∧ (i 1).val < win1_4.index ⟨(i 0).val / 4000, ht⟩ (1 : Fin 2) * 128 + 128
    rw [e41]; omega

end Node1

/-- After the region the result array holds, at every index, the fused stage `max (a · d + b) 0 · w` of the four arrays
    the region finds (`d` one scale per row, `b` one shift per column): the 25 row blocks written back fill the array and
    each is the matching rows of that function. -/
theorem final1 (V : (c : Dev nD) → (b : Ref sig .tc) → Buf (Elt Ideal) ((c : Thread nD τ).loc b)) (c : Dev nD) :
    (dat1 (F := Ideal) V c).arrAt 4 cfg1.N
      = Cert.Closed.mmf (A := 100000) (K := 128) (B := 128)
          (V c (Pipeline.arrRef spec1 0)) (V c (Pipeline.arrRef spec1 1)) (V c (Pipeline.arrRef spec1 2))
          (V c (Pipeline.arrRef spec1 3)) :=
  (dat1 (F := Ideal) V c).arrAt_eq_of_cover 4 (Node1.G V c) (fun t _ => Node1.flushed_eq V c t) Node1.cover

end Cert.KernelIdeal.RegionValue

end
-- ==== Proof.Region2.lean ====
import proofs.«167228_j83399674954443_2_alg».proof.Proof.Gen.KernelIdeal.Frame
import proofs.«167228_j83399674954443_2_alg».proof.Proof.Closed
import Idealize.ShloMosaic.Lib.ValueLayout
import Idealize.ShloMosaic.Lib.Pipeline.Value
import Idealize.ShloMosaic.Lib.ValueIdx
import Idealize.ShloMosaic.PureOps.Ideal.Laws

/-! # The third node stage: what the third region leaves in its output array

The region walks a grid of 25 points over an array `a` of 100000 rows and 128 columns and a column `d` of 100000
scales, one per row. Point `t` sees rows `4000 t … 4000 t + 3999` of `a` and of `d`, the whole shift row `b` (1 × 128)
and the whole weight matrix `w` (128 × 64); it writes rows `4000 t … 4000 t + 3999` of the 100000 × 64 result. Over the
extended reals the value it writes at row `r`, column `c` is

  `∑ k, max (a (r, k) · d (r, 0) + b (0, k)) 0 · w (k, c)`,

which depends on row `r` of `a` and of `d` only. The 25 row blocks are disjoint and fill the result, so after the
region the result array is this function of the four arrays at every index: `Cert.Closed.mmf`. -/

noncomputable section

open scoped BigOperators

namespace Cert.KernelIdeal.RegionValue

open Cert.KernelIdeal Cert.KernelIdeal.Gen Idealize.ShloMosaic Idealize.ShloMosaic.ValueIdx
open Idealize.ShloMosaic.TcCoe
open Idealize.ShloMosaic.Pipeline (Dat)

namespace Node2

/-- The product of a 4000 × 128 block with a 128 × 64 matrix, contracting the block's columns with the matrix's rows. -/
local notation "D" => dot_S4000x128_S128x64_S4000x64_1_0_0_1_n_n

/-! ## The matrix product at an entry

Into a zero accumulator the product's entry `(p, q)` is the sum over the shared axis `k` of `a (p, k) · b (k, q)`: the
left operand is read at the entry's row and `k`, the right operand at `k` and the entry's column. -/

/-- The left operand's row coordinate is the entry's row. -/
theorem d_lhs0 (i : S4000x64.Idx) (g : (D).contr.Idx) : ((D).lhsIdx i g 0).val = (i 0).val := by
  unfold DotDims.lhsIdx
  rw [dif_neg (show ¬(0 : Fin S4000x128.rank) ∈ (D).lhsBatch by decide), dif_pos (show (0 : Fin S4000x128.rank) ∈ (D).lhsNonContracting by decide)]
  rfl
/-- The right operand's column coordinate is the entry's column. -/
theorem d_rhs1 (i : S4000x64.Idx) (g : (D).contr.Idx) : ((D).rhsIdx i g 1).val = (i 1).val := by
  unfold DotDims.rhsIdx
  rw [dif_neg (show ¬(1 : Fin S128x64.rank) ∈ (D).rhsBatch by decide), dif_pos (show (1 : Fin S128x64.rank) ∈ (D).rhsNonContracting by decide)]
  rfl

/-- Entry `(p, q)` of the product is `∑ k, a (p, k) · b (k, q)`. -/
theorem mm_apply (a : FVec Ideal S4000x128 .bf16) (b : FVec Ideal S128x64 .bf16) (p : Fin 4000) (q : Fin 64) :
    matmul D none a b (constant (F := Ideal) S4000x64 .f32 0x00000000#32) (ix2 p q)
      = ∑ k : Fin 128, a (ix2 p k) * b (ix2 k q) := by
  simp only [matmul]
  rw [Ideal.matmul_constant_zero_apply, ← Equiv.sum_comp (contrEquiv1 D 128 rfl rfl).symm]
  refine Finset.sum_congr rfl fun k _ => ?_
  have hk := contrEquiv1_symm_val D 128 rfl rfl k
  have el : (D).lhsIdx (ix2 p q) ((contrEquiv1 D 128 rfl rfl).symm k) = ix2 p k := funext fun a => Fin.ext (by
    match a with
    | ⟨0, _⟩ => exact d_lhs0 _ _
    | ⟨1, _⟩ => exact ((D).lhsIdx_val_of_single rfl _ _).trans hk)
  have er : (D).rhsIdx (ix2 p q) ((contrEquiv1 D 128 rfl rfl).symm k) = ix2 k q := funext fun a => Fin.ext (by
    match a with
    | ⟨0, _⟩ => exact ((D).rhsIdx_val_of_single rfl _ _).trans hk
    | ⟨1, _⟩ => exact d_rhs1 _ _)
  rw [el, er]

/-! ## The body's value at an entry of its block -/

/-- On a 4000 × 128 block `x0`, its 4000 × 1 column of scales `x1`, the shift row `x2` and the weights `x3`, the value
    stored at row `p`, column `q` is `∑ k, max (x0 (p, k) · x1 (p, 0) + x2 (0, k)) 0 · x3 (k, q)`: the scale column is read
    at the entry's row and its one column, the shift row at its one row and the summed column, the changes of float
    format are the identity on the extended reals, and the clipping constant is 0. -/
theorem pay_apply (x0 : Vec Ideal S4000x128 .f32) (x1 : Vec Ideal S4000x1 .f32) (x2 : Vec Ideal S1x128 .f32)
    (x3 : Vec Ideal S128x64 .f32) (p : Fin 4000) (q : Fin 64) :
    k2_pay1 (F := Ideal) x0 x1 x2 x3 (ix2 p q)
      = ∑ k : Fin 128, max (x0 (ix2 p k) * x1 (ix2 p 0) + x2 (ix2 0 k)) 0 * x3 (ix2 k q) := by
  unfold k2_pay1
  simp only [shapeCast_self]
  refine (truncf_apply (ψ := .bf16) _ bitsLt_bf16_f32 (ix2 p q)).trans ?_
  refine (mm_apply _ _ p q).trans (Finset.sum_congr rfl fun k _ => congrArg₂ (· * ·) ?_ rfl)
  refine (truncf_apply (ψ := .bf16) _ bitsLt_bf16_f32 (ix2 p k)).trans ((maximumf_apply _ _ _).trans (congrArg₂ max ?_ ?_))
  · refine (addf_apply _ _ _).trans (congrArg₂ (· + ·) ?_ ?_)
    · refine (mulf_apply _ _ _).trans (congrArg₂ (· * ·) rfl ?_)
      exact broadcastTo_apply _ _ _ _ (fun a => by match a with | ⟨0, _⟩ => rfl | ⟨1, _⟩ => rfl)
    · exact broadcastTo_apply _ _ _ _ (fun a => by match a with | ⟨0, _⟩ => rfl | ⟨1, _⟩ => rfl)
  · exact Ideal.ofBits_zero_f32

/-- When the blocks `x0`, `x1` are rows `4000 s …` of an array `a` and of the scale column `d`, and the other two
    operands are the whole shift row and weight matrix, the value the body stores at the block's entry `j` is the fused
    stage of the four arrays at the array index `i` whose row is `4000 s` plus `j`'s row and whose column is `j`'s: the
    entry depends on row `i 0` of `a` and of `d` alone. -/
theorem pay_eq_mmf (a : S100000x128.Idx → EReal) (d : S100000x1.Idx → EReal) (b : S1x128.Idx → EReal)
    (w : S128x64.Idx → EReal)
    (x0 : Vec Ideal S4000x128 .f32) (x1 : Vec Ideal S4000x1 .f32) (x2 : Vec Ideal S1x128 .f32)
    (x3 : Vec Ideal S128x64 .f32) (s : Nat)
    (h0 : ∀ (y : S4000x128.Idx) (i : S100000x128.Idx), (i 0).val = s * 4000 + (y 0).val → (i 1).val = (y 1).val → x0 y = a i)
    (h1 : ∀ (y : S4000x1.Idx) (i : S100000x1.Idx), (i 0).val = s * 4000 + (y 0).val → (i 1).val = (y 1).val → x1 y = d i)
    (h2 : x2 = b) (h3 : x3 = w)
    (j : S4000x64.Idx) (i : S100000x64.Idx) (hi0 : (i 0).val = s * 4000 + (j 0).val) (hi1 : (i 1).val = (j 1).val) :
    k2_pay1 (F := Ideal) x0 x1 x2 x3 j = Cert.Closed.mmf a d b w i := by
  subst h2 h3
  obtain ⟨p, q, rfl⟩ : ∃ (p : Fin 4000) (q : Fin 64), j = ix2 p q := ⟨j 0, j 1, eq_ix2 j⟩
  obtain rfl : q = Cert.Closed.col i := Fin.ext hi1.symm
  have hr0 : ∀ l : Fin 128, x0 (ix2 p l) = a (ix2 (Cert.Closed.row i) l) := fun l => h0 _ _ hi0 rfl
  have hr1 : x1 (ix2 p 0) = d (ix2 (Cert.Closed.row i) 0) := h1 _ _ hi0 rfl
  rw [pay_apply]
  exact Finset.sum_congr rfl fun k _ => congrArg₂ (· * ·) (congrArg₂ max
    (congrArg₂ (· + ·) (congrArg₂ (· * ·) (hr0 k) hr1) rfl) rfl) rfl

/-! ## The blocks the 25 points see -/

variable (V : (c : Dev nD) → (b : Ref sig .tc) → Buf (Elt Ideal) ((c : Thread nD τ).loc b))

theorem hz : (![0, 0] : Fin 2 → Nat) = fun _ => 0 := funext fun a => by fin_cases a <;> rfl

/-- The block indices at point `t`: the row array, the scale column and the result are at block row `t`, block
    column 0; the shift row and the weight matrix are at block (0, 0), each being one block. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Entry `y` of the row block at point `t` is the array's entry at row `4000 t + y 0`, column `y 1`. -/
theorem blk0_apply (c : Dev nD) (t : Fin cfg2.N) (y : S4000x128.Idx) (i : S100000x128.Idx)
    (h0 : (i 0).val = t.val * 4000 + (y 0).val) (h1 : (i 1).val = (y 1).val) :
    (iblk2 V c 0 t : Vec Ideal S4000x128 .f32) y = (V c (Pipeline.arrRef spec2 0) : S100000x128.Idx → EReal) i := by
  obtain ⟨e00, e01, -⟩ := idx_facts t
  show V c (Pipeline.arrRef spec2 0) (((cfg2.win 0).blk t).view.emb y) = _
  refine congrArg (V c (Pipeline.arrRef spec2 0)) (funext fun a => Fin.ext ?_)
  match a with
  | ⟨0, _⟩ => show win2_0.index t (0 : Fin 2) * 4000 + 1 * (y 0).val = (i 0).val; omega
  | ⟨1, _⟩ => show win2_0.index t (1 : Fin 2) * 128 + 1 * (y 1).val = (i 1).val; omega

/-- Entry `y` of the scale block at point `t` is the scale column's entry at row `4000 t + y 0`, column `y 1`. -/
theorem blk1_apply (c : Dev nD) (t : Fin cfg2.N) (y : S4000x1.Idx) (i : S100000x1.Idx)
    (h0 : (i 0).val = t.val * 4000 + (y 0).val) (h1 : (i 1).val = (y 1).val) :
    (iblk2 V c 1 t : Vec Ideal S4000x1 .f32) y = (V c (Pipeline.arrRef spec2 1) : S100000x1.Idx → EReal) i := by
  obtain ⟨-, -, e10, e11, -⟩ := idx_facts t
  show V c (Pipeline.arrRef spec2 1) (((cfg2.win 1).blk t).view.emb y) = _
  refine congrArg (V c (Pipeline.arrRef spec2 1)) (funext fun a => Fin.ext ?_)
  match a with
  | ⟨0, _⟩ => show win2_1.index t (0 : Fin 2) * 4000 + 1 * (y 0).val = (i 0).val; omega
  | ⟨1, _⟩ => show win2_1.index t (1 : Fin 2) * 1 + 1 * (y 1).val = (i 1).val; omega

/-- At every point the shift row's block is the whole 1 × 128 row. -/
theorem blk2_eq (c : Dev nD) (t : Fin cfg2.N) :
    (iblk2 V c 2 t : Vec Ideal S1x128 .f32) = (V c (Pipeline.arrRef spec2 2) : S1x128.Idx → EReal) := by
  obtain ⟨-, -, -, -, e20, e21, -⟩ := idx_facts t
  funext y
  show V c (Pipeline.arrRef spec2 2) (((cfg2.win 2).blk t).view.emb y) = _
  refine congrArg (V c (Pipeline.arrRef spec2 2)) (funext fun a => Fin.ext ?_)
  match a with
  | ⟨0, _⟩ => show win2_2.index t (0 : Fin 2) * 1 + 1 * (y 0).val = (y 0).val; omega
  | ⟨1, _⟩ => show win2_2.index t (1 : Fin 2) * 128 + 1 * (y 1).val = (y 1).val; omega

/-- At every point the weight matrix's block is the whole 128 × 64 matrix. -/
theorem blk3_eq (c : Dev nD) (t : Fin cfg2.N) :
    (iblk2 V c 3 t : Vec Ideal S128x64 .f32) = (V c (Pipeline.arrRef spec2 3) : S128x64.Idx → EReal) := by
  obtain ⟨-, -, -, -, -, -, e30, e31, -⟩ := idx_facts t
  funext y
  show V c (Pipeline.arrRef spec2 3) (((cfg2.win 3).blk t).view.emb y) = _
  refine congrArg (V c (Pipeline.arrRef spec2 3)) (funext fun a => Fin.ext ?_)
  match a with
  | ⟨0, _⟩ => show win2_3.index t (0 : Fin 2) * 128 + 1 * (y 0).val = (y 0).val; omega
  | ⟨1, _⟩ => show win2_3.index t (1 : Fin 2) * 64 + 1 * (y 1).val = (y 1).val; omega

/-! ## From the row blocks to the array -/

/-- The fused stage of the four arrays the region finds. -/
abbrev G (c : Dev nD) : S100000x64.Idx → EReal :=
  Cert.Closed.mmf (A := 100000) (K := 128) (B := 64)
    (V c (Pipeline.arrRef spec2 0)) (V c (Pipeline.arrRef spec2 1)) (V c (Pipeline.arrRef spec2 2))
    (V c (Pipeline.arrRef spec2 3))

/-- What point `t` writes back is rows `4000 t … 4000 t + 3999` of `G`: the body's one store fills its block with the
    value at an entry above, the two row blocks are rows `4000 t …` of their arrays, and the output block sits at the
    same rows of the result. -/
theorem flushed_eq (c : Dev nD) (t : Fin cfg2.N) :
    (dat2 (F := Ideal) V c).flushed 4 t = ((cfg2.win 4).blk t).view.read (Elt Ideal) (G V c) := by
  show (cfg2.win 4).cut (grid2.coords t) ((dat2 V c).after 4 t) = _
  rw [after2_4]
  unfold out2_4
  rw [View.canon_unit_zero hz]
  simp only [View.ld_unit_zero (S := S4000x128) hz, View.ld_unit_zero (S := S4000x1) hz, View.ld_unit_zero (S := S1x128) hz,
    View.ld_unit_zero (S := S128x64) hz]
  obtain ⟨-, -, -, -, -, -, -, -, e40, e41⟩ := idx_facts t
  funext j
  show k2_pay1 (F := Ideal) (iblk2 V c 0 t) (iblk2 V c 1 t) (iblk2 V c 2 t) (iblk2 V c 3 t) j
    = G V c (((cfg2.win 4).blk t).view.emb j)
  refine pay_eq_mmf (V c (Pipeline.arrRef spec2 0)) (V c (Pipeline.arrRef spec2 1)) (V c (Pipeline.arrRef spec2 2))
    (V c (Pipeline.arrRef spec2 3))
    (iblk2 V c 0 t) (iblk2 V c 1 t) (iblk2 V c 2 t) (iblk2 V c 3 t) t.val
    (fun y i h0 h1 => blk0_apply V c t y i h0 h1) (fun y i h0 h1 => blk1_apply V c t y i h0 h1)
    (blk2_eq V c t) (blk3_eq V c t)
    j (((cfg2.win 4).blk t).view.emb j) ?_ ?_
  · show win2_4.index t (0 : Fin 2) * 4000 + 1 * (j 0).val = t.val * 4000 + (j 0).val; omega
  · show win2_4.index t (1 : Fin 2) * 64 + 1 * (j 1).val = (j 1).val; omega

/-- An index of the result is in point `t`'s block iff each coordinate is in the block's range on its axis. -/
theorem mem_blk (t : Fin cfg2.N) (i : S100000x64.Idx) :
    i ∈ ((cfg2.win 4).blk t).view.set ↔ ∀ a : Fin 2, win2_4.index t a * S4000x64.size a ≤ (i a).val ∧ (i a).val < win2_4.index t a * S4000x64.size a + S4000x64.size a := by
  show i ∈ ((View.whole main_v51).slice (win2_4.rect t)).set ↔ _
  rw [View.set_slice_whole, Rect.mem_set_unit]
  exact Iff.rfl

/-- Every index of the result is in the block of the point `r / 4000`, `r` its row; every point writes its block back. -/
theorem cover (i : S100000x64.Idx) :
    ∃ t : Fin cfg2.N, (cfg2.win 4).flush t = true ∧ i ∈ ((cfg2.win 4).blk t).view.set := by
  have hi0 : (i 0).val < 100000 := idx2_lt0 i
  have hi1 : (i 1).val < 64 := idx2_lt1 i
  have hN : cfg2.N = 25 := N_2
  have ht : (i 0).val / 4000 < cfg2.N := by rw [hN]; omega
  obtain ⟨-, -, -, -, -, -, -, -, e40, e41⟩ := idx_facts ⟨(i 0).val / 4000, ht⟩
  refine ⟨⟨(i 0).val / 4000, ht⟩, flush2_4 _, ?_⟩
  rw [mem_blk]
  intro a
  match a with
  | ⟨0, _⟩ =>
    show win2_4.index ⟨(i 0).val / 4000, ht⟩ (0 : Fin 2) * 4000 ≤ (i 0).val ∧ (i 0).val < win2_4.index ⟨(i 0).val / 4000, ht⟩ (0 : Fin 2) * 4000 + 4000
    rw [e40]; show (i 0).val / 4000 * 4000 ≤ (i 0).val ∧ (i 0).val < (i 0).val / 4000 * 4000 + 4000; omega
  | ⟨1, _⟩ =>
    show win2_4.index ⟨(i 0).val / 4000, ht⟩ (1 : Fin 2) * 64 ≤ (i 1).val ∧ (i 1).val < win2_4.index ⟨(i 0).val / 4000, ht⟩ (1 : Fin 2) * 64 + 64
    rw [e41]; omega

end Node2

/-- After the region the result array holds, at every index, the fused stage `max (a · d + b) 0 · w` of the four arrays
    the region finds (`d` one scale per row, `b` one shift per column): the 25 row blocks written back fill the array and
    each is the matching rows of that function. -/
theorem final2 (V : (c : Dev nD) → (b : Ref sig .tc) → Buf (Elt Ideal) ((c : Thread nD τ).loc b)) (c : Dev nD) :
    (dat2 (F := Ideal) V c).arrAt 4 cfg2.N
      = Cert.Closed.mmf (A := 100000) (K := 128) (B := 64)
          (V c (Pipeline.arrRef spec2 0)) (V c (Pipeline.arrRef spec2 1)) (V c (Pipeline.arrRef spec2 2))
          (V c (Pipeline.arrRef spec2 3)) :=
  (dat2 (F := Ideal) V c).arrAt_eq_of_cover 4 (Node2.G V c) (fun t _ => Node2.flushed_eq V c t) Node2.cover

end Cert.KernelIdeal.RegionValue

end
-- ==== Proof.Region3.lean ====
import proofs.«167228_j83399674954443_2_alg».proof.Proof.Gen.KernelIdeal.Frame
import proofs.«167228_j83399674954443_2_alg».proof.Proof.Closed
import Idealize.ShloMosaic.Lib.ValueLayout
import Idealize.ShloMosaic.Lib.Pipeline.Value
import Idealize.ShloMosaic.Lib.ValueIdx
import Idealize.ShloMosaic.PureOps.Ideal.Laws

/-! # The edge stage: what the fourth region leaves in its output array

The region walks a grid of 200 points over an array `x` of 1600000 rows and 64 columns. Point `t` sees rows
`8000 t … 8000 t + 7999` of `x` and the whole of the two weight matrices `w₁` (64 × 64), `w₂` (64 × 2) and of the
two shift rows `b₁` (1 × 64), `b₂` (1 × 2); it writes rows `8000 t … 8000 t + 7999` of the 1600000 × 2 result.
Over the extended reals the value it writes at row `r`, column `c` is

  `∑ k, max (∑ l, x (r, l) · w₁ (l, k) + b₁ (0, k)) 0 · w₂ (k, c) + b₂ (0, c)`,

which depends on row `r` of `x` only. The 200 row blocks are disjoint and fill the result, so after the region the
result array is this function of the five arrays at every index: `Cert.Closed.mlp`. -/

noncomputable section

open scoped BigOperators

namespace Cert.KernelIdeal.RegionValue

open Cert.KernelIdeal Cert.KernelIdeal.Gen Idealize.ShloMosaic Idealize.ShloMosaic.ValueIdx
open Idealize.ShloMosaic.TcCoe
open Idealize.ShloMosaic.Pipeline (Dat)

namespace Edge

/-- The product of an 8000 × 64 block with a 64 × 64 matrix, contracting the block's columns with the matrix's rows. -/
local notation "D1" => dot_S8000x64_S64x64_S8000x64_1_0_0_1_n_n
/-- The product of an 8000 × 64 block with a 64 × 2 matrix, contracting the block's columns with the matrix's rows. -/
local notation "D2" => dot_S8000x64_S64x2_S8000x2_1_0_0_1_n_n

/-! ## A matrix product at an entry

Into a zero accumulator the product's entry `(p, q)` is the sum over the shared axis `k` of `a (p, k) · b (k, q)`: the
left operand is read at the entry's row and `k`, the right operand at `k` and the entry's column. -/

/-- The left operand's row coordinate is the entry's row. -/
theorem d1_lhs0 (i : S8000x64.Idx) (g : (D1).contr.Idx) : ((D1).lhsIdx i g 0).val = (i 0).val := by
  unfold DotDims.lhsIdx
  rw [dif_neg (show ¬(0 : Fin S8000x64.rank) ∈ (D1).lhsBatch by decide), dif_pos (show (0 : Fin S8000x64.rank) ∈ (D1).lhsNonContracting by decide)]
  rfl
/-- The right operand's column coordinate is the entry's column. -/
theorem d1_rhs1 (i : S8000x64.Idx) (g : (D1).contr.Idx) : ((D1).rhsIdx i g 1).val = (i 1).val := by
  unfold DotDims.rhsIdx
  rw [dif_neg (show ¬(1 : Fin S64x64.rank) ∈ (D1).rhsBatch by decide), dif_pos (show (1 : Fin S64x64.rank) ∈ (D1).rhsNonContracting by decide)]
  rfl

/-- Entry `(p, q)` of the first product is `∑ k, a (p, k) · b (k, q)`. -/
theorem mm1_apply (a : FVec Ideal S8000x64 .bf16) (b : FVec Ideal S64x64 .bf16) (p : Fin 8000) (q : Fin 64) :
    matmul D1 none a b (constant (F := Ideal) S8000x64 .f32 0x00000000#32) (ix2 p q)
      = ∑ k : Fin 64, a (ix2 p k) * b (ix2 k q) := by
  simp only [matmul]
  rw [Ideal.matmul_constant_zero_apply, ← Equiv.sum_comp (contrEquiv1 D1 64 rfl rfl).symm]
  refine Finset.sum_congr rfl fun k _ => ?_
  have hk := contrEquiv1_symm_val D1 64 rfl rfl k
  have el : (D1).lhsIdx (ix2 p q) ((contrEquiv1 D1 64 rfl rfl).symm k) = ix2 p k := funext fun a => Fin.ext (by
    match a with
    | ⟨0, _⟩ => exact d1_lhs0 _ _
    | ⟨1, _⟩ => exact ((D1).lhsIdx_val_of_single rfl _ _).trans hk)
  have er : (D1).rhsIdx (ix2 p q) ((contrEquiv1 D1 64 rfl rfl).symm k) = ix2 k q := funext fun a => Fin.ext (by
    match a with
    | ⟨0, _⟩ => exact ((D1).rhsIdx_val_of_single rfl _ _).trans hk
    | ⟨1, _⟩ => exact d1_rhs1 _ _)
  rw [el, er]

/-- The left operand's row coordinate is the entry's row. -/
theorem d2_lhs0 (i : S8000x2.Idx) (g : (D2).contr.Idx) : ((D2).lhsIdx i g 0).val = (i 0).val := by
  unfold DotDims.lhsIdx
  rw [dif_neg (show ¬(0 : Fin S8000x64.rank) ∈ (D2).lhsBatch by decide), dif_pos (show (0 : Fin S8000x64.rank) ∈ (D2).lhsNonContracting by decide)]
  rfl
/-- The right operand's column coordinate is the entry's column. -/
theorem d2_rhs1 (i : S8000x2.Idx) (g : (D2).contr.Idx) : ((D2).rhsIdx i g 1).val = (i 1).val := by
  unfold DotDims.rhsIdx
  rw [dif_neg (show ¬(1 : Fin S64x2.rank) ∈ (D2).rhsBatch by decide), dif_pos (show (1 : Fin S64x2.rank) ∈ (D2).rhsNonContracting by decide)]
  rfl

/-- Entry `(p, q)` of the second product is `∑ k, a (p, k) · b (k, q)`. -/
theorem mm2_apply (a : FVec Ideal S8000x64 .bf16) (b : FVec Ideal S64x2 .bf16) (p : Fin 8000) (q : Fin 2) :
    matmul D2 none a b (constant (F := Ideal) S8000x2 .f32 0x00000000#32) (ix2 p q)
      = ∑ k : Fin 64, a (ix2 p k) * b (ix2 k q) := by
  simp only [matmul]
  rw [Ideal.matmul_constant_zero_apply, ← Equiv.sum_comp (contrEquiv1 D2 64 rfl rfl).symm]
  refine Finset.sum_congr rfl fun k _ => ?_
  have hk := contrEquiv1_symm_val D2 64 rfl rfl k
  have el : (D2).lhsIdx (ix2 p q) ((contrEquiv1 D2 64 rfl rfl).symm k) = ix2 p k := funext fun a => Fin.ext (by
    match a with
    | ⟨0, _⟩ => exact d2_lhs0 _ _
    | ⟨1, _⟩ => exact ((D2).lhsIdx_val_of_single rfl _ _).trans hk)
  have er : (D2).rhsIdx (ix2 p q) ((contrEquiv1 D2 64 rfl rfl).symm k) = ix2 k q := funext fun a => Fin.ext (by
    match a with
    | ⟨0, _⟩ => exact ((D2).rhsIdx_val_of_single rfl _ _).trans hk
    | ⟨1, _⟩ => exact d2_rhs1 _ _)
  rw [el, er]

/-! ## The body's value at an entry of its block -/

/-- On an 8000 × 64 block `x0`, weights `x1`, `x3` and shift rows `x2`, `x4`, the value stored at row `p`, column `q` is
    `∑ k, max (∑ l, x0 (p, l) · x1 (l, k) + x2 (0, k)) 0 · x3 (k, q) + x4 (0, q)`: changes of float format are the identity
    on the extended reals, a shift row is read at row 0 whatever the block's row, and the clipping constant is 0. -/
theorem pay_apply (x0 : Vec Ideal S8000x64 .bf16) (x1 : Vec Ideal S64x64 .f32) (x2 : Vec Ideal S1x64 .f32)
    (x3 : Vec Ideal S64x2 .f32) (x4 : Vec Ideal S1x2 .f32) (p : Fin 8000) (q : Fin 2) :
    k3_pay1 (F := Ideal) x0 x1 x2 x3 x4 (ix2 p q)
      = (∑ k : Fin 64, max ((∑ l : Fin 64, x0 (ix2 p l) * x1 (ix2 l k)) + x2 (ix2 0 k)) 0 * x3 (ix2 k q)) + x4 (ix2 0 q) := by
  unfold k3_pay1
  simp only [shapeCast_self]
  refine (addf_apply _ _ _).trans (congrArg₂ (· + ·) ?_ ?_)
  · refine (mm2_apply _ _ p q).trans (Finset.sum_congr rfl fun k _ => congrArg₂ (· * ·) ?_ rfl)
    refine (truncf_apply (ψ := .bf16) _ bitsLt_bf16_f32 (ix2 p k)).trans ((maximumf_apply _ _ _).trans (congrArg₂ max ?_ ?_))
    · refine (addf_apply _ _ _).trans (congrArg₂ (· + ·) ?_ ?_)
      · exact mm1_apply _ _ p k
      · exact broadcastTo_apply _ _ _ _ (fun a => by match a with | ⟨0, _⟩ => rfl | ⟨1, _⟩ => rfl)
    · exact Ideal.ofBits_zero_f32
  · exact broadcastTo_apply _ _ _ _ (fun a => by match a with | ⟨0, _⟩ => rfl | ⟨1, _⟩ => rfl)

/-- When the block `x0` is rows `8000 s …` of an array `a` and the other four operands are whole arrays, the value the
    body stores at the block's entry `j` is the edge stage of the five arrays at the array index `i` whose row is
    `8000 s` plus `j`'s row and whose column is `j`'s: the entry depends on row `i 0` of `a` alone. -/
theorem pay_eq_mlp (a : S1600000x64.Idx → EReal) (w1 : S64x64.Idx → EReal) (b1 : S1x64.Idx → EReal)
    (w2 : S64x2.Idx → EReal) (b2 : S1x2.Idx → EReal)
    (x0 : Vec Ideal S8000x64 .bf16) (x1 : Vec Ideal S64x64 .f32) (x2 : Vec Ideal S1x64 .f32)
    (x3 : Vec Ideal S64x2 .f32) (x4 : Vec Ideal S1x2 .f32) (s : Nat)
    (h0 : ∀ (y : S8000x64.Idx) (i : S1600000x64.Idx), (i 0).val = s * 8000 + (y 0).val → (i 1).val = (y 1).val → x0 y = a i)
    (h1 : x1 = w1) (h2 : x2 = b1) (h3 : x3 = w2) (h4 : x4 = b2)
    (j : S8000x2.Idx) (i : S1600000x2.Idx) (hi0 : (i 0).val = s * 8000 + (j 0).val) (hi1 : (i 1).val = (j 1).val) :
    k3_pay1 (F := Ideal) x0 x1 x2 x3 x4 j = Cert.Closed.mlp a w1 b1 w2 b2 i := by
  subst h1 h2 h3 h4
  obtain ⟨p, q, rfl⟩ : ∃ (p : Fin 8000) (q : Fin 2), j = ix2 p q := ⟨j 0, j 1, eq_ix2 j⟩
  obtain rfl : q = Cert.Closed.col i := Fin.ext hi1.symm
  have hr : ∀ l : Fin 64, x0 (ix2 p l) = a (ix2 (Cert.Closed.row i) l) := fun l => h0 _ _ hi0 rfl
  rw [pay_apply]
  exact congrArg₂ (· + ·) (Finset.sum_congr rfl fun k _ => congrArg₂ (· * ·) (congrArg₂ max
    (congrArg₂ (· + ·) (Finset.sum_congr rfl fun l _ => congrArg₂ (· * ·) (hr l) rfl) rfl) rfl) rfl) rfl

/-! ## The blocks the 200 points see -/

variable (V : (c : Dev nD) → (b : Ref sig .tc) → Buf (Elt Ideal) ((c : Thread nD τ).loc b))

theorem hz : (![0, 0] : Fin 2 → Nat) = fun _ => 0 := funext fun a => by fin_cases a <;> rfl

/-- The block indices at point `t`: the row array and the result are at block row `t`, block column 0; the two weight
    matrices and the two shift rows are at block (0, 0), each being one block. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Entry `y` of the row block at point `t` is the array's entry at row `8000 t + y 0`, column `y 1`. -/
theorem blk0_apply (c : Dev nD) (t : Fin cfg3.N) (y : S8000x64.Idx) (i : S1600000x64.Idx)
    (h0 : (i 0).val = t.val * 8000 + (y 0).val) (h1 : (i 1).val = (y 1).val) :
    (iblk3 V c 0 t : Vec Ideal S8000x64 .bf16) y = (V c (Pipeline.arrRef spec3 0) : S1600000x64.Idx → EReal) i := by
  obtain ⟨e00, e01, -⟩ := idx_facts t
  show V c (Pipeline.arrRef spec3 0) (((cfg3.win 0).blk t).view.emb y) = _
  refine congrArg (V c (Pipeline.arrRef spec3 0)) (funext fun a => Fin.ext ?_)
  match a with
  | ⟨0, _⟩ => show win3_0.index t (0 : Fin 2) * 8000 + 1 * (y 0).val = (i 0).val; omega
  | ⟨1, _⟩ => show win3_0.index t (1 : Fin 2) * 64 + 1 * (y 1).val = (i 1).val; omega

/-- At every point the first weight matrix's block is the whole 64 × 64 matrix. -/
theorem blk1_eq (c : Dev nD) (t : Fin cfg3.N) :
    (iblk3 V c 1 t : Vec Ideal S64x64 .f32) = (V c (Pipeline.arrRef spec3 1) : S64x64.Idx → EReal) := by
  obtain ⟨-, -, e10, e11, e20, e21, e30, e31, e40, e41, -⟩ := idx_facts t
  funext y
  show V c (Pipeline.arrRef spec3 1) (((cfg3.win 1).blk t).view.emb y) = _
  refine congrArg (V c (Pipeline.arrRef spec3 1)) (funext fun a => Fin.ext ?_)
  match a with
  | ⟨0, _⟩ => show win3_1.index t (0 : Fin 2) * 64 + 1 * (y 0).val = (y 0).val; omega
  | ⟨1, _⟩ => show win3_1.index t (1 : Fin 2) * 64 + 1 * (y 1).val = (y 1).val; omega

/-- At every point the first shift row's block is the whole 1 × 64 row. -/
theorem blk2_eq (c : Dev nD) (t : Fin cfg3.N) :
    (iblk3 V c 2 t : Vec Ideal S1x64 .f32) = (V c (Pipeline.arrRef spec3 2) : S1x64.Idx → EReal) := by
  obtain ⟨-, -, e10, e11, e20, e21, e30, e31, e40, e41, -⟩ := idx_facts t
  funext y
  show V c (Pipeline.arrRef spec3 2) (((cfg3.win 2).blk t).view.emb y) = _
  refine congrArg (V c (Pipeline.arrRef spec3 2)) (funext fun a => Fin.ext ?_)
  match a with
  | ⟨0, _⟩ => show win3_2.index t (0 : Fin 2) * 1 + 1 * (y 0).val = (y 0).val; omega
  | ⟨1, _⟩ => show win3_2.index t (1 : Fin 2) * 64 + 1 * (y 1).val = (y 1).val; omega

/-- At every point the second weight matrix's block is the whole 64 × 2 matrix. -/
theorem blk3_eq (c : Dev nD) (t : Fin cfg3.N) :
    (iblk3 V c 3 t : Vec Ideal S64x2 .f32) = (V c (Pipeline.arrRef spec3 3) : S64x2.Idx → EReal) := by
  obtain ⟨-, -, e10, e11, e20, e21, e30, e31, e40, e41, -⟩ := idx_facts t
  funext y
  show V c (Pipeline.arrRef spec3 3) (((cfg3.win 3).blk t).view.emb y) = _
  refine congrArg (V c (Pipeline.arrRef spec3 3)) (funext fun a => Fin.ext ?_)
  match a with
  | ⟨0, _⟩ => show win3_3.index t (0 : Fin 2) * 64 + 1 * (y 0).val = (y 0).val; omega
  | ⟨1, _⟩ => show win3_3.index t (1 : Fin 2) * 2 + 1 * (y 1).val = (y 1).val; omega

/-- At every point the second shift row's block is the whole 1 × 2 row. -/
theorem blk4_eq (c : Dev nD) (t : Fin cfg3.N) :
    (iblk3 V c 4 t : Vec Ideal S1x2 .f32) = (V c (Pipeline.arrRef spec3 4) : S1x2.Idx → EReal) := by
  obtain ⟨-, -, e10, e11, e20, e21, e30, e31, e40, e41, -⟩ := idx_facts t
  funext y
  show V c (Pipeline.arrRef spec3 4) (((cfg3.win 4).blk t).view.emb y) = _
  refine congrArg (V c (Pipeline.arrRef spec3 4)) (funext fun a => Fin.ext ?_)
  match a with
  | ⟨0, _⟩ => show win3_4.index t (0 : Fin 2) * 1 + 1 * (y 0).val = (y 0).val; omega
  | ⟨1, _⟩ => show win3_4.index t (1 : Fin 2) * 2 + 1 * (y 1).val = (y 1).val; omega

/-! ## From the row blocks to the array -/

/-- The edge stage of the five arrays the region finds. -/
abbrev G (c : Dev nD) : S1600000x2.Idx → EReal :=
  Cert.Closed.mlp (A := 1600000) (K := 64) (H := 64) (B := 2)
    (V c (Pipeline.arrRef spec3 0)) (V c (Pipeline.arrRef spec3 1)) (V c (Pipeline.arrRef spec3 2))
    (V c (Pipeline.arrRef spec3 3)) (V c (Pipeline.arrRef spec3 4))

/-- What point `t` writes back is rows `8000 t … 8000 t + 7999` of `G`: the body's one store fills its block with the
    value at an entry above, the row block is rows `8000 t …` of the row array, and the output block sits at the same
    rows of the result. -/
theorem flushed_eq (c : Dev nD) (t : Fin cfg3.N) :
    (dat3 (F := Ideal) V c).flushed 5 t = ((cfg3.win 5).blk t).view.read (Elt Ideal) (G V c) := by
  show (cfg3.win 5).cut (grid3.coords t) ((dat3 V c).after 5 t) = _
  rw [after3_5]
  unfold out3_5
  rw [View.canon_unit_zero hz]
  simp only [View.ld_unit_zero (S := S8000x64) hz, View.ld_unit_zero (S := S64x64) hz, View.ld_unit_zero (S := S1x64) hz,
    View.ld_unit_zero (S := S64x2) hz, View.ld_unit_zero (S := S1x2) hz]
  obtain ⟨-, -, -, -, -, -, -, -, -, -, e50, e51⟩ := idx_facts t
  funext j
  show k3_pay1 (F := Ideal) (iblk3 V c 0 t) (iblk3 V c 1 t) (iblk3 V c 2 t) (iblk3 V c 3 t) (iblk3 V c 4 t) j
    = G V c (((cfg3.win 5).blk t).view.emb j)
  refine pay_eq_mlp (V c (Pipeline.arrRef spec3 0)) (V c (Pipeline.arrRef spec3 1)) (V c (Pipeline.arrRef spec3 2))
    (V c (Pipeline.arrRef spec3 3)) (V c (Pipeline.arrRef spec3 4))
    (iblk3 V c 0 t) (iblk3 V c 1 t) (iblk3 V c 2 t) (iblk3 V c 3 t) (iblk3 V c 4 t) t.val
    (fun y i h0 h1 => blk0_apply V c t y i h0 h1) (blk1_eq V c t) (blk2_eq V c t) (blk3_eq V c t) (blk4_eq V c t)
    j (((cfg3.win 5).blk t).view.emb j) ?_ ?_
  · show win3_5.index t (0 : Fin 2) * 8000 + 1 * (j 0).val = t.val * 8000 + (j 0).val; omega
  · show win3_5.index t (1 : Fin 2) * 2 + 1 * (j 1).val = (j 1).val; omega

/-- An index of the result is in point `t`'s block iff each coordinate is in the block's range on its axis. -/
theorem mem_blk (t : Fin cfg3.N) (i : S1600000x2.Idx) :
    i ∈ ((cfg3.win 5).blk t).view.set ↔ ∀ a : Fin 2, win3_5.index t a * S8000x2.size a ≤ (i a).val ∧ (i a).val < win3_5.index t a * S8000x2.size a + S8000x2.size a := by
  show i ∈ ((View.whole main_v92).slice (win3_5.rect t)).set ↔ _
  rw [View.set_slice_whole, Rect.mem_set_unit]
  exact Iff.rfl

/-- Every index of the result is in the block of the point `r / 8000`, `r` its row; every point writes its block back. -/
theorem cover (i : S1600000x2.Idx) :
    ∃ t : Fin cfg3.N, (cfg3.win 5).flush t = true ∧ i ∈ ((cfg3.win 5).blk t).view.set := by
  have hi0 : (i 0).val < 1600000 := idx2_lt0 i
  have hi1 : (i 1).val < 2 := idx2_lt1 i
  have hN : cfg3.N = 200 := N_3
  have ht : (i 0).val / 8000 < cfg3.N := by rw [hN]; omega
  obtain ⟨-, -, -, -, -, -, -, -, -, -, e50, e51⟩ := idx_facts ⟨(i 0).val / 8000, ht⟩
  refine ⟨⟨(i 0).val / 8000, ht⟩, flush3_5 _, ?_⟩
  rw [mem_blk]
  intro a
  match a with
  | ⟨0, _⟩ =>
    show win3_5.index ⟨(i 0).val / 8000, ht⟩ (0 : Fin 2) * 8000 ≤ (i 0).val ∧ (i 0).val < win3_5.index ⟨(i 0).val / 8000, ht⟩ (0 : Fin 2) * 8000 + 8000
    rw [e50]; show (i 0).val / 8000 * 8000 ≤ (i 0).val ∧ (i 0).val < (i 0).val / 8000 * 8000 + 8000; omega
  | ⟨1, _⟩ =>
    show win3_5.index ⟨(i 0).val / 8000, ht⟩ (1 : Fin 2) * 2 ≤ (i 1).val ∧ (i 1).val < win3_5.index ⟨(i 0).val / 8000, ht⟩ (1 : Fin 2) * 2 + 2
    rw [e51]; omega

end Edge

/-- After the region the result array holds, at every index, the edge stage `max (x · w₁ + b₁) 0 · w₂ + b₂` of the five
    arrays the region finds: the 200 row blocks written back fill the array and each is the matching rows of that
    function. -/
theorem final3 (V : (c : Dev nD) → (b : Ref sig .tc) → Buf (Elt Ideal) ((c : Thread nD τ).loc b)) (c : Dev nD) :
    (dat3 (F := Ideal) V c).arrAt 5 cfg3.N
      = Cert.Closed.mlp (A := 1600000) (K := 64) (H := 64) (B := 2)
          (V c (Pipeline.arrRef spec3 0)) (V c (Pipeline.arrRef spec3 1)) (V c (Pipeline.arrRef spec3 2))
          (V c (Pipeline.arrRef spec3 3)) (V c (Pipeline.arrRef spec3 4)) :=
  (dat3 (F := Ideal) V c).arrAt_eq_of_cover 5 (Edge.G V c) (fun t _ => Edge.flushed_eq V c t) Edge.cover

end Cert.KernelIdeal.RegionValue

end
-- ==== Proof.StagesRef.lean ====
import proofs.«167228_j83399674954443_2_alg».proof.Proof.Gen.ReferenceIdeal
import Idealize.ShloMosaic.PureOps.Ideal

/-! # The idealized reference program, stage by stage

The reference network written once as functions of what each stage reads, at the exact instance. It differs from the
kernel program in three places. The in-degree is scatter-added at the destination words WRAPPED by `N` when negative
(the kernel program scatter-adds it at the words as they are). A layer multiplies each gathered row by the product
of the node scales of the edge's two ends and scatter-adds the products (the kernel program scales the rows before the
gather and the sums after the scatter-add). And the dense stages are whole-array products. -/

noncomputable section

namespace Cert.ReferenceIdeal.Stage

open Cert.ReferenceIdeal Cert.ReferenceIdeal.Facts₀ Cert.ReferenceIdeal.Facts Idealize.ShloMosaic

def edgeRow0 (ei : IVec S2x1600000 32) : IVec S1600000 32 :=
  shapeCast S1600000 (extractStridedSlice S1x1600000 ![0, 0] ei slices_S2x1600000_S1x1600000_0_0) shapeCasts_S1x1600000_S1600000
def edgeRow1 (ei : IVec S2x1600000 32) : IVec S1600000 32 :=
  shapeCast S1600000 (extractStridedSlice S1x1600000 ![1, 0] ei slices_S2x1600000_S1x1600000_1_0) shapeCasts_S1x1600000_S1600000

/-- `E` edge words followed by the `N` self-loop words `0, 1, …, N-1`. -/
def withLoops (v : IVec S1600000 32) : IVec S1700000 32 :=
  concatenate S1700000 0 [⟨S1600000, v⟩, ⟨S100000, iotaInDim S100000 32 0⟩] concatenates_S1600000_S100000_S1700000_d0

/-- A negative word wrapped by `N`; any other word kept. -/
def wrapL (v : IVec S1700000 32) : IVec S1700000 32 :=
  select (cmpi .slt v (broadcastInDim S1700000 ![] bcast_S_S1700000 (constantI S_ 32 0#32)))
    (addi v (broadcastInDim S1700000 ![] bcast_S_S1700000 (constantI S_ 32 100000#32))) v
def wrapE (v : IVec S1600000 32) : IVec S1600000 32 :=
  select (cmpi .slt v (broadcastInDim S1600000 ![] bcast_S_S1600000 (constantI S_ 32 0#32)))
    (addi v (broadcastInDim S1600000 ![] bcast_S_S1600000 (constantI S_ 32 100000#32))) v

/-- A vector as a one-column array. -/
def colL (v : IVec S1700000 32) : IVec S1700000x1 32 := broadcastInDim S1700000x1 ![0] bcast_S1700000_S1700000x1_0 v
def colE (v : IVec S1600000 32) : IVec S1600000x1 32 := broadcastInDim S1600000x1 ![0] bcast_S1600000_S1600000x1_0 v
def colLf (v : FVec Ideal S1700000 .f32) : FVec Ideal S1700000x1 .f32 := broadcastInDim S1700000x1 ![0] bcast_S1700000_S1700000x1_0 v

/-- The in-degree: ones scatter-added into zeros at the destination words, a negative word wrapped by `N` first. -/
def degree (d : IVec S1700000 32) : FVec Ideal S100000 .f32 :=
  Host.scatterAdd scatter_S100000_S1700000x1_S1700000_n_0_0_1
    (broadcastInDim S100000 ![] bcast_S_S100000 (constant S_ .f32 0x00000000#32)) (colL (wrapL d))
    (broadcastInDim S1700000 ![] bcast_S_S1700000 (constant S_ .f32 0x3F800000#32))

/-- The node scale: the degree to the power `-1/2` where the degree is positive, zero elsewhere. -/
def scaleOf (g : FVec Ideal S100000 .f32) : FVec Ideal S100000 .f32 :=
  select (cmpf .ogt g (broadcastInDim S100000 ![] bcast_S_S100000 (constant S_ .f32 0x00000000#32)))
    (Host.powf g (broadcastInDim S100000 ![] bcast_S_S100000 (constant S_ .f32 0xBF000000#32)))
    (broadcastInDim S100000 ![] bcast_S_S100000 (id (constant S_ .f32 0x00000000#32)))

/-- The per-edge weight: the product of the node scales of the edge's two ends (each end word wrapped, then clamped
    by the gather). -/
def edgeNorm (dv : FVec Ideal S100000 .f32) (s d : IVec S1700000 32) : FVec Ideal S1700000 .f32 :=
  mulf (Host.gather gather_S100000_S1700000x1_S1700000_n_0_n_n_0_1_1 dv (colL (wrapL s)))
    (Host.gather gather_S100000_S1700000x1_S1700000_n_0_n_n_0_1_1 dv (colL (wrapL d)))

/-- One layer over 128 features: rows gathered at the sources, weighted per edge, scatter-added at the destinations,
    plus the bias row. -/
def layer128 (h : FVec Ideal S100000x128 .f32) (dv : FVec Ideal S100000 .f32) (s d : IVec S1700000 32)
    (b : FVec Ideal S128 .f32) : FVec Ideal S100000x128 .f32 :=
  addf (Host.scatterAdd scatter_S100000x128_S1700000x1_S1700000x128_1_0_0_1
      (broadcastInDim S100000x128 ![] bcast_S_S100000x128 (constant S_ .f32 0x00000000#32)) (colL d)
      (mulf (Host.gather gather_S100000x128_S1700000x1_S1700000x128_1_0_n_n_0_1_1128 h (colL (wrapL s)))
        (broadcastInDim S1700000x128 ![0, 1] bcast_S1700000x1_S1700000x128_0_1 (colLf (edgeNorm dv s d)))))
    (broadcastInDim S100000x128 ![0, 1] bcast_S1x128_S100000x128_0_1 (broadcastInDim S1x128 ![1] bcast_S128_S1x128_1 b))

/-- The same over 64 features. -/
def layer64 (h : FVec Ideal S100000x64 .f32) (dv : FVec Ideal S100000 .f32) (s d : IVec S1700000 32)
    (b : FVec Ideal S64 .f32) : FVec Ideal S100000x64 .f32 :=
  addf (Host.scatterAdd scatter_S100000x64_S1700000x1_S1700000x64_1_0_0_1
      (broadcastInDim S100000x64 ![] bcast_S_S100000x64 (constant S_ .f32 0x00000000#32)) (colL d)
      (mulf (Host.gather gather_S100000x64_S1700000x1_S1700000x64_1_0_n_n_0_1_164 h (colL (wrapL s)))
        (broadcastInDim S1700000x64 ![0, 1] bcast_S1700000x1_S1700000x64_0_1 (colLf (edgeNorm dv s d)))))
    (broadcastInDim S100000x64 ![0, 1] bcast_S1x64_S100000x64_0_1 (broadcastInDim S1x64 ![1] bcast_S64_S1x64_1 b))

/-- Clipping below at zero. -/
def relu128 (v : FVec Ideal S100000x128 .f32) : FVec Ideal S100000x128 .f32 :=
  maximumf v (broadcastInDim S100000x128 ![] bcast_S_S100000x128 (constant S_ .f32 0x00000000#32))

/-- An edge's feature: half the sum of its two end nodes' rows, the end words wrapped first. -/
def edgeFeat (hf : FVec Ideal S100000x64 .f32) (s0 d0 : IVec S1600000 32) : FVec Ideal S1600000x64 .f32 :=
  mulf (addf
      (Host.gather gather_S100000x64_S1600000x1_S1600000x64_1_0_n_n_0_1_164 hf (colE (wrapE s0)))
      (Host.gather gather_S100000x64_S1600000x1_S1600000x64_1_0_n_n_0_1_164 hf (colE (wrapE d0))))
    (broadcastInDim S1600000x64 ![] bcast_S_S1600000x64 (constant S_ .f32 0x3F000000#32))

/-- The two-layer edge stage as whole-array products. -/
def edgeMlp (ef : FVec Ideal S1600000x64 .f32) (m1 : FVec Ideal S64x64 .f32) (c1 : FVec Ideal S64 .f32)
    (m2 : FVec Ideal S64x2 .f32) (c2 : FVec Ideal S2 .f32) : FVec Ideal S1600000x2 .f32 :=
  addf (Host.dotGeneral dot_S1600000x64_S64x2_S1600000x2_1_0_0_1_n_n none
      (maximumf (addf (Host.dotGeneral dot_S1600000x64_S64x64_S1600000x64_1_0_0_1_n_n none ef m1)
          (broadcastInDim S1600000x64 ![0, 1] bcast_S1x64_S1600000x64_0_1 (broadcastInDim S1x64 ![1] bcast_S64_S1x64_1 c1)))
        (broadcastInDim S1600000x64 ![] bcast_S_S1600000x64 (constant S_ .f32 0x00000000#32))) m2)
    (broadcastInDim S1600000x2 ![0, 1] bcast_S1x2_S1600000x2_0_1 (broadcastInDim S1x2 ![1] bcast_S2_S1x2_1 c2))

/-- THE REFERENCE PROGRAM'S RESULT as one function of its twelve argument arrays. -/
def result (x : FVec Ideal S100000x128 .f32) (ei : IVec S2x1600000 32) (w0 : FVec Ideal S128x128 .f32)
    (b0 : FVec Ideal S128 .f32) (w1 : FVec Ideal S128x128 .f32) (b1 : FVec Ideal S128 .f32)
    (w2 : FVec Ideal S128x64 .f32) (b2 : FVec Ideal S64 .f32) (m1 : FVec Ideal S64x64 .f32) (c1 : FVec Ideal S64 .f32)
    (m2 : FVec Ideal S64x2 .f32) (c2 : FVec Ideal S2 .f32) : FVec Ideal S1600000x2 .f32 :=
  let s := withLoops (edgeRow0 ei)
  let d := withLoops (edgeRow1 ei)
  let dv := scaleOf (degree d)
  let x1 := relu128 (layer128 (Host.dotGeneral dot_S100000x128_S128x128_S100000x128_1_0_0_1_n_n none x w0) dv s d b0)
  let x2 := relu128 (layer128 (Host.dotGeneral dot_S100000x128_S128x128_S100000x128_1_0_0_1_n_n none x1 w1) dv s d b1)
  let hf := layer64 (Host.dotGeneral dot_S100000x128_S128x64_S100000x64_1_0_0_1_n_n none x2 w2) dv s d b2
  edgeMlp (edgeFeat hf (edgeRow0 ei) (edgeRow1 ei)) m1 c1 m2 c2

end Cert.ReferenceIdeal.Stage

end
-- ==== Proof.RefValue.lean ====
/-
  The reference program's result as a function of its arguments. The reference program's run ends with its result at
  the composed term of its operations, one long expression in the twelve argument arrays. The same program is written,
  stage by stage, as named functions: the edge rows, the self-loops appended, the wrapped end words, the in-degree and
  the node scale, the per-edge weight, the three message-passing layers, and the two-layer edge stage. Here the two are
  identified: unfolding every stage function (and substituting the stage results it names) gives the composed term
  itself, symbol for symbol, so the equation holds by reflexivity. The run is then restated with the result spelt by the
  stage functions; the twelve arguments are unchanged, as before.
-/
import proofs.«167228_j83399674954443_2_alg».proof.Proof.RefRunP
import proofs.«167228_j83399674954443_2_alg».proof.Proof.StagesRef

noncomputable section

namespace Cert.ReferenceIdeal.RefValue

open Cert.ReferenceIdeal Idealize.ShloMosaic Idealize.ShloMosaic.TcCoe Idealize.SL.Sem

set_option maxRecDepth 16384 in
/-- The composed term of the reference program's operations is the stage functions' result at the twelve arguments:
    both sides are the same expression once the stage functions are unfolded. -/
theorem res_eq (m : (ℓ : Loc nD τ sig) → Buf (Elt Ideal) ℓ) (c : Dev nD) :
    Cert.ReferenceIdeal.ValueP.res_main_v172 (F := Ideal) m c
      = Cert.ReferenceIdeal.Stage.result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11)) := by
  unfold Cert.ReferenceIdeal.ValueP.res_main_v172 Stage.result Stage.edgeMlp Stage.edgeFeat Stage.layer64 Stage.layer128
    Stage.relu128 Stage.edgeNorm Stage.colLf Stage.scaleOf Stage.degree Stage.colL Stage.colE Stage.wrapL Stage.wrapE
    Stage.withLoops Stage.edgeRow0 Stage.edgeRow1
  rfl

/-- On every device, from any memory with zero counters: every weakly fair execution of the reference program
    terminates with its result the stage functions' result at the arguments, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v172)
        = Cert.ReferenceIdeal.Stage.result (m ((c.tc : Thread nD τ).loc main_arg0)) (m ((c.tc : Thread nD τ).loc main_arg1)) (m ((c.tc : Thread nD τ).loc main_arg2)) (m ((c.tc : Thread nD τ).loc main_arg3))
            (m ((c.tc : Thread nD τ).loc main_arg4)) (m ((c.tc : Thread nD τ).loc main_arg5)) (m ((c.tc : Thread nD τ).loc main_arg6)) (m ((c.tc : Thread nD τ).loc main_arg7))
            (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c).1.trans (res_eq m c), (h c).2⟩)
    (Cert.ReferenceIdeal.ValueP.run (F := Ideal) m ρ)

end Cert.ReferenceIdeal.RefValue

end
-- ==== Proof.PreFacts.lean ====
/-
  The precondition decoded. The claims of this certificate hold under the precondition that every entry of the eleven
  float arguments is finite and every entry of row 1 of the integer argument (each edge's destination word) is
  nonnegative. The precondition is stated as a pure function whose result is the one-bit word 1: the conjunction, over
  the arguments, of "all entries satisfy |x| < +∞" (for the floats) and of "all entries of row 1 satisfy 0 ≤ x", signed
  (for the integers; row 1 is sliced out of the 2 × E array and recast as a flat vector of E words first). This file
  reads that word back into propositions: each float entry is a real number, and each destination word, read signed,
  is nonnegative.

  The steps: a conjunction of one-bit words is 1 exactly when each is; an "all" (a reduction by "and" over every axis)
  that is 1 had a 1 at every index; a comparison word at an index compares the entries there; a scalar broadcast reads
  the scalar everywhere; the pattern 0x7F800000 denotes +∞; and an extended real x with max x (−x) < +∞ is neither
  +∞ nor −∞, so it is a real.
-/
import proofs.«167228_j83399674954443_2_alg».proof.Pre_finite_inputs
import Idealize.ShloMosaic.PureOps.Ideal
import Idealize.ShloMosaic.Lib.ValueIdx
import Idealize.ShloMosaic.Lib.IdealHost
import Idealize.ShloMosaic.Lib.ReduceAll

noncomputable section

namespace Cert.PreFacts

open Idealize.ShloMosaic Idealize.ShloMosaic.ValueIdx
open Cert.Pre_finite_inputs

/-- The rank-0 shape has one index. -/
instance : Subsingleton S_.Idx := ⟨fun a b => funext fun d => d.elim0⟩

/-- The f32 pattern 0x7F800000 denotes +∞. -/
theorem ofBits_inf : Ideal.ofBits .f32 0x7F800000#32 = (⊤ : EReal) := by simp [Ideal.ofBits, Ideal.ieee]

/-- An extended real whose absolute value max x (−x) is below +∞ is a real: +∞ has absolute value +∞, and so has −∞. -/
theorem real_of_abs_lt_top (x : EReal) (h : max x (-x) < ⊤) : ∃ r : ℝ, x = (r : EReal) := by
  induction x using EReal.rec with
  | bot => simp at h
  | coe r => exact ⟨r, rfl⟩
  | top => simp at h

/-- A one-bit word made from a Boolean is 1 exactly when the Boolean is true. -/
theorem ofBool_eq_one (b : Bool) : BitVec.ofBool b = 1#1 ↔ b = true := by cases b <;> decide

/-- One float argument: if "all entries satisfy |x| < +∞" came out 1, every entry is a real. -/
theorem all_finite {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant (F := Ideal) S_ .f32 0x7F800000#32)))
          (constantI S_ 1 1#1) hr hu ix0 = 1#1) :
    ∀ i, ∃ r : ℝ, x i = (r : EReal) := by
  intro i
  have h := Host.reduce_andi_all _ _ hr hu ix0 e i
  rw [cmpf_apply, broadcastInDim_scalar_apply, constant_apply, ofBits_inf] at h
  have h' : Ideal.cmp .olt (max (x i) (-(x i))) ⊤ = 1#1 := h
  unfold Ideal.cmp at h'
  rw [ofBool_eq_one, decide_eq_true_eq] at h'
  exact real_of_abs_lt_top (x i) h'

/-- The integer argument from below: if "all entries satisfy c ≤ x, signed" came out 1, every entry does. -/
theorem all_sge {s : Shape} {axes : List (Fin s.rank)} (x : IVec s 32) (c : BitVec 32)
    (hb : S_.BroadcastsInDim s (![] : Fin 0 → Fin s.rank)) (hr : s.ReducesTo axes S_) (hu : 0 < S_.numel)
    (e : Host.reduce IntOp.andi (cmpi .sge x (broadcastInDim s ![] hb (constantI S_ 32 c)))
          (constantI S_ 1 1#1) hr hu ix0 = 1#1) :
    ∀ i, c.toInt ≤ (x i).toInt := by
  intro i
  have h := Host.reduce_andi_all _ _ hr hu ix0 e i
  have h' : IntOp.cmpi .sge (x i) (broadcastInDim s ![] hb (constantI S_ 32 c) i) = 1#1 := h
  rw [broadcastInDim_scalar_apply] at h'
  exact IntOp.cmpi_sge.1 h'

/-- The integer argument from above: if "all entries satisfy x < c, signed" came out 1, every entry does. -/
theorem all_slt {s : Shape} {axes : List (Fin s.rank)} (x : IVec s 32) (c : BitVec 32)
    (hb : S_.BroadcastsInDim s (![] : Fin 0 → Fin s.rank)) (hr : s.ReducesTo axes S_) (hu : 0 < S_.numel)
    (e : Host.reduce IntOp.andi (cmpi .slt x (broadcastInDim s ![] hb (constantI S_ 32 c)))
          (constantI S_ 1 1#1) hr hu ix0 = 1#1) :
    ∀ i, (x i).toInt < c.toInt := by
  intro i
  have h := Host.reduce_andi_all _ _ hr hu ix0 e i
  have h' : IntOp.cmpi .slt (x i) (broadcastInDim s ![] hb (constantI S_ 32 c) i) = 1#1 := h
  rw [broadcastInDim_scalar_apply] at h'
  exact IntOp.cmpi_slt.1 h'

/-- The signed readings of the two integer constants. -/
theorem toInt_zero : (0#32 : BitVec 32).toInt = 0 := by decide
theorem toInt_bound : (100000#32 : BitVec 32).toInt = 100000 := by decide

/-- Row 1 of the integer argument as a flat vector of `E` words: the slice `[1:2, 0:E]` recast to `[E]`, as the
    precondition spells it. -/
def destRow [Cert.Pre_finite_inputs.Facts] (a1 : IVec S2x1600000 32) : IVec S1600000 32 :=
  shapeCast S1600000 (extractStridedSlice S1x1600000 ![1, 0] a1 Facts.slices_S2x1600000_S1x1600000_1_0)
    Facts.shapeCasts_S1x1600000_S1600000

/-- THE PRECONDITION DECODED: every entry of every float argument is a real, and every destination word, read
    signed, is nonnegative. The printed function is a left-nested conjunction of twelve "all" words, in the order: the
    eleven float arguments, then the lower bound of the integer argument's row 1. -/
theorem of_pre [Cert.Pre_finite_inputs.Facts]
    (a0 : FVec Ideal S100000x128 .f32) (a1 : IVec S2x1600000 32) (a2 : FVec Ideal S128x128 .f32) (a3 : FVec Ideal S128 .f32)
    (a4 : FVec Ideal S128x128 .f32) (a5 : FVec Ideal S128 .f32) (a6 : FVec Ideal S128x64 .f32) (a7 : FVec Ideal S64 .f32)
    (a8 : FVec Ideal S64x64 .f32) (a9 : FVec Ideal S64 .f32) (a10 : FVec Ideal S64x2 .f32) (a11 : FVec Ideal S2 .f32)
    (h : Cert.Pre_finite_inputs.fn (F := Ideal) a0 a1 a2 a3 a4 a5 a6 a7 a8 a9 a10 a11 = fun _ => 1#1) :
    (∀ i, ∃ r : ℝ, a0 i = (r : EReal)) ∧ (∀ i, ∃ r : ℝ, a2 i = (r : EReal)) ∧ (∀ i, ∃ r : ℝ, a3 i = (r : EReal)) ∧
    (∀ i, ∃ r : ℝ, a4 i = (r : EReal)) ∧ (∀ i, ∃ r : ℝ, a5 i = (r : EReal)) ∧ (∀ i, ∃ r : ℝ, a6 i = (r : EReal)) ∧
    (∀ i, ∃ r : ℝ, a7 i = (r : EReal)) ∧ (∀ i, ∃ r : ℝ, a8 i = (r : EReal)) ∧ (∀ i, ∃ r : ℝ, a9 i = (r : EReal)) ∧
    (∀ i, ∃ r : ℝ, a10 i = (r : EReal)) ∧ (∀ i, ∃ r : ℝ, a11 i = (r : EReal)) ∧
    (∀ i, 0 ≤ (destRow a1 i).toInt) := by
  have e := congrFun h ix0
  dsimp only [fn, fn_part1, fn_part2, fn_part3] at e
  simp only [andi, IntOp.andi_eq_one] at e
  obtain ⟨⟨⟨⟨⟨⟨⟨⟨⟨⟨⟨h0, h2⟩, h3⟩, h4⟩, h5⟩, h6⟩, h7⟩, h8⟩, h9⟩, h10⟩, h11⟩, hge⟩ := e
  have hge' := all_sge (destRow a1) _ _ _ _ hge
  rw [toInt_zero] at hge'
  exact ⟨all_finite a0 _ _ _ h0, all_finite a2 _ _ _ h2, all_finite a3 _ _ _ h3, all_finite a4 _ _ _ h4,
    all_finite a5 _ _ _ h5, all_finite a6 _ _ _ h6, all_finite a7 _ _ _ h7, all_finite a8 _ _ _ h8,
    all_finite a9 _ _ _ h9, all_finite a10 _ _ _ h10, all_finite a11 _ _ _ h11, hge'⟩

end Cert.PreFacts

end
-- ==== Proof.LibScatter.lean ====
import Idealize.ShloMosaic.PureOps.Ideal

/-! # Where a scatter's update lands, for any dimension numbers

An update lands at an operand index exactly when, on every operand axis, its start (read as a signed integer and
not clamped) plus its window coordinate is that index's coordinate; otherwise it is dropped. And the accumulating
float scatter, on the extended reals, is the operand plus the exact sum of the updates that land. -/

noncomputable section

namespace Cert.Gcn

open Idealize.ShloMosaic

/-- An update lands at operand index `i` exactly when, on every operand axis, its start (read signed, not clamped)
    plus its window coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h a
    split at h
    · rename_i hc
      have h1 := congrFun (Option.some.inj h) a
      have hv := congrArg Fin.val h1
      simp only at hv
      have := hc a
      omega
    · exact absurd h (by simp)
  · intro h
    have hc : ∀ a, 0 ≤ d.start j idx a + d.window j a ∧ d.start j idx a + d.window j a < s.size a := by
      intro a
      have := h a
      have := (i a).isLt
      omega
    rw [dif_pos hc]
    congr 1
    funext a
    apply Fin.ext
    have := h a
    simp only
    omega

/-- On the extended reals the accumulating scatter is the exact sum of the landing updates on top of the operand. -/
theorem scatterAdd_ideal {s si su : Shape} {φ : FTy} (d : ScatterDims s si su) {w : Nat} (x : FVec Ideal s φ)
    (idx : IVec si w) (upd : FVec Ideal su φ) :
    Host.scatterAdd d x idx upd = Ideal.hostScatterAdd d x idx upd := rfl

end Cert.Gcn

end
-- ==== Proof.NodeScale.lean ====
import proofs.«167228_j83399674954443_2_alg».proof.Proof.Stages
import proofs.«167228_j83399674954443_2_alg».proof.Proof.StagesRef
import proofs.«167228_j83399674954443_2_alg».proof.Proof.LibScatter
import Idealize.ShloMosaic.Lib.ValueIdx
import Idealize.ShloMosaic.Lib.Pipeline.Value
import Idealize.ShloMosaic.Lib.ValueLayout
import Idealize.ShloMosaic.PureOps.Ideal.Laws

/-! # The in-degree and the node scale of the two programs

The destination words of the edge list are nonnegative when read signed (the edge words by hypothesis, the self-loop
words `0, …, N-1` because `N < 2^31`), so wrapping a negative word by `N` changes none of them: the reference
program's in-degree, scatter-added at the wrapped words, is the kernel program's, scatter-added at the words as they
are. The in-degree of a node is a finite sum of ones, a real number; the node scale, its power `-1/2` where it is
positive and zero elsewhere, is therefore a real number at every node. -/

noncomputable section

open scoped BigOperators

namespace Cert.NodeScale

open Idealize.ShloMosaic Idealize.ShloMosaic.ValueIdx

/-- An element of row 1 of the edge list, as a flat vector, is an element of the edge list. -/
theorem edgeRow1_apply (ei : IVec Cert.KernelIdeal.S2x1600000 32) (i : Fin 1600000) :
    Cert.KernelIdeal.Stage.edgeRow1 ei (ix1 i) = ei (ix2 (1 : Fin 2) i) := by
  unfold Cert.KernelIdeal.Stage.edgeRow1
  rw [shapeCast_1a_a_apply]
  exact slice2_axis0_apply 1 ei _ (0 : Fin 1) i (1 : Fin 2) rfl

theorem edgeRow1_nonneg (ei : IVec Cert.KernelIdeal.S2x1600000 32) (h : ∀ i, 0 ≤ (ei i).toInt) :
    ∀ i, 0 ≤ (Cert.KernelIdeal.Stage.edgeRow1 ei i).toInt := by
  intro i
  obtain ⟨p, rfl⟩ : ∃ p : Fin 1600000, i = ix1 p := ⟨i 0, eq_ix1 i⟩
  rw [edgeRow1_apply]
  exact h _

/-- The 32-bit word of a number below `2^31` is nonnegative when read signed. -/
theorem toInt_ofNat_nonneg (p : Nat) (hp : p < 100000) : 0 ≤ (BitVec.ofNat 32 p).toInt := by
  rw [BitVec.toInt_ofNat']
  have : ((p : Int).bmod (2 ^ 32)) = p := by
    apply Int.bmod_eq_of_le <;> omega
  omega

/-- The edge words followed by the self-loop words `0, …, N-1` are nonnegative when the edge words are. -/
theorem withLoops_nonneg (v : IVec Cert.KernelIdeal.S1600000 32) (hv : ∀ i, 0 ≤ (v i).toInt) :
    ∀ e, 0 ≤ (Cert.KernelIdeal.Stage.withLoops v e).toInt := by
  intro e
  unfold Cert.KernelIdeal.Stage.withLoops
  by_cases hlt : (e 0).val < 1600000
  · rw [concatenate_pair_apply_left (0 : Fin 1) v _ _ e rfl (ix1 (⟨(e 0).val, hlt⟩ : Fin 1600000))
      (fun b => by match b with | ⟨0, _⟩ => rfl)]
    exact hv _
  · have he : (e 0).val < 1700000 := (e 0).isLt
    have hq : (e 0).val - 1600000 < 100000 := by omega
    rw [concatenate_pair_apply_right (s₂ := Cert.KernelIdeal.S100000) (0 : Fin 1) v
      (iotaInDim Cert.KernelIdeal.S100000 32 0) _ e rfl rfl (ix1 (⟨(e 0).val - 1600000, hq⟩ : Fin 100000))
      (fun b hb => absurd (Subsingleton.elim (α := Fin 1) _ _) hb)
      (by show (e 0).val - 1600000 + 1600000 = (e 0).val; omega)]
    exact toInt_ofNat_nonneg _ hq

/-- A word that is nonnegative when read signed is not below zero, so the wrap keeps it. -/
theorem wrapL_of_nonneg (v : IVec Cert.KernelIdeal.S1700000 32) (hv : ∀ e, 0 ≤ (v e).toInt) :
    Cert.KernelIdeal.Stage.wrapL v = v := by
  funext e
  show Scalar.select (IntOp.cmpi .slt (v e) 0#32) _ (v e) = v e
  have hn : ¬ ((v e).toInt < (0#32 : BitVec 32).toInt) := by
    have h := hv e
    rw [BitVec.toInt_zero]; omega
  have hc : IntOp.cmpi .slt (v e) 0#32 = 0#1 := by
    simp only [IntOp.cmpi, BitVec.slt, hn, decide_false, BitVec.ofBool_false]
    rfl
  rw [hc, select_zero]

theorem scaleOf_eq (g : FVec Ideal Cert.KernelIdeal.S100000 .f32) :
    Cert.ReferenceIdeal.Stage.scaleOf g = Cert.KernelIdeal.Stage.scaleOf g := rfl

/-- The reference program's in-degree is the kernel program's at the wrapped destination words. -/
theorem degree_ref_eq (d : IVec Cert.KernelIdeal.S1700000 32) :
    Cert.ReferenceIdeal.Stage.degree d = Cert.KernelIdeal.Stage.degree (Cert.KernelIdeal.Stage.wrapL d) := rfl

/-- The two programs' in-degrees agree when every edge word is nonnegative. -/
theorem degree_eq (ei : IVec Cert.KernelIdeal.S2x1600000 32) (h : ∀ i, 0 ≤ (ei i).toInt) :
    Cert.ReferenceIdeal.Stage.degree (Cert.ReferenceIdeal.Stage.withLoops (Cert.ReferenceIdeal.Stage.edgeRow1 ei))
      = Cert.KernelIdeal.Stage.degree (Cert.KernelIdeal.Stage.withLoops (Cert.KernelIdeal.Stage.edgeRow1 ei)) := by
  have hr : Cert.ReferenceIdeal.Stage.withLoops (Cert.ReferenceIdeal.Stage.edgeRow1 ei) = Cert.KernelIdeal.Stage.withLoops (Cert.KernelIdeal.Stage.edgeRow1 ei) := rfl
  rw [hr, degree_ref_eq, wrapL_of_nonneg _ (withLoops_nonneg _ (edgeRow1_nonneg ei h))]

/-- The same from the destination row alone: the two in-degrees agree as soon as the destination words are
    nonnegative, whatever the source words are. -/
theorem degree_eq_of_row (ei : IVec Cert.KernelIdeal.S2x1600000 32)
    (h1 : ∀ i, 0 ≤ (Cert.KernelIdeal.Stage.edgeRow1 ei i).toInt) :
    Cert.ReferenceIdeal.Stage.degree (Cert.ReferenceIdeal.Stage.withLoops (Cert.ReferenceIdeal.Stage.edgeRow1 ei))
      = Cert.KernelIdeal.Stage.degree (Cert.KernelIdeal.Stage.withLoops (Cert.KernelIdeal.Stage.edgeRow1 ei)) := by
  have hr : Cert.ReferenceIdeal.Stage.withLoops (Cert.ReferenceIdeal.Stage.edgeRow1 ei) = Cert.KernelIdeal.Stage.withLoops (Cert.KernelIdeal.Stage.edgeRow1 ei) := rfl
  rw [hr, degree_ref_eq, wrapL_of_nonneg _ (withLoops_nonneg _ h1)]

/-- A finite sum of real numbers is a real number. -/
theorem sum_real {ι : Type} (s : Finset ι) (f : ι → EReal) (hf : ∀ j ∈ s, ∃ r : ℝ, f j = (r : EReal)) :
    ∃ r : ℝ, ∑ j ∈ s, f j = (r : EReal) := by
  classical
  induction s using Finset.induction_on with
  | empty => exact ⟨0, by simp⟩
  | insert a s ha ih =>
    obtain ⟨r, hr⟩ := ih (fun j hj => hf j (Finset.mem_insert_of_mem hj))
    obtain ⟨q, hq⟩ := hf a (Finset.mem_insert_self a s)
    exact ⟨q + r, by rw [Finset.sum_insert ha, hr, hq, EReal.coe_add]⟩

/-- The pattern `0x3F800000` is a real number (it is one). -/
theorem one_real : ∃ r : ℝ, Ideal.ofBits .f32 0x3F800000#32 = (r : EReal) := by
  unfold Ideal.ofBits Ideal.ieee
  simp only []
  rw [if_neg (by decide), if_neg (by decide)]
  exact ⟨_, rfl⟩

/-- The pattern `0xBF000000` is a real number (it is minus one half). -/
theorem neg_half_real : ∃ r : ℝ, Ideal.ofBits .f32 0xBF000000#32 = (r : EReal) := by
  unfold Ideal.ofBits Ideal.ieee
  simp only []
  rw [if_neg (by decide), if_neg (by decide)]
  exact ⟨_, rfl⟩

/-- The in-degree of a node is a real number: zero plus a finite sum of ones. -/
theorem degree_real (d : IVec Cert.KernelIdeal.S1700000 32) :
    ∀ i, ∃ r : ℝ, Cert.KernelIdeal.Stage.degree d i = (r : EReal) := by
  intro i
  unfold Cert.KernelIdeal.Stage.degree
  rw [Cert.Gcn.scatterAdd_ideal]
  unfold Ideal.hostScatterAdd
  obtain ⟨q, hq⟩ := one_real
  obtain ⟨r, hr⟩ := sum_real (Finset.univ.filter (fun j =>
      Cert.KernelIdeal.scatter_S100000_S1700000x1_S1700000_n_0_0_1.resultIdx? j (Cert.KernelIdeal.Stage.colL d) = some i))
    (fun _ => Ideal.ofBits .f32 0x3F800000#32) (fun _ _ => ⟨q, hq⟩)
  refine ⟨0 + r, ?_⟩
  rw [EReal.coe_add, ← hr, EReal.coe_zero, ← Idealize.ShloMosaic.Ideal.ofBits_zero_f32]
  rfl

/-- The node scale of a real degree vector is real at every node. -/
theorem scaleOf_real (g : FVec Ideal Cert.KernelIdeal.S100000 .f32) (hg : ∀ i, ∃ r : ℝ, g i = (r : EReal)) :
    ∀ i, ∃ r : ℝ, Cert.KernelIdeal.Stage.scaleOf g i = (r : EReal) := by
  intro i
  obtain ⟨x, hx⟩ := hg i
  obtain ⟨y, hy⟩ := neg_half_real
  show ∃ r : ℝ, Scalar.select (Ideal.cmp .ogt (g i) (Ideal.ofBits .f32 0x00000000#32))
    (Ideal.pow (g i) (Ideal.ofBits .f32 0xBF000000#32)) (Ideal.ofBits .f32 0x00000000#32) = (r : EReal)
  unfold Scalar.select
  split
  · exact ⟨Real.rpow x y, by rw [hx, hy]; rfl⟩
  · exact ⟨0, by rw [Idealize.ShloMosaic.Ideal.ofBits_zero_f32, EReal.coe_zero]⟩

theorem scale_real (d : IVec Cert.KernelIdeal.S1700000 32) :
    ∀ i, ∃ r : ℝ, Cert.KernelIdeal.Stage.scaleOf (Cert.KernelIdeal.Stage.degree d) i = (r : EReal) :=
  scaleOf_real _ (degree_real d)

end Cert.NodeScale

end
-- ==== Proof.IndexOps.lean ====
import proofs.«167228_j83399674954443_2_alg».proof.Proof.Gen.KernelIdeal
import proofs.«167228_j83399674954443_2_alg».proof.Proof.Gen.ReferenceIdeal
import proofs.«167228_j83399674954443_2_alg».proof.Proof.Closed
import proofs.«167228_j83399674954443_2_alg».proof.Proof.LibScatter
import Idealize.ShloMosaic.Lib.ValueIdx
import Idealize.ShloMosaic.Lib.Pipeline.Value
import Idealize.ShloMosaic.PureOps.Ideal.Laws

/-! # The two programs' gathers, scatter-adds and host products, read at an index

A row gather's element `(e, j)` is the operand's at row `node w`, column `j`, where `w` is edge `e`'s start word
and `node w` is its signed value clamped into `[0, N-1]`. A scatter-add's update `(e, j')` lands at `(n, j)`
exactly when `j' = j` and edge `e`'s start word, read signed and NOT clamped, is `n`; so the scatter-add's element
`(n, j)` is the operand's plus the sum, over the edges whose word is `n`, of the updates' elements `(e, j)`. A host
matrix product is the closed product `Cert.Closed.mm`. The two programs' records are the same records. -/

noncomputable section

open scoped BigOperators

namespace Cert.IndexOps

open Idealize.ShloMosaic Idealize.ShloMosaic.ValueIdx

/-- The row a gather reads for a start word: its signed value clamped into `[0, N-1]`. -/
def node (w : BitVec 32) : Fin 100000 := ⟨min w.toInt.toNat 99999, by omega⟩

/-! ## The records of the two programs are the same -/

theorem gather128_eq : Cert.ReferenceIdeal.gather_S100000x128_S1700000x1_S1700000x128_1_0_n_n_0_1_1128
    = Cert.KernelIdeal.gather_S100000x128_S1700000x1_S1700000x128_1_0_n_n_0_1_1128 := rfl
theorem gather64_eq : Cert.ReferenceIdeal.gather_S100000x64_S1700000x1_S1700000x64_1_0_n_n_0_1_164
    = Cert.KernelIdeal.gather_S100000x64_S1700000x1_S1700000x64_1_0_n_n_0_1_164 := rfl
theorem gatherE64_eq : Cert.ReferenceIdeal.gather_S100000x64_S1600000x1_S1600000x64_1_0_n_n_0_1_164
    = Cert.KernelIdeal.gather_S100000x64_S1600000x1_S1600000x64_1_0_n_n_0_1_164 := rfl
theorem scatter128_eq : Cert.ReferenceIdeal.scatter_S100000x128_S1700000x1_S1700000x128_1_0_0_1
    = Cert.KernelIdeal.scatter_S100000x128_S1700000x1_S1700000x128_1_0_0_1 := rfl
theorem scatter64_eq : Cert.ReferenceIdeal.scatter_S100000x64_S1700000x1_S1700000x64_1_0_0_1
    = Cert.KernelIdeal.scatter_S100000x64_S1700000x1_S1700000x64_1_0_0_1 := rfl
theorem scatter1_eq : Cert.ReferenceIdeal.scatter_S100000_S1700000x1_S1700000_n_0_0_1
    = Cert.KernelIdeal.scatter_S100000_S1700000x1_S1700000_n_0_0_1 := rfl

/-! ## Gathers at an index -/

/-- Row-gather dimension numbers: operand `[N, C]`, start indices `[E, 1]`, result `[E, C]`; axis 0 of the operand is
    collapsed and indexed by the start word, axis 1 is the offset axis. -/
private abbrev rowDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- A row gather at `(e, j)`: the operand's row is the start word `idx (e, 0)`, read signed and clamped into
    `[0, N - 1]`; its column is `j`. On axis 0 the batching and offset coordinates vanish and the start is the clamped
    word; on axis 1 the start and the batching coordinate vanish and the offset coordinate is `j`. -/
private theorem gather_row_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (rowDims N E C wf) x idx (ix2 e j)
      = x (ix2 ⟨min (idx (ix2 e 0)).toInt.toNat (N - 1), by omega⟩ j) := by
  unfold Host.gather
  congr 1
  funext a
  refine Fin.ext ?_
  match a with
  | ⟨0, _⟩ =>
    show (rowDims N E C wf).start (ix2 e j) idx 0 + (rowDims N E C wf).batchCoord (ix2 e j) 0
      + (rowDims N E C wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E C wf).startIndexMap from List.mem_singleton.mpr rfl)]
    have hsi : (rowDims N E C wf).siIdx (ix2 e j) ⟨List.idxOf (0 : Fin 2) (rowDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowDims N E C wf).start (ix2 e j) idx 1 + (rowDims N E C wf).batchCoord (ix2 e j) 1
      + (rowDims N E C wf).offCoord (ix2 e j) 1 = _
    rw [GatherDims.batchCoord_eq_zero _ _ _ List.not_mem_nil]
    unfold GatherDims.start
    rw [dif_neg (show (1 : Fin 2) ∉ (rowDims N E C wf).startIndexMap from by
      show (1 : Fin 2) ∉ ([0] : List (Fin 2)); decide)]
    unfold GatherDims.offCoord
    rw [dif_pos ((GatherDims.mem_sKept _ _).mpr
      ⟨by show (1 : Fin 2) ∉ ([0] : List (Fin 2)); decide, List.not_mem_nil⟩)]
    simp only [Nat.zero_add]
    rfl

/-- Flat-gather dimension numbers: operand `[N]`, start indices `[E, 1]`, result `[E]`; the operand's one axis is
    collapsed and indexed by the start word. -/
private abbrev flatDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- A flat gather at `e`: the operand at the start word `idx (e, 0)`, read signed and clamped into `[0, N - 1]`. -/
private theorem gather_flat_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (flatDims N E wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (flatDims N E wf).start (ix1 e) idx 0 + (flatDims N E wf).batchCoord (ix1 e) 0
    + (flatDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N E wf).startIndexMap from List.mem_singleton.mpr rfl)]
  have hsi : (flatDims N E wf).siIdx (ix1 e) ⟨List.idxOf (0 : Fin 1) (flatDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

theorem gather128_apply {α : Type} (x : Cert.KernelIdeal.S100000x128.Idx → α) (idx : IVec Cert.KernelIdeal.S1700000x1 32)
    (e : Fin 1700000) (j : Fin 128) :
    Host.gather Cert.KernelIdeal.gather_S100000x128_S1700000x1_S1700000x128_1_0_n_n_0_1_1128 x idx (ix2 e j)
      = x (ix2 (node (idx (ix2 e 0))) j) :=
  gather_row_apply (N := 100000) (E := 1700000) (C := 128) (by omega)
    Cert.KernelIdeal.gather_S100000x128_S1700000x1_S1700000x128_1_0_n_n_0_1_1128.wf x idx e j

theorem gather64_apply {α : Type} (x : Cert.KernelIdeal.S100000x64.Idx → α) (idx : IVec Cert.KernelIdeal.S1700000x1 32)
    (e : Fin 1700000) (j : Fin 64) :
    Host.gather Cert.KernelIdeal.gather_S100000x64_S1700000x1_S1700000x64_1_0_n_n_0_1_164 x idx (ix2 e j)
      = x (ix2 (node (idx (ix2 e 0))) j) :=
  gather_row_apply (N := 100000) (E := 1700000) (C := 64) (by omega)
    Cert.KernelIdeal.gather_S100000x64_S1700000x1_S1700000x64_1_0_n_n_0_1_164.wf x idx e j

theorem gatherE64_apply {α : Type} (x : Cert.KernelIdeal.S100000x64.Idx → α) (idx : IVec Cert.KernelIdeal.S1600000x1 32)
    (e : Fin 1600000) (j : Fin 64) :
    Host.gather Cert.KernelIdeal.gather_S100000x64_S1600000x1_S1600000x64_1_0_n_n_0_1_164 x idx (ix2 e j)
      = x (ix2 (node (idx (ix2 e 0))) j) :=
  gather_row_apply (N := 100000) (E := 1600000) (C := 64) (by omega)
    Cert.KernelIdeal.gather_S100000x64_S1600000x1_S1600000x64_1_0_n_n_0_1_164.wf x idx e j

/-- The flat gather of a per-node vector (only the reference program has it). -/
theorem gather1_apply {α : Type} (x : Cert.ReferenceIdeal.S100000.Idx → α) (idx : IVec Cert.ReferenceIdeal.S1700000x1 32)
    (e : Fin 1700000) :
    Host.gather Cert.ReferenceIdeal.gather_S100000_S1700000x1_S1700000_n_0_n_n_0_1_1 x idx (ix1 e)
      = x (ix1 (node (idx (ix2 e 0)))) :=
  gather_flat_apply (N := 100000) (E := 1700000) (by omega)
    Cert.ReferenceIdeal.gather_S100000_S1700000x1_S1700000_n_0_n_n_0_1_1.wf x idx e

/-! ## Scatter-adds at an index -/

/-- Row scatter dimension numbers: operand `[N, C]`, scatter indices `[E, 1]`, updates `[E, C]`; the word indexes
    operand axis 0 (an inserted axis), the updates' axis 1 is the window over operand axis 1. -/
private abbrev rowScat (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Update `(e, j')` of a row scatter lands at `(n, j)` exactly when edge `e`'s word, read signed, is `n` and
    `j' = j`: on axis 0 the start is the word and the window coordinate is 0, on axis 1 the start is 0 and the window
    coordinate is `j'`. -/
private theorem rowScat_lands {N E C w : Nat}
    (wf : ScatterDims.WF ⟨2, ![N, C]⟩ ⟨2, ![E, 1]⟩ ⟨2, ![E, C]⟩ [1] [0] [0] 1)
    (idx : IVec ⟨2, ![E, 1]⟩ w) (e : Fin E) (j' : Fin C) (n : Fin N) (j : Fin C) :
    (rowScat N E C wf).resultIdx? (ix2 e j') idx = some (ix2 n j)
      ↔ (idx (ix2 e 0)).toInt = (n.val : Int) ∧ j' = j := by
  rw [Cert.Gcn.resultIdx?_eq_some_iff]
  have hs0 : (rowScat N E C wf).start (ix2 e j') idx 0 = (idx (ix2 e 0)).toInt := by
    unfold ScatterDims.start
    rw [dif_pos (show (0 : Fin 2) ∈ (rowScat N E C wf).scatterDimsToOperandDims from List.mem_singleton.mpr rfl)]
    have hsi : (rowScat N E C wf).siIdx (ix2 e j') ⟨List.idxOf (0 : Fin 2) (rowScat N E C wf).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi]
  have hw0 : (rowScat N E C wf).window (ix2 e j') 0 = 0 := by
    unfold ScatterDims.window
    rw [dif_neg (show (0 : Fin 2) ∉ (rowScat N E C wf).sKept from by
      show (0 : Fin 2) ∉ (List.finRange 2).filter (· ∉ ([0] : List (Fin 2))); decide)]
  have hs1 : (rowScat N E C wf).start (ix2 e j') idx 1 = 0 := by
    unfold ScatterDims.start
    rw [dif_neg (show (1 : Fin 2) ∉ (rowScat N E C wf).scatterDimsToOperandDims from by
      show (1 : Fin 2) ∉ ([0] : List (Fin 2)); decide)]
  have hw1 : (rowScat N E C wf).window (ix2 e j') 1 = j'.val := by
    unfold ScatterDims.window
    rw [dif_pos (show (1 : Fin 2) ∈ (rowScat N E C wf).sKept from by
      show (1 : Fin 2) ∈ (List.finRange 2).filter (· ∉ ([0] : List (Fin 2))); decide)]
    rfl
  constructor
  · intro h
    have h0 : (rowScat N E C wf).start (ix2 e j') idx 0 + ((rowScat N E C wf).window (ix2 e j') 0 : Int)
        = ((n.val : Nat) : Int) := h 0
    have h1 : (rowScat N E C wf).start (ix2 e j') idx 1 + ((rowScat N E C wf).window (ix2 e j') 1 : Int)
        = ((j.val : Nat) : Int) := h 1
    rw [hs0, hw0] at h0
    rw [hs1, hw1] at h1
    exact ⟨by omega, Fin.ext (by omega)⟩
  · rintro ⟨h0, rfl⟩ a
    match a with
    | ⟨0, _⟩ =>
      show (rowScat N E C wf).start (ix2 e j') idx 0 + ((rowScat N E C wf).window (ix2 e j') 0 : Int)
        = ((n.val : Nat) : Int)
      rw [hs0, hw0, h0]; omega
    | ⟨1, _⟩ =>
      show (rowScat N E C wf).start (ix2 e j') idx 1 + ((rowScat N E C wf).window (ix2 e j') 1 : Int)
        = ((j'.val : Nat) : Int)
      rw [hs1, hw1]; omega

/-- A row scatter-add at `(n, j)`: the operand's element plus the sum, over the edges whose word read signed is `n`,
    of the updates' elements `(e, j)`. The landing updates are exactly the `(e, j)` with that word. -/
private theorem scatterAdd_row_apply {N E C w : Nat}
    (wf : ScatterDims.WF ⟨2, ![N, C]⟩ ⟨2, ![E, 1]⟩ ⟨2, ![E, C]⟩ [1] [0] [0] 1)
    (x : FVec Ideal ⟨2, ![N, C]⟩ .f32) (idx : IVec ⟨2, ![E, 1]⟩ w) (u : FVec Ideal ⟨2, ![E, C]⟩ .f32)
    (n : Fin N) (j : Fin C) :
    Host.scatterAdd (rowScat N E C wf) x idx u (ix2 n j)
      = x (ix2 n j) + ∑ e ∈ Finset.univ.filter (fun e : Fin E => (idx (ix2 e 0)).toInt = (n.val : Int)), u (ix2 e j) := by
  rw [Cert.Gcn.scatterAdd_ideal]
  unfold Ideal.hostScatterAdd
  congr 1
  symm
  refine Finset.sum_bij (fun e _ => ix2 e j) ?_ ?_ ?_ ?_
  · intro e he
    rw [Finset.mem_filter] at he ⊢
    exact ⟨Finset.mem_univ _, (rowScat_lands wf idx e j n j).mpr ⟨he.2, rfl⟩⟩
  · intro e₁ _ e₂ _ h
    exact congrFun h 0
  · intro p hp
    obtain ⟨e, j', rfl⟩ : ∃ e j', p = ix2 e j' := ⟨p 0, p 1, eq_ix2 p⟩
    rw [Finset.mem_filter] at hp
    obtain ⟨hw, rfl⟩ := (rowScat_lands wf idx e j' n j).mp hp.2
    exact ⟨e, Finset.mem_filter.mpr ⟨Finset.mem_univ _, hw⟩, rfl⟩
  · intro e _
    rfl

/-- Flat scatter dimension numbers: operand `[N]`, scatter indices `[E, 1]`, updates `[E]`; the word indexes the
    operand's one axis (an inserted axis) and the updates have no window axis. -/
private abbrev flatScat (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update `e` of a flat scatter lands at `n` exactly when edge `e`'s word, read signed, is `n`: on the one axis the
    start is the word and the window coordinate is 0. -/
private theorem flatScat_lands {N E w : Nat}
    (wf : ScatterDims.WF ⟨1, ![N]⟩ ⟨2, ![E, 1]⟩ ⟨1, ![E]⟩ [] [0] [0] 1)
    (idx : IVec ⟨2, ![E, 1]⟩ w) (e : Fin E) (n : Fin N) :
    (flatScat N E wf).resultIdx? (ix1 e) idx = some (ix1 n) ↔ (idx (ix2 e 0)).toInt = (n.val : Int) := by
  rw [Cert.Gcn.resultIdx?_eq_some_iff]
  have hs0 : (flatScat N E wf).start (ix1 e) idx 0 = (idx (ix2 e 0)).toInt := by
    unfold ScatterDims.start
    rw [dif_pos (show (0 : Fin 1) ∈ (flatScat N E wf).scatterDimsToOperandDims from List.mem_singleton.mpr rfl)]
    have hsi : (flatScat N E wf).siIdx (ix1 e) ⟨List.idxOf (0 : Fin 1) (flatScat N E wf).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi]
  have hw0 : (flatScat N E wf).window (ix1 e) 0 = 0 := by
    unfold ScatterDims.window
    rw [dif_neg (show (0 : Fin 1) ∉ (flatScat N E wf).sKept from by
      show (0 : Fin 1) ∉ (List.finRange 1).filter (· ∉ ([0] : List (Fin 1))); decide)]
  constructor
  · intro h
    have h0 : (flatScat N E wf).start (ix1 e) idx 0 + ((flatScat N E wf).window (ix1 e) 0 : Int)
        = ((n.val : Nat) : Int) := h 0
    rw [hs0, hw0] at h0
    omega
  · intro h0 a
    obtain rfl : a = 0 := Subsingleton.elim _ _
    show (flatScat N E wf).start (ix1 e) idx 0 + ((flatScat N E wf).window (ix1 e) 0 : Int)
      = ((n.val : Nat) : Int)
    rw [hs0, hw0, h0]; omega

/-- A flat scatter-add at `n`: the operand's element plus the sum, over the edges whose word read signed is `n`, of
    the updates' elements `e`. -/
private theorem scatterAdd_flat_apply {N E w : Nat}
    (wf : ScatterDims.WF ⟨1, ![N]⟩ ⟨2, ![E, 1]⟩ ⟨1, ![E]⟩ [] [0] [0] 1)
    (x : FVec Ideal ⟨1, ![N]⟩ .f32) (idx : IVec ⟨2, ![E, 1]⟩ w) (u : FVec Ideal ⟨1, ![E]⟩ .f32) (n : Fin N) :
    Host.scatterAdd (flatScat N E wf) x idx u (ix1 n)
      = x (ix1 n) + ∑ e ∈ Finset.univ.filter (fun e : Fin E => (idx (ix2 e 0)).toInt = (n.val : Int)), u (ix1 e) := by
  rw [Cert.Gcn.scatterAdd_ideal]
  unfold Ideal.hostScatterAdd
  congr 1
  symm
  refine Finset.sum_bij (fun e _ => ix1 e) ?_ ?_ ?_ ?_
  · intro e he
    rw [Finset.mem_filter] at he ⊢
    exact ⟨Finset.mem_univ _, (flatScat_lands wf idx e n).mpr he.2⟩
  · intro e₁ _ e₂ _ h
    exact congrFun h 0
  · intro p hp
    obtain ⟨e, rfl⟩ : ∃ e, p = ix1 e := ⟨p 0, eq_ix1 p⟩
    rw [Finset.mem_filter] at hp
    exact ⟨e, Finset.mem_filter.mpr ⟨Finset.mem_univ _, (flatScat_lands wf idx e n).mp hp.2⟩, rfl⟩
  · intro e _
    rfl

theorem scatterAdd128_apply (x : FVec Ideal Cert.KernelIdeal.S100000x128 .f32) (idx : IVec Cert.KernelIdeal.S1700000x1 32)
    (u : FVec Ideal Cert.KernelIdeal.S1700000x128 .f32) (n : Fin 100000) (j : Fin 128) :
    Host.scatterAdd Cert.KernelIdeal.scatter_S100000x128_S1700000x1_S1700000x128_1_0_0_1 x idx u (ix2 n j)
      = x (ix2 n j) + ∑ e ∈ Finset.univ.filter (fun e : Fin 1700000 => (idx (ix2 e 0)).toInt = (n.val : Int)), u (ix2 e j) :=
  scatterAdd_row_apply (N := 100000) (E := 1700000) (C := 128)
    Cert.KernelIdeal.scatter_S100000x128_S1700000x1_S1700000x128_1_0_0_1.wf x idx u n j

theorem scatterAdd64_apply (x : FVec Ideal Cert.KernelIdeal.S100000x64 .f32) (idx : IVec Cert.KernelIdeal.S1700000x1 32)
    (u : FVec Ideal Cert.KernelIdeal.S1700000x64 .f32) (n : Fin 100000) (j : Fin 64) :
    Host.scatterAdd Cert.KernelIdeal.scatter_S100000x64_S1700000x1_S1700000x64_1_0_0_1 x idx u (ix2 n j)
      = x (ix2 n j) + ∑ e ∈ Finset.univ.filter (fun e : Fin 1700000 => (idx (ix2 e 0)).toInt = (n.val : Int)), u (ix2 e j) :=
  scatterAdd_row_apply (N := 100000) (E := 1700000) (C := 64)
    Cert.KernelIdeal.scatter_S100000x64_S1700000x1_S1700000x64_1_0_0_1.wf x idx u n j

theorem scatterAdd1_apply (x : FVec Ideal Cert.KernelIdeal.S100000 .f32) (idx : IVec Cert.KernelIdeal.S1700000x1 32)
    (u : FVec Ideal Cert.KernelIdeal.S1700000 .f32) (n : Fin 100000) :
    Host.scatterAdd Cert.KernelIdeal.scatter_S100000_S1700000x1_S1700000_n_0_0_1 x idx u (ix1 n)
      = x (ix1 n) + ∑ e ∈ Finset.univ.filter (fun e : Fin 1700000 => (idx (ix2 e 0)).toInt = (n.val : Int)), u (ix1 e) :=
  scatterAdd_flat_apply (N := 100000) (E := 1700000)
    Cert.KernelIdeal.scatter_S100000_S1700000x1_S1700000_n_0_0_1.wf x idx u n

/-! ## The host matrix products are the closed product -/

/-- Plain matrix-product dimension numbers: `[A, K]` by `[K, B]`, the left operand contracted on its axis 1, the
    right on its axis 0, no batch axis. -/
private abbrev plainDot (A K B : Nat)
    (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ where
  lhsContracting := [1]
  rhsContracting := [0]
  lhsNonContracting := [0]
  rhsNonContracting := [1]
  lhsBatch := []
  rhsBatch := []
  wf := wf

/-- The host product with plain dimension numbers is the closed product: at `(r, c)` the sum over the contraction
    index, re-indexed by its one coordinate `k`, of `x (r, k) · w (k, c)`. -/
private theorem dot_plain_eq {A K B : Nat}
    (wf : DotDims.WF ⟨2, ![A, K]⟩ ⟨2, ![K, B]⟩ ⟨2, ![A, B]⟩ [1] [0] [0] [1] [] [])
    (x : FVec Ideal ⟨2, ![A, K]⟩ .f32) (w : FVec Ideal ⟨2, ![K, B]⟩ .f32) :
    Host.dotGeneral (plainDot A K B wf) none x w = Cert.Closed.mm x w := by
  funext i
  simp only [Host.dotGeneral]
  rw [Ideal.dotGeneral_apply]
  unfold Cert.Closed.mm
  rw [← Equiv.sum_comp (contrEquiv1 (plainDot A K B wf) K rfl rfl).symm]
  refine Finset.sum_congr rfl (fun k _ => ?_)
  have hl : (plainDot A K B wf).lhsIdx i ((contrEquiv1 (plainDot A K B wf) K rfl rfl).symm k)
      = ix2 (Cert.Closed.row i) k := by
    funext a; refine Fin.ext ?_
    match a with
    | ⟨0, _⟩ => rfl
    | ⟨1, _⟩ =>
      exact ((plainDot A K B wf).lhsIdx_val_of_single (cl := 1) rfl i _).trans
        (contrEquiv1_symm_val (plainDot A K B wf) K rfl rfl k)
  have hr : (plainDot A K B wf).rhsIdx i ((contrEquiv1 (plainDot A K B wf) K rfl rfl).symm k)
      = ix2 k (Cert.Closed.col i) := by
    funext a; refine Fin.ext ?_
    match a with
    | ⟨0, _⟩ =>
      exact ((plainDot A K B wf).rhsIdx_val_of_single (cr := 0) rfl i _).trans
        (contrEquiv1_symm_val (plainDot A K B wf) K rfl rfl k)
    | ⟨1, _⟩ => rfl
  rw [hl, hr]

theorem dot128_eq (x : FVec Ideal Cert.ReferenceIdeal.S100000x128 .f32) (w : FVec Ideal Cert.ReferenceIdeal.S128x128 .f32) :
    Host.dotGeneral Cert.ReferenceIdeal.dot_S100000x128_S128x128_S100000x128_1_0_0_1_n_n none x w = Cert.Closed.mm x w :=
  dot_plain_eq (A := 100000) (K := 128) (B := 128)
    Cert.ReferenceIdeal.dot_S100000x128_S128x128_S100000x128_1_0_0_1_n_n.wf x w

theorem dot64_eq (x : FVec Ideal Cert.ReferenceIdeal.S100000x128 .f32) (w : FVec Ideal Cert.ReferenceIdeal.S128x64 .f32) :
    Host.dotGeneral Cert.ReferenceIdeal.dot_S100000x128_S128x64_S100000x64_1_0_0_1_n_n none x w = Cert.Closed.mm x w :=
  dot_plain_eq (A := 100000) (K := 128) (B := 64)
    Cert.ReferenceIdeal.dot_S100000x128_S128x64_S100000x64_1_0_0_1_n_n.wf x w

theorem dotE64_eq (x : FVec Ideal Cert.ReferenceIdeal.S1600000x64 .f32) (w : FVec Ideal Cert.ReferenceIdeal.S64x64 .f32) :
    Host.dotGeneral Cert.ReferenceIdeal.dot_S1600000x64_S64x64_S1600000x64_1_0_0_1_n_n none x w = Cert.Closed.mm x w :=
  dot_plain_eq (A := 1600000) (K := 64) (B := 64)
    Cert.ReferenceIdeal.dot_S1600000x64_S64x64_S1600000x64_1_0_0_1_n_n.wf x w

theorem dotE2_eq (x : FVec Ideal Cert.ReferenceIdeal.S1600000x64 .f32) (w : FVec Ideal Cert.ReferenceIdeal.S64x2 .f32) :
    Host.dotGeneral Cert.ReferenceIdeal.dot_S1600000x64_S64x2_S1600000x2_1_0_0_1_n_n none x w = Cert.Closed.mm x w :=
  dot_plain_eq (A := 1600000) (K := 64) (B := 2)
    Cert.ReferenceIdeal.dot_S1600000x64_S64x2_S1600000x2_1_0_0_1_n_n.wf x w

end Cert.IndexOps

end
-- ==== Proof.EdgeStage.lean ====
/-
  The edge stage of the two programs. Both programs end with the same two-layer stage on the edge features: a matrix
  product with the first weights, a bias row added to every row, a clip below at zero, a matrix product with the second
  weights, and a second bias row. One program writes it with whole-array host operations (the bias a vector broadcast to
  one row and then down the rows, the zero a broadcast scalar), the other as the closed entry-by-entry function (the
  bias a vector recast as one row). The edge features themselves are the same operations in both programs (a change of
  float format is the identity on extended reals). Here the two spellings are shown equal: each host product is the
  closed product, and at an entry (p, q) a bias row broadcast down the rows, like the bias vector recast as a row and
  read at (0, q), is the vector's entry q, while the broadcast zero pattern is the number 0.
-/
import proofs.«167228_j83399674954443_2_alg».proof.Proof.Stages
import proofs.«167228_j83399674954443_2_alg».proof.Proof.StagesRef
import proofs.«167228_j83399674954443_2_alg».proof.Proof.Closed
import proofs.«167228_j83399674954443_2_alg».proof.Proof.IndexOps
import Idealize.ShloMosaic.Lib.ValueIdx
import Idealize.ShloMosaic.Lib.IdealHost
import Idealize.ShloMosaic.Lib.Pipeline.Value
import Idealize.ShloMosaic.PureOps.Ideal.Laws

noncomputable section

namespace Cert.EdgeStage

open Idealize.ShloMosaic Idealize.ShloMosaic.ValueIdx

/-! ## Layout facts at explicit coordinates -/

section Layout
variable {α : Type} {A C : Nat}

/-- A vector of C entries broadcast to one row and then down A rows, read at (p, q), is the vector's entry q. -/
theorem biasRow_ix (c : (⟨1, ![C]⟩ : Shape).Idx → α)
    (h1 : (⟨1, ![C]⟩ : Shape).BroadcastsInDim ⟨2, ![1, C]⟩ ![1])
    (h2 : (⟨2, ![1, C]⟩ : Shape).BroadcastsInDim ⟨2, ![A, C]⟩ ![0, 1]) (p : Fin A) (q : Fin C) :
    broadcastInDim ⟨2, ![A, C]⟩ ![0, 1] h2 (broadcastInDim ⟨2, ![1, C]⟩ ![1] h1 c) (ix2 p q) = c (ix1 q) := by
  rw [broadcastInDim_apply ![0, 1] h2 _ (ix2 p q) (ix2 (0 : Fin 1) q) (fun a => by
      match a with
      | ⟨0, _⟩ => rfl
      | ⟨1, _⟩ =>
        show q.val = if C = 1 then 0 else q.val
        split
        · have := q.isLt; omega
        · rfl),
    broadcastInDim_apply ![1] h1 _ (ix2 (0 : Fin 1) q) (ix1 q) (fun a => by
      match a with
      | ⟨0, _⟩ =>
        show q.val = if C = 1 then 0 else q.val
        split
        · have := q.isLt; omega
        · rfl)]

/-- The same at any index, the column coordinate named as the closed functions name it. -/
theorem biasRow_apply (c : (⟨1, ![C]⟩ : Shape).Idx → α)
    (h1 : (⟨1, ![C]⟩ : Shape).BroadcastsInDim ⟨2, ![1, C]⟩ ![1])
    (h2 : (⟨2, ![1, C]⟩ : Shape).BroadcastsInDim ⟨2, ![A, C]⟩ ![0, 1]) (j : (⟨2, ![A, C]⟩ : Shape).Idx) :
    broadcastInDim ⟨2, ![A, C]⟩ ![0, 1] h2 (broadcastInDim ⟨2, ![1, C]⟩ ![1] h1 c) j = c (ix1 (Cert.Closed.col j)) := by
  conv_lhs => rw [eq_ix2 j]
  exact biasRow_ix c h1 h2 (j 0) (j 1)

/-- A vector of C entries recast as one row, read at (0, q), is the vector's entry q: the two positions in row-major
    order are both q. -/
theorem castRow_ix (c : (⟨1, ![C]⟩ : Shape).Idx → α) (h : (⟨1, ![C]⟩ : Shape).ShapeCasts ⟨2, ![1, C]⟩) (q : Fin C) :
    shapeCast ⟨2, ![1, C]⟩ c h (ix2 (0 : Fin 1) q) = c (ix1 q) :=
  shapeCast_apply c h (ix2 (0 : Fin 1) q) (ix1 q) (by
    rw [Shape.rowMajor_val_one, Shape.rowMajor_val_two]
    show q.val = 0 * C + q.val
    omega)

/-- The f32 zero pattern broadcast from a scalar to any shape reads the number 0 everywhere. -/
theorem zero_apply {T : Shape} (h : (⟨0, ![]⟩ : Shape).BroadcastsInDim T ![]) (j : T.Idx) :
    broadcastInDim T ![] h (constant (F := Ideal) ⟨0, ![]⟩ .f32 0x00000000#32) j = (0 : EReal) := by
  rw [broadcastInDim_scalar_apply, constant_apply, Ideal.ofBits_zero_f32]

end Layout

/-! ## The edge stage -/

/-- The edge features are the same in the two programs: the same gathers, sum and halving; the closing change of float
    format is the identity on extended reals. -/
theorem edgeFeat_eq (hf : FVec Ideal Cert.KernelIdeal.S100000x64 .f32) (s0 d0 : IVec Cert.KernelIdeal.S1600000 32) :
    Cert.ReferenceIdeal.Stage.edgeFeat hf s0 d0 = Cert.KernelIdeal.Stage.edgeFeat hf s0 d0 := rfl

/-- The hidden layer: the host product plus the broadcast bias row, clipped below by the broadcast zero, is the closed
    hidden layer with the bias recast as a row. -/
theorem hidden_eq (ef : FVec Ideal Cert.ReferenceIdeal.S1600000x64 .f32) (m1 : FVec Ideal Cert.KernelIdeal.S64x64 .f32)
    (c1 : FVec Ideal Cert.KernelIdeal.S64 .f32) :
    maximumf (addf (Host.dotGeneral Cert.ReferenceIdeal.dot_S1600000x64_S64x64_S1600000x64_1_0_0_1_n_n none ef m1)
        (broadcastInDim Cert.ReferenceIdeal.S1600000x64 ![0, 1] Cert.ReferenceIdeal.Facts₀.bcast_S1x64_S1600000x64_0_1
          (broadcastInDim Cert.ReferenceIdeal.S1x64 ![1] Cert.ReferenceIdeal.Facts₀.bcast_S64_S1x64_1 c1)))
      (broadcastInDim Cert.ReferenceIdeal.S1600000x64 ![] Cert.ReferenceIdeal.Facts₀.bcast_S_S1600000x64
        (constant Cert.ReferenceIdeal.S_ .f32 0x00000000#32))
      = Cert.Closed.hidden (A := 1600000) (K := 64) (H := 64) ef m1 (Cert.KernelIdeal.Stage.row64 c1) := by
  funext p
  rw [maximumf_apply, addf_apply, Cert.IndexOps.dotE64_eq, biasRow_apply, zero_apply]
  unfold Cert.Closed.hidden Cert.KernelIdeal.Stage.row64
  rw [castRow_ix]

theorem edge_eq (hf : FVec Ideal Cert.KernelIdeal.S100000x64 .f32) (s0 d0 : IVec Cert.KernelIdeal.S1600000 32)
    (m1 : FVec Ideal Cert.KernelIdeal.S64x64 .f32) (c1 : FVec Ideal Cert.KernelIdeal.S64 .f32)
    (m2 : FVec Ideal Cert.KernelIdeal.S64x2 .f32) (c2 : FVec Ideal Cert.KernelIdeal.S2 .f32) :
    Cert.ReferenceIdeal.Stage.edgeMlp (Cert.ReferenceIdeal.Stage.edgeFeat hf s0 d0) m1 c1 m2 c2
      = Cert.Closed.mlp (A := 1600000) (K := 64) (H := 64) (B := 2) (Cert.KernelIdeal.Stage.edgeFeat hf s0 d0) m1
          (Cert.KernelIdeal.Stage.row64 c1) m2 (Cert.KernelIdeal.Stage.row2 c2) := by
  rw [edgeFeat_eq]
  unfold Cert.ReferenceIdeal.Stage.edgeMlp
  rw [hidden_eq, Cert.IndexOps.dotE2_eq]
  funext i
  rw [addf_apply, biasRow_apply]
  unfold Cert.Closed.mlp Cert.KernelIdeal.Stage.row2
  rw [castRow_ix]

end Cert.EdgeStage

end
-- ==== Proof.LayerIdx.lean ====
import proofs.«167228_j83399674954443_2_alg».proof.Proof.Stages
import proofs.«167228_j83399674954443_2_alg».proof.Proof.StagesRef
import proofs.«167228_j83399674954443_2_alg».proof.Proof.Closed
import proofs.«167228_j83399674954443_2_alg».proof.Proof.IndexOps
import Idealize.ShloMosaic.Lib.ValueIdx
import Idealize.ShloMosaic.Lib.Pipeline.Value
import Idealize.ShloMosaic.Lib.ValueLayout
import Idealize.ShloMosaic.PureOps.Ideal.Laws

/-! # The layout operations of a layer, read at an index

A vector viewed as a one-column array reads its entry at the row; a column broadcast along the rows reads the column's
entry at the row; a bias vector made a one-row array and broadcast down the rows reads the vector's entry at the
column; a splat of the zero word reads zero. A word that is not negative is left alone by the wrap, and the row a
gather reads for a word whose signed value is a node is that node. -/

noncomputable section

open scoped BigOperators

namespace Cert.Layers

open Idealize.ShloMosaic Idealize.ShloMosaic.ValueIdx Cert.IndexOps

/-! ## One-column views -/

/-- A word vector as a one-column array, read at a row. -/
theorem colL_apply (v : IVec Cert.KernelIdeal.S1700000 32) (e : Fin 1700000) :
    Cert.KernelIdeal.Stage.colL v (ix2 e (0 : Fin 1)) = v (ix1 e) := by
  unfold Cert.KernelIdeal.Stage.colL
  refine broadcastInDim_apply _ _ v (ix2 e (0 : Fin 1)) (ix1 e) fun a => ?_
  match a with
  | ⟨0, _⟩ =>
    show e.val = if (1700000 : ℕ) = 1 then 0 else e.val
    exact (if_neg (by decide)).symm

/-- A float vector as a one-column array, read at a row. -/
theorem colLf_apply (v : FVec Ideal Cert.ReferenceIdeal.S1700000 .f32) (e : Fin 1700000) :
    Cert.ReferenceIdeal.Stage.colLf v (ix2 e (0 : Fin 1)) = v (ix1 e) := by
  unfold Cert.ReferenceIdeal.Stage.colLf
  refine broadcastInDim_apply _ _ v (ix2 e (0 : Fin 1)) (ix1 e) fun a => ?_
  match a with
  | ⟨0, _⟩ =>
    show e.val = if (1700000 : ℕ) = 1 then 0 else e.val
    exact (if_neg (by decide)).symm

/-- A vector of `a` entries cast to an `[a, 1]` column reads, at row `i`, the vector's entry `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The node scale as a column, read at a row. -/
theorem scaleCol_apply (g : FVec Ideal Cert.KernelIdeal.S100000 .f32) (n : Fin 100000) :
    Cert.KernelIdeal.Stage.scaleCol g (ix2 n (0 : Fin 1)) = Cert.KernelIdeal.Stage.scaleOf g (ix1 n) := by
  unfold Cert.KernelIdeal.Stage.scaleCol
  exact shapeCast_a_a1_apply _ _ n 0

/-! ## A column broadcast along the rows -/

/-- An `[a, 1]` column broadcast to `[a, b]` reads, at `(p, c)`, the column's entry at row `p`. -/
theorem broadcastInDim_a1_ab_apply {α : Type} {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, b]` row broadcast to `[a, b]` reads, at `(p, c)`, the row's entry at column `c`. -/
theorem broadcastInDim_1b_ab_apply {α : Type} {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector of `b` entries made a `[1, b]` row reads, at column `c`, the vector's entry `c`. -/
theorem broadcastInDim_b_1b_apply {α : Type} {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply _ h v (ix2 u c) (ix1 c) fun ax => ?_
  match ax with
  | ⟨0, _⟩ =>
    show c.val = if b = 1 then 0 else c.val
    split
    · have := c.isLt; omega
    · rfl

/-- A vector of `b` entries cast to a `[1, b]` row and the same vector broadcast to a `[1, b]` row are one array. -/
theorem rowCast_eq_rowBroadcast {α : Type} {b : ℕ} (v : (⟨1, ![b]⟩ : Shape).Idx → α)
    (h : (⟨1, ![b]⟩ : Shape).BroadcastsInDim ⟨2, ![1, b]⟩ ![1]) (h' : (⟨1, ![b]⟩ : Shape).ShapeCasts ⟨2, ![1, b]⟩)
    (c : Fin b) :
    broadcastInDim ⟨2, ![1, b]⟩ ![1] h v (ix2 (0 : Fin 1) c) = shapeCast ⟨2, ![1, b]⟩ v h' (ix2 (0 : Fin 1) c) := by
  rw [broadcastInDim_b_1b_apply, shapeCast_a_1a_apply]

/-! ## The splat of the zero word -/

/-- A splat of the zero word, broadcast to any shape, reads zero everywhere. -/
theorem zeros_apply {t : Shape} (dims : Fin Cert.KernelIdeal.S_.rank → Fin t.rank)
    (h : Cert.KernelIdeal.S_.BroadcastsInDim t dims) (i : t.Idx) :
    broadcastInDim t dims h (constant (F := Ideal) Cert.KernelIdeal.S_ .f32 0x00000000#32) i = (0 : EReal) :=
  Ideal.ofBits_zero_f32

/-! ## Words -/

/-- A word that is not negative is left alone by the wrap. -/
theorem wrapL_of_nonneg (v : IVec Cert.KernelIdeal.S1700000 32) (e : Fin 1700000) (hv : 0 ≤ (v (ix1 e)).toInt) :
    Cert.KernelIdeal.Stage.wrapL v (ix1 e) = v (ix1 e) := by
  unfold Cert.KernelIdeal.Stage.wrapL
  rw [select_apply]
  show Scalar.select (IntOp.cmpi .slt (v (ix1 e)) 0#32) _ _ = _
  have hc : IntOp.cmpi .slt (v (ix1 e)) 0#32 = 0#1 := by
    apply eq_zero_of_ne_one
    intro h1
    have h2 : (v (ix1 e)).toInt < (0#32 : BitVec 32).toInt := IntOp.cmpi_slt.mp h1
    have h3 : (0#32 : BitVec 32).toInt = 0 := by decide
    omega
  rw [hc, select_zero]

/-- The row a gather reads for a word whose signed value is a node is that node. -/
theorem node_of_toInt (w : BitVec 32) (n : Fin 100000) (hw : w.toInt = (n.val : Int)) : node w = n := by
  apply Fin.ext
  show min w.toInt.toNat 99999 = n.val
  have := n.isLt
  omega

end Cert.Layers

end
-- ==== Proof.LayerSum.lean ====
import proofs.«167228_j83399674954443_2_alg».proof.Proof.Closed
import Idealize.ShloMosaic.PureOps.Ideal
import Idealize.ShloMosaic.Lib.ValueIdx

/-! # Finite sums of real numbers inside the extended reals

Among the extended reals the real numbers are closed under sums, products and maxima, and on them multiplication
distributes over a finite sum (it does not when an infinity is present). These are the facts by which a common factor is
taken out of a scatter-add, and by which the dense stages keep real-valued arrays real-valued. -/

noncomputable section

open scoped BigOperators

namespace Cert.Layers

open Idealize.ShloMosaic Idealize.ShloMosaic.ValueIdx

/-- The coercion of a finite sum of real numbers is the sum of the coercions. -/
theorem coe_sum {ι : Type*} (F : Finset ι) (f : ι → ℝ) :
    ((∑ e ∈ F, f e : ℝ) : EReal) = ∑ e ∈ F, (f e : EReal) := by
  classical
  refine Finset.induction_on F (by simp) ?_
  intro a s ha ih
  rw [Finset.sum_insert ha, Finset.sum_insert ha, EReal.coe_add, ih]

/-- A finite sum of real numbers is a real number. -/
theorem sum_real {ι : Type*} (F : Finset ι) (f : ι → EReal) (hf : ∀ e ∈ F, ∃ r : ℝ, f e = (r : EReal)) :
    ∃ r : ℝ, ∑ e ∈ F, f e = (r : EReal) := by
  refine Finset.sum_induction f (fun x => ∃ r : ℝ, x = (r : EReal)) ?_ ⟨0, EReal.coe_zero.symm⟩ hf
  rintro _ _ ⟨ra, rfl⟩ ⟨rb, rfl⟩
  exact ⟨ra + rb, (EReal.coe_add ra rb).symm⟩

/-- A product of two real numbers is a real number. -/
theorem mul_real {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

/-- A sum of two real numbers is a real number. -/
theorem add_real {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

/-- The larger of a real number and zero is a real number. -/
theorem max_zero_real {x : EReal} (hx : ∃ r : ℝ, x = (r : EReal)) : ∃ r : ℝ, max x 0 = (r : EReal) := by
  rcases max_choice x 0 with h | h
  · rw [h]; exact hx
  · rw [h]; exact ⟨0, EReal.coe_zero.symm⟩

/-- A factor common to every term of a finite sum of products of real numbers comes out of the sum: with every
    `H e`, `D e` and `c` real and `D' e = c` on the range of summation,
    `Σ H e · (D e · D' e) = (Σ H e · D e) · c`. -/
theorem sum_factor {ι : Type*} (F : Finset ι) (H D D' : ι → EReal) (c : EReal)
    (hH : ∀ e, ∃ r : ℝ, H e = (r : EReal)) (hD : ∀ e, ∃ r : ℝ, D e = (r : EReal)) (hc : ∃ r : ℝ, c = (r : EReal))
    (hD' : ∀ e ∈ F, D' e = c) :
    ∑ e ∈ F, H e * (D e * D' e) = (∑ e ∈ F, H e * D e) * c := by
  obtain ⟨r, rfl⟩ := hc
  choose a ha using hH
  choose b hb using hD
  have h1 : ∑ e ∈ F, H e * (D e * D' e) = ∑ e ∈ F, ((a e * (b e * r) : ℝ) : EReal) :=
    Finset.sum_congr rfl fun e he => by rw [hD' e he, ha, hb, ← EReal.coe_mul, ← EReal.coe_mul]
  have h2 : ∑ e ∈ F, H e * D e = ∑ e ∈ F, ((a e * b e : ℝ) : EReal) :=
    Finset.sum_congr rfl fun e _ => by rw [ha, hb, ← EReal.coe_mul]
  rw [h1, h2, ← coe_sum, ← coe_sum, ← EReal.coe_mul, Finset.sum_mul]
  refine congrArg _ (Finset.sum_congr rfl fun e _ => ?_)
  ring

/-! ## The dense stages keep real-valued arrays real-valued -/

/-- A matrix product of real-valued arrays is real-valued. -/
theorem mm_real {A K B : Nat} (x : (⟨2, ![A, K]⟩ : Shape).Idx → EReal) (w : (⟨2, ![K, B]⟩ : Shape).Idx → EReal)
    (hx : ∀ i, ∃ r : ℝ, x i = (r : EReal)) (hw : ∀ i, ∃ r : ℝ, w i = (r : EReal)) :
    ∀ i, ∃ r : ℝ, Cert.Closed.mm x w i = (r : EReal) := fun i =>
  sum_real _ _ fun k _ => mul_real (hx _) (hw _)

/-- A real-valued array scaled by a real-valued column, shifted by a real-valued row and clipped below at zero is
    real-valued. -/
theorem act_real {A K : Nat} (a : (⟨2, ![A, K]⟩ : Shape).Idx → EReal) (d : (⟨2, ![A, 1]⟩ : Shape).Idx → EReal)
    (b : (⟨2, ![1, K]⟩ : Shape).Idx → EReal) (ha : ∀ i, ∃ r : ℝ, a i = (r : EReal))
    (hd : ∀ i, ∃ r : ℝ, d i = (r : EReal)) (hb : ∀ i, ∃ r : ℝ, b i = (r : EReal)) :
    ∀ i, ∃ r : ℝ, Cert.Closed.act a d b i = (r : EReal) := fun i =>
  max_zero_real (add_real (mul_real (ha _) (hd _)) (hb _))

end Cert.Layers

end
-- ==== Proof.LayerApply.lean ====
import proofs.«167228_j83399674954443_2_alg».proof.Proof.Stages
import proofs.«167228_j83399674954443_2_alg».proof.Proof.StagesRef
import proofs.«167228_j83399674954443_2_alg».proof.Proof.Closed
import proofs.«167228_j83399674954443_2_alg».proof.Proof.IndexOps
import proofs.«167228_j83399674954443_2_alg».proof.Proof.LayerIdx
import proofs.«167228_j83399674954443_2_alg».proof.Proof.LayerSum
import Idealize.ShloMosaic.Lib.ValueIdx
import Idealize.ShloMosaic.Lib.Pipeline.Value
import Idealize.ShloMosaic.Lib.ValueLayout
import Idealize.ShloMosaic.PureOps.Ideal.Laws

/-! # A layer's aggregate, read at an entry

The kernel program's aggregate at node `n`, feature `j` is the sum, over the edges whose destination word read signed
is `n`, of the scaled row entry at the edge's source node. The reference's layer at `(n, j)` is the sum over the same
edges of the unscaled entry times the product of the two ends' node scales, plus the bias. Real-valued operands give
real-valued aggregates. -/

noncomputable section

open scoped BigOperators

namespace Cert.Layers

open Idealize.ShloMosaic Idealize.ShloMosaic.ValueIdx Cert.IndexOps

/-! ## The two programs' word stages are the same functions -/

theorem colL_ref (v : IVec Cert.ReferenceIdeal.S1700000 32) :
    Cert.ReferenceIdeal.Stage.colL v = Cert.KernelIdeal.Stage.colL v := rfl
theorem wrapL_ref (v : IVec Cert.ReferenceIdeal.S1700000 32) :
    Cert.ReferenceIdeal.Stage.wrapL v = Cert.KernelIdeal.Stage.wrapL v := rfl
theorem scaleOf_ref (g : FVec Ideal Cert.ReferenceIdeal.S100000 .f32) :
    Cert.ReferenceIdeal.Stage.scaleOf g = Cert.KernelIdeal.Stage.scaleOf g := rfl

/-- The edges that land at node `n`: those whose destination word, read signed, is `n`. -/
abbrev landing (d : IVec Cert.KernelIdeal.S1700000 32) (n : Fin 100000) : Finset (Fin 1700000) :=
  Finset.univ.filter fun e : Fin 1700000 => (d (ix1 e)).toInt = (n.val : Int)

/-- The source node of edge `e`: its source word wrapped, then clamped. -/
abbrev src (s : IVec Cert.KernelIdeal.S1700000 32) (e : Fin 1700000) : Fin 100000 :=
  node (Cert.KernelIdeal.Stage.wrapL s (ix1 e))

/-- An edge that lands at `n` has destination node `n`: its word is not negative, so the wrap leaves it, and the
    clamp of `n` is `n`. -/
theorem dst_of_landing (d : IVec Cert.KernelIdeal.S1700000 32) (n : Fin 100000) (e : Fin 1700000)
    (he : e ∈ landing d n) : node (Cert.KernelIdeal.Stage.wrapL d (ix1 e)) = n := by
  have h1 : (d (ix1 e)).toInt = (n.val : Int) := (Finset.mem_filter.mp he).2
  rw [wrapL_of_nonneg d e (by omega)]
  exact node_of_toInt _ n h1

/-! ## The kernel program's aggregates -/

theorem agg128_apply (h : FVec Ideal Cert.KernelIdeal.S100000x128 .bf16) (dc : FVec Ideal Cert.KernelIdeal.S100000x1 .f32)
    (s d : IVec Cert.KernelIdeal.S1700000 32) (n : Fin 100000) (j : Fin 128) :
    Cert.KernelIdeal.Stage.agg128 h dc s d (ix2 n j)
      = ∑ e ∈ landing d n, h (ix2 (src s e) j) * dc (ix2 (src s e) (0 : Fin 1)) := by
  unfold Cert.KernelIdeal.Stage.agg128
  rw [scatterAdd128_apply, zeros_apply, zero_add]
  simp only [colL_apply]
  refine Finset.sum_congr rfl fun e _ => ?_
  rw [extf_apply, gather128_apply, truncf_apply, mulf_apply, extf_apply, colL_apply]
  exact congrArg _ (broadcastInDim_a1_ab_apply dc _ _ j)

theorem agg64_apply (h : FVec Ideal Cert.KernelIdeal.S100000x64 .bf16) (dc : FVec Ideal Cert.KernelIdeal.S100000x1 .f32)
    (s d : IVec Cert.KernelIdeal.S1700000 32) (n : Fin 100000) (j : Fin 64) :
    Cert.KernelIdeal.Stage.agg64 h dc s d (ix2 n j)
      = ∑ e ∈ landing d n, h (ix2 (src s e) j) * dc (ix2 (src s e) (0 : Fin 1)) := by
  unfold Cert.KernelIdeal.Stage.agg64
  rw [scatterAdd64_apply, zeros_apply, zero_add]
  simp only [colL_apply]
  refine Finset.sum_congr rfl fun e _ => ?_
  rw [extf_apply, gather64_apply, truncf_apply, mulf_apply, extf_apply, colL_apply]
  exact congrArg _ (broadcastInDim_a1_ab_apply dc _ _ j)

/-! ## The reference's layers -/

/-- The per-edge weight: the product of the node scales at the edge's two end nodes. -/
theorem edgeNorm_apply (dv : FVec Ideal Cert.ReferenceIdeal.S100000 .f32) (s d : IVec Cert.ReferenceIdeal.S1700000 32)
    (e : Fin 1700000) :
    Cert.ReferenceIdeal.Stage.edgeNorm dv s d (ix1 e)
      = dv (ix1 (src s e)) * dv (ix1 (node (Cert.KernelIdeal.Stage.wrapL d (ix1 e)))) := by
  unfold Cert.ReferenceIdeal.Stage.edgeNorm
  rw [mulf_apply, gather1_apply, gather1_apply, colL_ref, colL_ref, wrapL_ref, wrapL_ref, colL_apply, colL_apply]

theorem layer128_apply (h : FVec Ideal Cert.ReferenceIdeal.S100000x128 .f32) (dv : FVec Ideal Cert.ReferenceIdeal.S100000 .f32)
    (s d : IVec Cert.ReferenceIdeal.S1700000 32) (b : FVec Ideal Cert.ReferenceIdeal.S128 .f32) (n : Fin 100000) (j : Fin 128) :
    Cert.ReferenceIdeal.Stage.layer128 h dv s d b (ix2 n j)
      = (∑ e ∈ landing d n, h (ix2 (src s e) j)
            * (dv (ix1 (src s e)) * dv (ix1 (node (Cert.KernelIdeal.Stage.wrapL d (ix1 e)))))) + b (ix1 j) := by
  unfold Cert.ReferenceIdeal.Stage.layer128
  rw [addf_apply, scatter128_eq, scatterAdd128_apply, zeros_apply, zero_add, broadcastInDim_1b_ab_apply,
    broadcastInDim_b_1b_apply]
  simp only [colL_ref, colL_apply]
  refine congrArg (· + b (ix1 j)) (Finset.sum_congr rfl fun e _ => ?_)
  rw [mulf_apply, gather128_eq, gather128_apply, wrapL_ref, colL_apply, broadcastInDim_a1_ab_apply,
    colLf_apply, edgeNorm_apply]

theorem layer64_apply (h : FVec Ideal Cert.ReferenceIdeal.S100000x64 .f32) (dv : FVec Ideal Cert.ReferenceIdeal.S100000 .f32)
    (s d : IVec Cert.ReferenceIdeal.S1700000 32) (b : FVec Ideal Cert.ReferenceIdeal.S64 .f32) (n : Fin 100000) (j : Fin 64) :
    Cert.ReferenceIdeal.Stage.layer64 h dv s d b (ix2 n j)
      = (∑ e ∈ landing d n, h (ix2 (src s e) j)
            * (dv (ix1 (src s e)) * dv (ix1 (node (Cert.KernelIdeal.Stage.wrapL d (ix1 e)))))) + b (ix1 j) := by
  unfold Cert.ReferenceIdeal.Stage.layer64
  rw [addf_apply, scatter64_eq, scatterAdd64_apply, zeros_apply, zero_add, broadcastInDim_1b_ab_apply,
    broadcastInDim_b_1b_apply]
  simp only [colL_ref, colL_apply]
  refine congrArg (· + b (ix1 j)) (Finset.sum_congr rfl fun e _ => ?_)
  rw [mulf_apply, gather64_eq, gather64_apply, wrapL_ref, colL_apply, broadcastInDim_a1_ab_apply,
    colLf_apply, edgeNorm_apply]

/-! ## Real-valued operands give real-valued aggregates -/

theorem agg128_real (h : FVec Ideal Cert.KernelIdeal.S100000x128 .f32) (g : FVec Ideal Cert.KernelIdeal.S100000 .f32)
    (s d : IVec Cert.KernelIdeal.S1700000 32) (hh : ∀ i, ∃ r : ℝ, h i = (r : EReal))
    (hg : ∀ i, ∃ r : ℝ, Cert.KernelIdeal.Stage.scaleOf g i = (r : EReal)) :
    ∀ i, ∃ r : ℝ, Cert.KernelIdeal.Stage.agg128 h (Cert.KernelIdeal.Stage.scaleCol g) s d i = (r : EReal) := by
  intro i
  obtain ⟨n, j, rfl⟩ : ∃ (n : Fin 100000) (j : Fin 128), i = ix2 n j := ⟨i 0, i 1, eq_ix2 i⟩
  rw [agg128_apply h _ s d n j]
  refine sum_real _ _ fun e _ => mul_real (hh _) ?_
  rw [scaleCol_apply]
  exact hg _

theorem agg64_real (h : FVec Ideal Cert.KernelIdeal.S100000x64 .f32) (g : FVec Ideal Cert.KernelIdeal.S100000 .f32)
    (s d : IVec Cert.KernelIdeal.S1700000 32) (hh : ∀ i, ∃ r : ℝ, h i = (r : EReal))
    (hg : ∀ i, ∃ r : ℝ, Cert.KernelIdeal.Stage.scaleOf g i = (r : EReal)) :
    ∀ i, ∃ r : ℝ, Cert.KernelIdeal.Stage.agg64 h (Cert.KernelIdeal.Stage.scaleCol g) s d i = (r : EReal) := by
  intro i
  obtain ⟨n, j, rfl⟩ : ∃ (n : Fin 100000) (j : Fin 64), i = ix2 n j := ⟨i 0, i 1, eq_ix2 i⟩
  rw [agg64_apply h _ s d n j]
  refine sum_real _ _ fun e _ => mul_real (hh _) ?_
  rw [scaleCol_apply]
  exact hg _

/-- The last layer's node features at an entry: the node scale times the aggregate, plus the bias. -/
theorem nodeOut_apply (a : FVec Ideal Cert.KernelIdeal.S100000x64 .f32) (dc : FVec Ideal Cert.KernelIdeal.S100000x1 .f32)
    (b : FVec Ideal Cert.KernelIdeal.S64 .f32) (n : Fin 100000) (j : Fin 64) :
    Cert.KernelIdeal.Stage.nodeOut a dc b (ix2 n j) = dc (ix2 n (0 : Fin 1)) * a (ix2 n j) + b (ix1 j) := by
  unfold Cert.KernelIdeal.Stage.nodeOut
  rw [addf_apply, mulf_apply, broadcastInDim_a1_ab_apply, broadcastInDim_1b_ab_apply, broadcastInDim_b_1b_apply]

theorem nodeOut_real (a : FVec Ideal Cert.KernelIdeal.S100000x64 .f32) (g : FVec Ideal Cert.KernelIdeal.S100000 .f32)
    (b : FVec Ideal Cert.KernelIdeal.S64 .f32) (ha : ∀ i, ∃ r : ℝ, a i = (r : EReal))
    (hg : ∀ i, ∃ r : ℝ, Cert.KernelIdeal.Stage.scaleOf g i = (r : EReal)) (hb : ∀ i, ∃ r : ℝ, b i = (r : EReal)) :
    ∀ i, ∃ r : ℝ, Cert.KernelIdeal.Stage.nodeOut a (Cert.KernelIdeal.Stage.scaleCol g) b i = (r : EReal) := by
  intro i
  obtain ⟨n, j, rfl⟩ : ∃ (n : Fin 100000) (j : Fin 64), i = ix2 n j := ⟨i 0, i 1, eq_ix2 i⟩
  rw [nodeOut_apply, scaleCol_apply]
  exact add_real (mul_real (hg _) (ha _)) (hb _)

/-- The node scale as a column is real-valued when the node scale is. -/
theorem scaleCol_real (g : FVec Ideal Cert.KernelIdeal.S100000 .f32)
    (hg : ∀ i, ∃ r : ℝ, Cert.KernelIdeal.Stage.scaleOf g i = (r : EReal)) :
    ∀ i, ∃ r : ℝ, Cert.KernelIdeal.Stage.scaleCol g i = (r : EReal) := by
  intro i
  obtain ⟨n, u, rfl⟩ : ∃ (n : Fin 100000) (u : Fin 1), i = ix2 n u := ⟨i 0, i 1, eq_ix2 i⟩
  unfold Cert.KernelIdeal.Stage.scaleCol
  rw [shapeCast_a_a1_apply]
  exact hg _

/-- A real-valued bias vector as a one-row array is real-valued. -/
theorem row128_real (b : FVec Ideal Cert.KernelIdeal.S128 .f32) (hb : ∀ i, ∃ r : ℝ, b i = (r : EReal)) :
    ∀ i, ∃ r : ℝ, Cert.KernelIdeal.Stage.row128 b i = (r : EReal) := by
  intro i
  obtain ⟨u, j, rfl⟩ : ∃ (u : Fin 1) (j : Fin 128), i = ix2 u j := ⟨i 0, i 1, eq_ix2 i⟩
  unfold Cert.KernelIdeal.Stage.row128
  rw [shapeCast_a_1a_apply]
  exact hb _

end Cert.Layers

end
-- ==== Proof.Layers.lean ====
import proofs.«167228_j83399674954443_2_alg».proof.Proof.Stages
import proofs.«167228_j83399674954443_2_alg».proof.Proof.StagesRef
import proofs.«167228_j83399674954443_2_alg».proof.Proof.Closed
import proofs.«167228_j83399674954443_2_alg».proof.Proof.IndexOps
import proofs.«167228_j83399674954443_2_alg».proof.Proof.LayerIdx
import proofs.«167228_j83399674954443_2_alg».proof.Proof.LayerSum
import proofs.«167228_j83399674954443_2_alg».proof.Proof.LayerApply
import Idealize.ShloMosaic.Lib.ValueIdx
import Idealize.ShloMosaic.Lib.Pipeline.Value
import Idealize.ShloMosaic.Lib.ValueLayout
import Idealize.ShloMosaic.PureOps.Ideal.Laws

/-! # One layer of the two programs is the same function

At node `n`, feature `j` the reference's layer is the sum, over the edges `e` that land at `n`, of
`h (src e, j) · (dv (src e) · dv (dst e))`, plus the bias; the kernel program's is
`(Σ h (src e, j) · dv (src e)) · dv n`, plus the bias. An edge that lands at `n` has `dst e = n`, and `dv n`, a real
number, comes out of a finite sum of real numbers. -/

noncomputable section

open scoped BigOperators

namespace Cert.Layers

open Idealize.ShloMosaic Idealize.ShloMosaic.ValueIdx Cert.IndexOps

/-- The sum identity behind both layers: the node scale at the landing node comes out of the sum over the landing
    edges. -/
theorem landing_sum {C : ℕ} (h : (⟨2, ![100000, C]⟩ : Shape).Idx → EReal) (g : FVec Ideal Cert.KernelIdeal.S100000 .f32)
    (s d : IVec Cert.KernelIdeal.S1700000 32) (n : Fin 100000) (j : Fin C)
    (hh : ∀ i, ∃ r : ℝ, h i = (r : EReal)) (hg : ∀ i, ∃ r : ℝ, Cert.KernelIdeal.Stage.scaleOf g i = (r : EReal)) :
    ∑ e ∈ landing d n, h (ix2 (src s e) j)
        * (Cert.KernelIdeal.Stage.scaleOf g (ix1 (src s e))
            * Cert.KernelIdeal.Stage.scaleOf g (ix1 (node (Cert.KernelIdeal.Stage.wrapL d (ix1 e)))))
      = (∑ e ∈ landing d n, h (ix2 (src s e) j) * Cert.KernelIdeal.Stage.scaleCol g (ix2 (src s e) (0 : Fin 1)))
          * Cert.KernelIdeal.Stage.scaleOf g (ix1 n) := by
  have h2 : ∑ e ∈ landing d n, h (ix2 (src s e) j) * Cert.KernelIdeal.Stage.scaleCol g (ix2 (src s e) (0 : Fin 1))
      = ∑ e ∈ landing d n, h (ix2 (src s e) j) * Cert.KernelIdeal.Stage.scaleOf g (ix1 (src s e)) :=
    Finset.sum_congr rfl fun e _ => by rw [scaleCol_apply]
  rw [h2]
  exact sum_factor (landing d n) (fun e => h (ix2 (src s e) j))
    (fun e => Cert.KernelIdeal.Stage.scaleOf g (ix1 (src s e)))
    (fun e => Cert.KernelIdeal.Stage.scaleOf g (ix1 (node (Cert.KernelIdeal.Stage.wrapL d (ix1 e)))))
    (Cert.KernelIdeal.Stage.scaleOf g (ix1 n)) (fun _ => hh _) (fun _ => hg _) (hg _)
    (fun e he => by rw [dst_of_landing d n e he])

/-- A 128-feature layer of the reference, clipped below at zero, is the kernel program's aggregate scaled by the node
    scale, shifted by the bias and clipped. -/
theorem layer128_eq (h : FVec Ideal Cert.KernelIdeal.S100000x128 .f32) (g : FVec Ideal Cert.KernelIdeal.S100000 .f32)
    (s d : IVec Cert.KernelIdeal.S1700000 32) (b : FVec Ideal Cert.KernelIdeal.S128 .f32)
    (hh : ∀ i, ∃ r : ℝ, h i = (r : EReal))
    (hg : ∀ i, ∃ r : ℝ, Cert.KernelIdeal.Stage.scaleOf g i = (r : EReal)) :
    Cert.ReferenceIdeal.Stage.relu128 (Cert.ReferenceIdeal.Stage.layer128 h (Cert.ReferenceIdeal.Stage.scaleOf g) s d b)
      = Cert.Closed.act (Cert.KernelIdeal.Stage.agg128 h (Cert.KernelIdeal.Stage.scaleCol g) s d)
          (Cert.KernelIdeal.Stage.scaleCol g) (Cert.KernelIdeal.Stage.row128 b) := by
  funext i
  obtain ⟨n, j, rfl⟩ : ∃ (n : Fin 100000) (j : Fin 128), i = ix2 n j := ⟨i 0, i 1, eq_ix2 i⟩
  have hR : Cert.Closed.act (Cert.KernelIdeal.Stage.agg128 h (Cert.KernelIdeal.Stage.scaleCol g) s d)
        (Cert.KernelIdeal.Stage.scaleCol g) (Cert.KernelIdeal.Stage.row128 b) (ix2 n j)
      = max (Cert.KernelIdeal.Stage.agg128 h (Cert.KernelIdeal.Stage.scaleCol g) s d (ix2 n j)
            * Cert.KernelIdeal.Stage.scaleCol g (ix2 n (0 : Fin 1))
          + Cert.KernelIdeal.Stage.row128 b (ix2 (0 : Fin 1) j)) 0 := rfl
  rw [hR]
  unfold Cert.ReferenceIdeal.Stage.relu128 Cert.KernelIdeal.Stage.row128
  rw [maximumf_apply, zeros_apply, layer128_apply, scaleOf_ref, agg128_apply h _ s d n j, scaleCol_apply,
    shapeCast_a_1a_apply]
  exact congrArg (fun t => max (t + b (ix1 j)) 0) (landing_sum h g s d n j hh hg)

/-- The 64-feature layer of the reference is the kernel program's last node stage. -/
theorem layer64_eq (h : FVec Ideal Cert.KernelIdeal.S100000x64 .f32) (g : FVec Ideal Cert.KernelIdeal.S100000 .f32)
    (s d : IVec Cert.KernelIdeal.S1700000 32) (b : FVec Ideal Cert.KernelIdeal.S64 .f32)
    (hh : ∀ i, ∃ r : ℝ, h i = (r : EReal))
    (hg : ∀ i, ∃ r : ℝ, Cert.KernelIdeal.Stage.scaleOf g i = (r : EReal)) :
    Cert.ReferenceIdeal.Stage.layer64 h (Cert.ReferenceIdeal.Stage.scaleOf g) s d b
      = Cert.KernelIdeal.Stage.nodeOut (Cert.KernelIdeal.Stage.agg64 h (Cert.KernelIdeal.Stage.scaleCol g) s d)
          (Cert.KernelIdeal.Stage.scaleCol g) b := by
  funext i
  obtain ⟨n, j, rfl⟩ : ∃ (n : Fin 100000) (j : Fin 64), i = ix2 n j := ⟨i 0, i 1, eq_ix2 i⟩
  rw [layer64_apply, scaleOf_ref, nodeOut_apply, agg64_apply h _ s d n j, scaleCol_apply,
    mul_comm (Cert.KernelIdeal.Stage.scaleOf g (ix1 n))]
  exact congrArg (fun t => t + b (ix1 j)) (landing_sum h g s d n j hh hg)

end Cert.Layers

end
-- ==== Proof.Bridge.lean ====
import proofs.«167228_j83399674954443_2_alg».proof.Proof.Stages
import proofs.«167228_j83399674954443_2_alg».proof.Proof.StagesRef
import proofs.«167228_j83399674954443_2_alg».proof.Proof.Closed
import proofs.«167228_j83399674954443_2_alg».proof.Proof.IndexOps
import proofs.«167228_j83399674954443_2_alg».proof.Proof.LayerIdx
import proofs.«167228_j83399674954443_2_alg».proof.Proof.LayerSum
import proofs.«167228_j83399674954443_2_alg».proof.Proof.LayerApply
import proofs.«167228_j83399674954443_2_alg».proof.Proof.Layers
import proofs.«167228_j83399674954443_2_alg».proof.Proof.EdgeStage
import Idealize.ShloMosaic.Lib.ValueIdx
import Idealize.ShloMosaic.Lib.Pipeline.Value
import Idealize.ShloMosaic.Lib.ValueLayout
import Idealize.ShloMosaic.PureOps.Ideal.Laws

/-! # The two programs compute the same result

Both programs run three layers and an edge stage over the same edge words. The reference's layers and the kernel
program's agree one by one: a dense product is the closed matrix product, a layer of the reference is the kernel
program's aggregate scaled, shifted (and, for the first two, clipped), and the clipped layer feeding the next dense
product is the kernel program's fused dense stage. Real-valuedness is carried along from the arguments. -/

noncomputable section

open scoped BigOperators

namespace Cert.Layers

open Idealize.ShloMosaic Idealize.ShloMosaic.ValueIdx Cert.IndexOps

theorem result_eq
    (x : FVec Ideal Cert.KernelIdeal.S100000x128 .f32) (ei : IVec Cert.KernelIdeal.S2x1600000 32)
    (w0 : FVec Ideal Cert.KernelIdeal.S128x128 .f32) (b0 : FVec Ideal Cert.KernelIdeal.S128 .f32)
    (w1 : FVec Ideal Cert.KernelIdeal.S128x128 .f32) (b1 : FVec Ideal Cert.KernelIdeal.S128 .f32)
    (w2 : FVec Ideal Cert.KernelIdeal.S128x64 .f32) (b2 : FVec Ideal Cert.KernelIdeal.S64 .f32)
    (m1 : FVec Ideal Cert.KernelIdeal.S64x64 .f32) (c1 : FVec Ideal Cert.KernelIdeal.S64 .f32)
    (m2 : FVec Ideal Cert.KernelIdeal.S64x2 .f32) (c2 : FVec Ideal Cert.KernelIdeal.S2 .f32)
    (hx : ∀ i, ∃ r : ℝ, x i = (r : EReal)) (hw0 : ∀ i, ∃ r : ℝ, w0 i = (r : EReal))
    (hb0 : ∀ i, ∃ r : ℝ, b0 i = (r : EReal)) (hw1 : ∀ i, ∃ r : ℝ, w1 i = (r : EReal))
    (hb1 : ∀ i, ∃ r : ℝ, b1 i = (r : EReal)) (hw2 : ∀ i, ∃ r : ℝ, w2 i = (r : EReal))
    (hb2 : ∀ i, ∃ r : ℝ, b2 i = (r : EReal))
    (hdeg : Cert.ReferenceIdeal.Stage.degree (Cert.ReferenceIdeal.Stage.withLoops (Cert.ReferenceIdeal.Stage.edgeRow1 ei))
      = Cert.KernelIdeal.Stage.degree (Cert.KernelIdeal.Stage.withLoops (Cert.KernelIdeal.Stage.edgeRow1 ei)))
    (hsc : ∀ i, ∃ r : ℝ, Cert.KernelIdeal.Stage.scaleOf
      (Cert.KernelIdeal.Stage.degree (Cert.KernelIdeal.Stage.withLoops (Cert.KernelIdeal.Stage.edgeRow1 ei))) i = (r : EReal)) :
    Cert.ReferenceIdeal.Stage.result x ei w0 b0 w1 b1 w2 b2 m1 c1 m2 c2
      = Cert.KernelIdeal.Stage.result x ei w0 b0 w1 b1 w2 b2 m1 c1 m2 c2 := by
  -- the two programs cut the edge list and append the self-loops by the same operations
  have hs : Cert.ReferenceIdeal.Stage.withLoops (Cert.ReferenceIdeal.Stage.edgeRow0 ei)
      = Cert.KernelIdeal.Stage.withLoops (Cert.KernelIdeal.Stage.edgeRow0 ei) := rfl
  have hd : Cert.ReferenceIdeal.Stage.withLoops (Cert.ReferenceIdeal.Stage.edgeRow1 ei)
      = Cert.KernelIdeal.Stage.withLoops (Cert.KernelIdeal.Stage.edgeRow1 ei) := rfl
  have h0 : Cert.ReferenceIdeal.Stage.edgeRow0 ei = Cert.KernelIdeal.Stage.edgeRow0 ei := rfl
  have h1 : Cert.ReferenceIdeal.Stage.edgeRow1 ei = Cert.KernelIdeal.Stage.edgeRow1 ei := rfl
  unfold Cert.ReferenceIdeal.Stage.result Cert.KernelIdeal.Stage.result Cert.Closed.mmf
  dsimp only
  rw [hdeg, hs, hd, h0, h1]
  generalize Cert.KernelIdeal.Stage.degree (Cert.KernelIdeal.Stage.withLoops (Cert.KernelIdeal.Stage.edgeRow1 ei)) = g
    at hsc ⊢
  generalize Cert.KernelIdeal.Stage.withLoops (Cert.KernelIdeal.Stage.edgeRow0 ei) = s
  generalize Cert.KernelIdeal.Stage.withLoops (Cert.KernelIdeal.Stage.edgeRow1 ei) = d
  generalize Cert.KernelIdeal.Stage.edgeRow0 ei = s0
  generalize Cert.KernelIdeal.Stage.edgeRow1 ei = d0
  have hdc := scaleCol_real g hsc
  -- the first layer
  have r0 := mm_real x w0 hx hw0
  rw [dot128_eq x w0, layer128_eq (Cert.Closed.mm x w0) g s d b0 r0 hsc]
  -- the second layer: the clipped first layer times the weights is the fused dense stage
  have r1 := mm_real _ w1 (act_real _ _ _ (agg128_real (Cert.Closed.mm x w0) g s d r0 hsc) hdc (row128_real b0 hb0)) hw1
  rw [dot128_eq _ w1, layer128_eq _ g s d b1 r1 hsc]
  -- the third layer
  have r2 := mm_real _ w2 (act_real _ _ _ (agg128_real _ g s d r1 hsc) hdc (row128_real b1 hb1)) hw2
  rw [dot64_eq _ w2, layer64_eq _ g s d b2 r2 hsc]
  -- the edge stage
  exact Cert.EdgeStage.edge_eq _ s0 d0 m1 c1 m2 c2

end Cert.Layers

end
-- ==== Proof.lean ====
/- The proof of `Cert.Claim`: a three-layer graph network as a Pallas kernel program and as a jnp reference compute,
   over the extended reals, the same `[1600000, 2]` array of edge scores, for finite float inputs and nonnegative
   destination words.

   Both programs gather node rows at an edge's source and scatter-add them at its destination, three times, between
   dense products, then score each edge from the half-sum of its end nodes' rows. They differ in where the symmetric
   normalisation `deg^(-1/2)` sits: the reference multiplies every gathered row by the product of its two ends' scales
   before the scatter-add; the kernel program scales the rows once before the gather and the sums once after the
   scatter-add. For an edge that lands at node `n` the destination's scale is the scale of `n`, a factor common to
   every term of a finite sum of real numbers, so it moves outside the sum — which needs the terms to be REAL (the
   inputs are finite), not merely extended reals. The in-degrees agree because every destination word is
   nonnegative: the reference wraps a negative word by `N` before counting, the kernel program does not. The dense
   stages agree because a `tpu.matmul` into a zero accumulator and a host `dot_general` are the same sum of products,
   and a change of float format is the identity.

   The kernel program's run is its generated frame with the result array named (KernelRunNamed), its four dense
   stages' output arrays as closed whole-array functions (Region0 … Region3), its host stretches read stage by stage
   (KernelStretches, KernelWalk); the reference's run is its operations' composed term (RefRunP, RefValue); the two
   stage functions are equal (IndexOps, NodeScale, Layers, EdgeStage, Bridge); the precondition gives the real inputs
   and the nonnegative destination words (PreFacts). The ideal pass rewrote nothing, so `preserves` asks nothing. -/
import proofs.«167228_j83399674954443_2_alg».proof.Defs
import proofs.«167228_j83399674954443_2_alg».proof.Proof.Gen.Kernel.Frame
import proofs.«167228_j83399674954443_2_alg».proof.Proof.Gen.Pre_finite_inputs
import proofs.«167228_j83399674954443_2_alg».proof.Proof.KernelWalk
import proofs.«167228_j83399674954443_2_alg».proof.Proof.Region0
import proofs.«167228_j83399674954443_2_alg».proof.Proof.Region1n
import proofs.«167228_j83399674954443_2_alg».proof.Proof.Region2
import proofs.«167228_j83399674954443_2_alg».proof.Proof.Region3
import proofs.«167228_j83399674954443_2_alg».proof.Proof.RefValue
import proofs.«167228_j83399674954443_2_alg».proof.Proof.PreFacts
import proofs.«167228_j83399674954443_2_alg».proof.Proof.NodeScale
import proofs.«167228_j83399674954443_2_alg».proof.Proof.EdgeStage
import proofs.«167228_j83399674954443_2_alg».proof.Proof.Bridge

noncomputable section

namespace Cert.Proof

open Idealize.ShloMosaic Idealize.ShloMosaic.TcCoe Idealize.SL.Sem

/-- The word-level kernel program runs and leaves its arguments as launched: its generated frame. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2) (Cert.ReferenceIdeal.RefValue.run m ρ)

/-- The idealized kernel program's run: the result array ends at the program's stage function of the twelve
    argument arrays, which end as launched. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
      r.2.mem ((c.tc : Thread Cert.KernelIdeal.nD Cert.KernelIdeal.τ).loc Cert.KernelIdeal.main_v92)
        = Cert.KernelIdeal.Stage.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)) :=
  (θ_run (Cert.KernelIdeal.defs (F := Ideal)) _ _).mono
    (fun _ h c => ⟨(h c).1.trans (Cert.KernelIdeal.Walk.b10_v92 m ρ c Cert.KernelIdeal.RegionValue.final0
        Cert.KernelIdeal.RegionValue.final1 Cert.KernelIdeal.RegionValue.final2 Cert.KernelIdeal.RegionValue.final3), (h c).2⟩)
    (Cert.KernelIdeal.Gen.run_named (F := Ideal) m ρ)

/-- From memories that agree on the arguments the two idealized programs end with equal results: the kernel
    program's stage function of its arguments on one side, the reference's of the same arguments on the other, and
    the two stage functions are equal where the float inputs are real and the destination words nonnegative. -/
theorem algebraic : Cert.algebraic_KernelIdeal_ReferenceIdeal := by
  intro m ρ m' ρ' hpre hagree
  refine ⟨fun c => Cert.KernelIdeal.Stage.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), kernel_run m ρ, ?_⟩
  refine (θ_run (Cert.ReferenceIdeal.defs (F := Ideal)) _ _).mono (fun _ h c => ⟨(h c).1.trans ?_, (h c).2⟩)
    (Cert.ReferenceIdeal.RefValue.run m' ρ')
  obtain ⟨e0, e1, e2, e3, e4, e5, e6, e7, e8, e9, e10, e11⟩ := hagree c
  rw [e0, e1, e2, e3, e4, e5, e6, e7, e8, e9, e10, e11]
  obtain ⟨r0, r2, r3, r4, r5, r6, r7, _, _, _, _, hnn⟩ := Cert.PreFacts.of_pre _ _ _ _ _ _ _ _ _ _ _ _ (hpre c)
  exact Cert.Layers.result_eq _ _ _ _ _ _ _ _ _ _ _ _ r0 r2 r3 r4 r5 r6 r7
    (Cert.NodeScale.degree_eq_of_row _ hnn) (Cert.NodeScale.scale_real _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
